-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v11)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192x256 : Shape := ⟨2, ![8192, 256]⟩
abbrev S8192 : Shape := ⟨1, ![8192]⟩
abbrev S10 : Shape := ⟨1, ![10]⟩
abbrev S_ : Shape := ⟨0, ![]⟩

class Facts : Prop where
  bcast_S_S8192x256 : S_.BroadcastsInDim S8192x256 (![] : Fin 0 → Fin S8192x256.rank)
  reducesTo_S8192x256_S_d0_1 : S8192x256.ReducesTo [0, 1] S_
  h_S_ : 0 < S_.numel
  bcast_S_S10 : S_.BroadcastsInDim S10 (![] : Fin 0 → Fin S10.rank)
  reducesTo_S10_S_d0 : S10.ReducesTo [0] S_

variable [Facts]

def fn {F : FTy → Type} [FloatOps F] (main_arg0 : FVec F S8192x256 .f32) (main_arg1 : IVec S8192 32) (main_arg2 : FVec F S8192x256 .f32) (main_arg3 : FVec F S10 .f32) : IVec S_ 1 :=
  let main_v0 : FVec F S8192x256 .f32 := Host.absf main_arg0
  let main_cst : FVec F S_ .f32 := constant S_ .f32 0x7F800000#32
  let main_v1 : FVec F S8192x256 .f32 := broadcastInDim S8192x256 ![] bcast_S_S8192x256 main_cst
  let main_v2 : IVec S8192x256 1 := cmpf .olt main_v0 main_v1
  let main_c : IVec S_ 1 := constantI S_ 1 1#1
  let main_v3 : IVec S_ 1 := (fun x v => Host.reduce IntOp.andi x v reducesTo_S8192x256_S_d0_1 h_S_) main_v2 main_c
  let main_v4 : FVec F S8192x256 .f32 := Host.absf main_arg2
  let main_cst_0 : FVec F S_ .f32 := constant S_ .f32 0x7F800000#32
  let main_v5 : FVec F S8192x256 .f32 := broadcastInDim S8192x256 ![] bcast_S_S8192x256 main_cst_0
  let main_v6 : IVec S8192x256 1 := cmpf .olt main_v4 main_v5
  let main_c_1 : IVec S_ 1 := constantI S_ 1 1#1
  let main_v7 : IVec S_ 1 := (fun x v => Host.reduce IntOp.andi x v reducesTo_S8192x256_S_d0_1 h_S_) main_v6 main_c_1
  let main_v8 : IVec S_ 1 := andi main_v3 main_v7
  let main_v9 : FVec F S10 .f32 := Host.absf main_arg3
  let main_cst_2 : FVec F S_ .f32 := constant S_ .f32 0x7F800000#32
  let main_v10 : FVec F S10 .f32 := broadcastInDim S10 ![] bcast_S_S10 main_cst_2
  let main_v11 : IVec S10 1 := cmpf .olt main_v9 main_v10
  let main_c_3 : IVec S_ 1 := constantI S_ 1 1#1
  let main_v12 : IVec S_ 1 := (fun x v => Host.reduce IntOp.andi x v reducesTo_S10_S_d0 h_S_) main_v11 main_c_3
  let main_v13 : IVec S_ 1 := andi main_v8 main_v12
  main_v13
-- ==== Kernel.lean ====
abbrev S8192x256 : Shape := ⟨2, ![8192, 256]⟩
abbrev S8192 : Shape := ⟨1, ![8192]⟩
abbrev S10 : Shape := ⟨1, ![10]⟩
abbrev S1x1 : Shape := ⟨2, ![1, 1]⟩
abbrev S512x256 : Shape := ⟨2, ![512, 256]⟩
abbrev S512 : Shape := ⟨1, ![512]⟩
abbrev S512x1 : Shape := ⟨2, ![512, 1]⟩
abbrev S256x512 : Shape := ⟨2, ![256, 512]⟩
abbrev S512x512 : Shape := ⟨2, ![512, 512]⟩
abbrev S1x512 : Shape := ⟨2, ![1, 512]⟩
abbrev S1 : Shape := ⟨1, ![1]⟩
abbrev S_ : Shape := ⟨0, ![]⟩

abbrev nBuf : Space → Nat
  | .hbm => 20
  | .vmem => 18
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S10, .f32⟩
  | .hbm, ⟨4, _⟩ => ⟨S1x1, .f32⟩
  | .hbm, ⟨5, _⟩ => ⟨S_, .f32⟩
  | .hbm, ⟨6, _⟩ => ⟨S1x1, .f32⟩
  | .hbm, ⟨7, _⟩ => ⟨S_, .f32⟩
  | .hbm, ⟨8, _⟩ => ⟨S1x1, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S_, .f32⟩
  | .hbm, ⟨13, _⟩ => ⟨S_, .f32⟩
  | .hbm, ⟨14, _⟩ => ⟨S_, .f32⟩
  | .hbm, ⟨15, _⟩ => ⟨S_, .f32⟩
  | .hbm, ⟨16, _⟩ => ⟨S_, .f32⟩
  | .hbm, ⟨17, _⟩ => ⟨S_, .f32⟩
  | .hbm, ⟨18, _⟩ => ⟨S_, .f32⟩
  | .hbm, ⟨19, _⟩ => ⟨S_, .f32⟩
  | .local _ .vmem, ⟨0, _⟩ => ⟨S512x256, .f32⟩
  | .local _ .vmem, ⟨1, _⟩ => ⟨S512x256, .f32⟩
  | .local _ .vmem, ⟨2, _⟩ => ⟨S512x256, .f32⟩
  | .local _ .vmem, ⟨3, _⟩ => ⟨S512x256, .f32⟩
  | .local _ .vmem, ⟨4, _⟩ => ⟨S1x1, .f32⟩
  | .local _ .vmem, ⟨5, _⟩ => ⟨S1x1, .f32⟩
  | .local _ .vmem, ⟨6, _⟩ => ⟨S512x256, .f32⟩
  | .local _ .vmem, ⟨7, _⟩ => ⟨S512x256, .f32⟩
  | .local _ .vmem, ⟨8, _⟩ => ⟨S512x256, .f32⟩
  | .local _ .vmem, ⟨9, _⟩ => ⟨S512x256, .f32⟩
  | .local _ .vmem, ⟨10, _⟩ => ⟨S1x1, .f32⟩
  | .local _ .vmem, ⟨11, _⟩ => ⟨S1x1, .f32⟩
  | .local _ .vmem, ⟨12, _⟩ => ⟨S512x256, .f32⟩
  | .local _ .vmem, ⟨13, _⟩ => ⟨S512x256, .f32⟩
  | .local _ .vmem, ⟨14, _⟩ => ⟨S512x256, .f32⟩
  | .local _ .vmem, ⟨15, _⟩ => ⟨S512x256, .f32⟩
  | .local _ .vmem, ⟨16, _⟩ => ⟨S1x1, .f32⟩
  | .local _ .vmem, ⟨17, _⟩ => ⟨S1x1, .f32⟩
  | _, _ => ⟨S8192x256, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_cst : Ref sig .tc := ⟨.hbm, 10, rfl⟩
abbrev main_v6 : Ref sig .tc := ⟨.hbm, 11, rfl⟩
abbrev main_cst_0 : Ref sig .tc := ⟨.hbm, 12, rfl⟩
abbrev main_v7 : Ref sig .tc := ⟨.hbm, 13, rfl⟩
abbrev main_v8 : Ref sig .tc := ⟨.hbm, 14, rfl⟩
abbrev main_cst_1 : Ref sig .tc := ⟨.hbm, 15, rfl⟩
abbrev main_v9 : Ref sig .tc := ⟨.hbm, 16, rfl⟩
abbrev main_cst_2 : Ref sig .tc := ⟨.hbm, 17, rfl⟩
abbrev main_v10 : Ref sig .tc := ⟨.hbm, 18, rfl⟩
abbrev main_v11 : Ref sig .tc := ⟨.hbm, 19, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_scratch0 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_scratch0 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_scratch0 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc2_sem0_0 : DmaSem sig := 10
abbrev cc2_sem0_1 : DmaSem sig := 11
abbrev cc2_sem1_0 : DmaSem sig := 12
abbrev cc2_sem1_1 : DmaSem sig := 13
abbrev cc2_sem2_0 : DmaSem sig := 14

abbrev nD : Nat := 1
abbrev τ : Topo := Topo.v7x

variable {F : FTy → Type} [FloatOps F]

abbrev grid0 : Pipeline.Grid := ⟨2, ![16, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev grid1 : Pipeline.Grid := ⟨2, ![16, 16], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage1_0 : Fin 2 → Memref sig .tc .vmem S512x256 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S512x256 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 1 → Memref sig .tc .vmem S1x1 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev grid2 : Pipeline.Grid := ⟨2, ![16, 16], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

abbrev stage2_0 : Fin 2 → Memref sig .tc .vmem S512x256 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S512x256 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 1 → Memref sig .tc .vmem S1x1 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false, false]

class Facts₀ : Prop where
  inb_S1x1_S1x1_0_0 : ∀ a, (![0, 0] : Fin 2 → Nat) a + S1x1.size a ≤ S1x1.size a
  h_S1x1 : 0 < S1x1.numel
  shapeCasts_S1x1_S1x1 : S1x1.ShapeCasts S1x1
  inb_S512x256_S512x256_0_0 : ∀ a, (![0, 0] : Fin 2 → Nat) a + S512x256.size a ≤ S512x256.size a
  h_S512x256 : 0 < S512x256.numel
  reduces_S512x256_S512 : S512x256.Reduces [1] S512
  shapeCasts_S512_S512x1 : S512.ShapeCasts S512x1
  bitsLt_bf16_f32 : FTy.bits .bf16 < FTy.bits .f32
  transposes_S512x256_p1_0_S256x512 : S512x256.Transposes [1, 0] S256x512
  transposes_S512x1_p1_0_S1x512 : S512x1.Transposes [1, 0] S1x512
  broadcasts_S512x1_S512x512 : S512x1.Broadcasts S512x512
  broadcasts_S1x512_S512x512 : S1x512.Broadcasts S512x512
  reduces_S512x512_S512 : S512x512.Reduces [1] S512
  reduces_S512x1_S1 : S512x1.Reduces [0] S1
  shapeCasts_S1_S1x1 : S1.ShapeCasts S1x1
  shapeCasts_S1x1_S_ : S1x1.ShapeCasts S_
  dot_S512x256_S256x512_S512x512_1_0_0_1_n_n_wf : DotDims.WF S512x256 S256x512 S512x512 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x256.size a ≤ S8192x256.size a
  hwx0_0 : ∀ i : grid0.Coords, EltTy.bits .f32 = 32 ∨ (Rect.block (s := S8192x256) S512x256.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x256.size a ≤ S8192x256.size a
  hwx0_1 : ∀ i : grid0.Coords, EltTy.bits .f32 = 32 ∨ (Rect.block (s := S8192x256) S512x256.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1.size a ≤ S1x1.size a
  hwx0_2 : ∀ i : grid0.Coords, EltTy.bits .f32 = 32 ∨ (Rect.block (s := S1x1) S1x1.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S512x256.size a ≤ S8192x256.size a
  hwx1_0 : ∀ i : grid1.Coords, EltTy.bits .f32 = 32 ∨ (Rect.block (s := S8192x256) S512x256.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S512x256.size a ≤ S8192x256.size a
  hwx1_1 : ∀ i : grid1.Coords, EltTy.bits .f32 = 32 ∨ (Rect.block (s := S8192x256) S512x256.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S1x1.size a ≤ S1x1.size a
  hwx1_2 : ∀ i : grid1.Coords, EltTy.bits .f32 = 32 ∨ (Rect.block (s := S1x1) S1x1.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S512x256.size a ≤ S8192x256.size a
  hwx2_0 : ∀ i : grid2.Coords, EltTy.bits .f32 = 32 ∨ (Rect.block (s := S8192x256) S512x256.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S512x256.size a ≤ S8192x256.size a
  hwx2_1 : ∀ i : grid2.Coords, EltTy.bits .f32 = 32 ∨ (Rect.block (s := S8192x256) S512x256.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S1x1.size a ≤ S1x1.size a
  hwx2_2 : ∀ i : grid2.Coords, EltTy.bits .f32 = 32 ∨ (Rect.block (s := S1x1) S1x1.size (cc2_transform_2 i) (hinb2_2 i)).WholeWords (EltTy.packing .f32)

variable [Facts₀]

def dot_S512x256_S256x512_S512x512_1_0_0_1_n_n : DotDims S512x256 S256x512 S512x512 where
  lhsContracting := [1]
  rhsContracting := [0]
  lhsNonContracting := [0]
  rhsNonContracting := [1]
  lhsBatch := []
  rhsBatch := []
  wf := dot_S512x256_S256x512_S512x512_1_0_0_1_n_n_wf

abbrev win0_0 : Pipeline.Window sig grid0 :=
  Pipeline.Window.ofSpec (Memref.whole main_arg0) S512x256.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S512x256.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1.size cc0_transform_2 reads0_2 true true 1 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_arg2) S512x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg2) S512x256.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v2) S1x1.size cc1_transform_2 reads1_2 true true 1 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_arg0) S512x256.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg2) S512x256.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_v4) S1x1.size cc2_transform_2 reads2_2 true true 1 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

class Facts : Prop extends Facts₀ where

variable [Facts]
-- ==== ReferenceIdeal.lean ====
abbrev S8192x256 : Shape := ⟨2, ![8192, 256]⟩
abbrev S8192 : Shape := ⟨1, ![8192]⟩
abbrev S10 : Shape := ⟨1, ![10]⟩
abbrev S_ : Shape := ⟨0, ![]⟩
abbrev S8192x1 : Shape := ⟨2, ![8192, 1]⟩
abbrev S1x8192 : Shape := ⟨2, ![1, 8192]⟩
abbrev S8192x8192 : Shape := ⟨2, ![8192, 8192]⟩
abbrev S256x8192 : Shape := ⟨2, ![256, 8192]⟩

abbrev nBuf : Space → Nat
  | .hbm => 95
  | .vmem => 0
  | .smem => 0
  | _ => 0

abbrev bufTy : (tb : Table) → Fin (tcTables nBuf tb) → BufTy
  | .hbm, ⟨0, _⟩ => ⟨S8192x256, .f32⟩
  | .hbm, ⟨1, _⟩ => ⟨S8192, .i32⟩
  | .hbm, ⟨2, _⟩ => ⟨S8192x256, .f32⟩
  | .hbm, ⟨3, _⟩ => ⟨S10, .f32⟩
  | .hbm, ⟨4, _⟩ => ⟨S8192x256, .f32⟩
  | .hbm, ⟨5, _⟩ => ⟨S_, .f32⟩
  | .hbm, ⟨6, _⟩ => ⟨S8192, .f32⟩
  | .hbm, ⟨7, _⟩ => ⟨S8192x256, .f32⟩
  | .hbm, ⟨8, _⟩ => ⟨S_, .f32⟩
  | .hbm, ⟨9, _⟩ => ⟨S8192, .f32⟩
  | .hbm, ⟨10, _⟩ => ⟨S8192x1, .f32⟩
  | .hbm, ⟨11, _⟩ => ⟨S1x8192, .f32⟩
  | .hbm, ⟨12, _⟩ => ⟨S8192x8192, .f32⟩
  | .hbm, ⟨13, _⟩ => ⟨S8192x8192, .f32⟩
  | .hbm, ⟨14, _⟩ => ⟨S8192x8192, .f32⟩
  | .hbm, ⟨15, _⟩ => ⟨S256x8192, .f32⟩
  | .hbm, ⟨16, _⟩ => ⟨S8192x8192, .f32⟩
  | .hbm, ⟨17, _⟩ => ⟨S_, .f32⟩
  | .hbm, ⟨18, _⟩ => ⟨S8192x8192, .f32⟩
  | .hbm, ⟨19, _⟩ => ⟨S8192x8192, .f32⟩
  | .hbm, ⟨20, _⟩ => ⟨S8192x8192, .f32⟩
  | .hbm, ⟨21, _⟩ => ⟨S_, .f32⟩
  | .hbm, ⟨22, _⟩ => ⟨S8192x8192, .f32⟩
  | .hbm, ⟨23, _⟩ => ⟨S8192x8192, .f32⟩
  | .hbm, ⟨24, _⟩ => ⟨S8192x8192, .f32⟩
  | .hbm, ⟨25, _⟩ => ⟨S_, .f32⟩
  | .hbm, ⟨26, _⟩ => ⟨S8192x8192, .f32⟩
  | .hbm, ⟨27, _⟩ => ⟨S8192x8192, .f32⟩
  | .hbm, ⟨28, _⟩ => ⟨S8192x8192, .f32⟩
  | .hbm, ⟨29, _⟩ => ⟨S_, .f32⟩
  | .hbm, ⟨30, _⟩ => ⟨S_, .f32⟩
  | .hbm, ⟨31, _⟩ => ⟨S8192x256, .f32⟩
  | .hbm, ⟨32, _⟩ => ⟨S_, .f32⟩
  | .hbm, ⟨33, _⟩ => ⟨S8192, .f32⟩
  | .hbm, ⟨34, _⟩ => ⟨S8192x256, .f32⟩
  | .hbm, ⟨35, _⟩ => ⟨S_, .f32⟩
  | .hbm, ⟨36, _⟩ => ⟨S8192, .f32⟩
  | .hbm, ⟨37, _⟩ => ⟨S8192x1, .f32⟩
  | .hbm, ⟨38, _⟩ => ⟨S1x8192, .f32⟩
  | .hbm, ⟨39, _⟩ => ⟨S8192x8192, .f32⟩
  | .hbm, ⟨40, _⟩ => ⟨S8192x8192, .f32⟩
  | .hbm, ⟨41, _⟩ => ⟨S8192x8192, .f32⟩
  | .hbm, ⟨42, _⟩ => ⟨S256x8192, .f32⟩
  | .hbm, ⟨43, _⟩ => ⟨S8192x8192, .f32⟩
  | .hbm, ⟨44, _⟩ => ⟨S_, .f32⟩
  | .hbm, ⟨45, _⟩ => ⟨S8192x8192, .f32⟩
  | .hbm, ⟨46, _⟩ => ⟨S8192x8192, .f32⟩
  | .hbm, ⟨47, _⟩ => ⟨S8192x8192, .f32⟩
  | .hbm, ⟨48, _⟩ => ⟨S_, .f32⟩
  | .hbm, ⟨49, _⟩ => ⟨S8192x8192, .f32⟩
  | .hbm, ⟨50, _⟩ => ⟨S8192x8192, .f32⟩
  | .hbm, ⟨51, _⟩ => ⟨S8192x8192, .f32⟩
  | .hbm, ⟨52, _⟩ => ⟨S_, .f32⟩
  | .hbm, ⟨53, _⟩ => ⟨S8192x8192, .f32⟩
  | .hbm, ⟨54, _⟩ => ⟨S8192x8192, .f32⟩
  | .hbm, ⟨55, _⟩ => ⟨S8192x8192, .f32⟩
  | .hbm, ⟨56, _⟩ => ⟨S_, .f32⟩
  | .hbm, ⟨57, _⟩ => ⟨S_, .f32⟩
  | .hbm, ⟨58, _⟩ => ⟨S8192x256, .f32⟩
  | .hbm, ⟨59, _⟩ => ⟨S_, .f32⟩
  | .hbm, ⟨60, _⟩ => ⟨S8192, .f32⟩
  | .hbm, ⟨61, _⟩ => ⟨S8192x256, .f32⟩
  | .hbm, ⟨62, _⟩ => ⟨S_, .f32⟩
  | .hbm, ⟨63, _⟩ => ⟨S8192, .f32⟩
  | .hbm, ⟨64, _⟩ => ⟨S8192x1, .f32⟩
  | .hbm, ⟨65, _⟩ => ⟨S1x8192, .f32⟩
  | .hbm, ⟨66, _⟩ => ⟨S8192x8192, .f32⟩
  | .hbm, ⟨67, _⟩ => ⟨S8192x8192, .f32⟩
  | .hbm, ⟨68, _⟩ => ⟨S8192x8192, .f32⟩
  | .hbm, ⟨69, _⟩ => ⟨S256x8192, .f32⟩
  | .hbm, ⟨70, _⟩ => ⟨S8192x8192, .f32⟩
  | .hbm, ⟨71, _⟩ => ⟨S_, .f32⟩
  | .hbm, ⟨72, _⟩ => ⟨S8192x8192, .f32⟩
  | .hbm, ⟨73, _⟩ => ⟨S8192x8192, .f32⟩
  | .hbm, ⟨74, _⟩ => ⟨S8192x8192, .f32⟩
  | .hbm, ⟨75, _⟩ => ⟨S_, .f32⟩
  | .hbm, ⟨76, _⟩ => ⟨S8192x8192, .f32⟩
  | .hbm, ⟨77, _⟩ => ⟨S8192x8192, .f32⟩
  | .hbm, ⟨78, _⟩ => ⟨S8192x8192, .f32⟩
  | .hbm, ⟨79, _⟩ => ⟨S_, .f32⟩
  | .hbm, ⟨80, _⟩ => ⟨S8192x8192, .f32⟩
  | .hbm, ⟨81, _⟩ => ⟨S8192x8192, .f32⟩
  | .hbm, ⟨82, _⟩ => ⟨S8192x8192, .f32⟩
  | .hbm, ⟨83, _⟩ => ⟨S_, .f32⟩
  | .hbm, ⟨84, _⟩ => ⟨S_, .f32⟩
  | .hbm, ⟨85, _⟩ => ⟨S_, .f32⟩
  | .hbm, ⟨86, _⟩ => ⟨S_, .f32⟩
  | .hbm, ⟨87, _⟩ => ⟨S_, .f32⟩
  | .hbm, ⟨88, _⟩ => ⟨S_, .f32⟩
  | .hbm, ⟨89, _⟩ => ⟨S_, .f32⟩
  | .hbm, ⟨90, _⟩ => ⟨S_, .f32⟩
  | .hbm, ⟨91, _⟩ => ⟨S_, .f32⟩
  | .hbm, ⟨92, _⟩ => ⟨S_, .f32⟩
  | .hbm, ⟨93, _⟩ => ⟨S_, .f32⟩
  | .hbm, ⟨94, _⟩ => ⟨S_, .f32⟩
  | _, _ => ⟨S8192x256, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst_1 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_cst_2 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_3 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_cst_4 : Ref sig .tc := ⟨.hbm, 29, rfl⟩
abbrev main_v20 : Ref sig .tc := ⟨.hbm, 30, rfl⟩
abbrev main_v21 : Ref sig .tc := ⟨.hbm, 31, rfl⟩
abbrev main_cst_5 : Ref sig .tc := ⟨.hbm, 32, rfl⟩
abbrev main_v22 : Ref sig .tc := ⟨.hbm, 33, rfl⟩
abbrev main_v23 : Ref sig .tc := ⟨.hbm, 34, rfl⟩
abbrev main_cst_6 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_7 : Ref sig .tc := ⟨.hbm, 44, rfl⟩
abbrev main_v32 : Ref sig .tc := ⟨.hbm, 45, rfl⟩
abbrev main_v33 : Ref sig .tc := ⟨.hbm, 46, rfl⟩
abbrev main_v34 : Ref sig .tc := ⟨.hbm, 47, rfl⟩
abbrev main_cst_8 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_9 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_10 : Ref sig .tc := ⟨.hbm, 56, rfl⟩
abbrev main_v41 : Ref sig .tc := ⟨.hbm, 57, rfl⟩
abbrev main_v42 : Ref sig .tc := ⟨.hbm, 58, rfl⟩
abbrev main_cst_11 : Ref sig .tc := ⟨.hbm, 59, rfl⟩
abbrev main_v43 : Ref sig .tc := ⟨.hbm, 60, rfl⟩
abbrev main_v44 : Ref sig .tc := ⟨.hbm, 61, rfl⟩
abbrev main_cst_12 : Ref sig .tc := ⟨.hbm, 62, rfl⟩
abbrev main_v45 : Ref sig .tc := ⟨.hbm, 63, rfl⟩
abbrev main_v46 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_13 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_cst_14 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_cst_15 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_cst_16 : Ref sig .tc := ⟨.hbm, 83, rfl⟩
abbrev main_v62 : Ref sig .tc := ⟨.hbm, 84, rfl⟩
abbrev main_cst_17 : Ref sig .tc := ⟨.hbm, 85, rfl⟩
abbrev main_v63 : Ref sig .tc := ⟨.hbm, 86, rfl⟩
abbrev main_cst_18 : Ref sig .tc := ⟨.hbm, 87, rfl⟩
abbrev main_v64 : Ref sig .tc := ⟨.hbm, 88, rfl⟩
abbrev main_v65 : Ref sig .tc := ⟨.hbm, 89, rfl⟩
abbrev main_cst_19 : Ref sig .tc := ⟨.hbm, 90, rfl⟩
abbrev main_v66 : Ref sig .tc := ⟨.hbm, 91, rfl⟩
abbrev main_cst_20 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]

class Facts₀ : Prop where
  reducesTo_S8192x256_S8192_d1 : S8192x256.ReducesTo [1] S8192
  h_S_ : 0 < S_.numel
  bcast_S8192_S8192x1_0 : S8192.BroadcastsInDim S8192x1 (![0] : Fin 1 → Fin S8192x1.rank)
  bcast_S8192_S1x8192_1 : S8192.BroadcastsInDim S1x8192 (![1] : Fin 1 → Fin S1x8192.rank)
  bcast_S8192x1_S8192x8192_0_1 : S8192x1.BroadcastsInDim S8192x8192 (![0, 1] : Fin 2 → Fin S8192x8192.rank)
  bcast_S1x8192_S8192x8192_0_1 : S1x8192.BroadcastsInDim S8192x8192 (![0, 1] : Fin 2 → Fin S8192x8192.rank)
  transposes_S8192x256_S256x8192_1_0 : S8192x256.Transposes [1, 0] S256x8192
  bcast_S_S8192x8192 : S_.BroadcastsInDim S8192x8192 (![] : Fin 0 → Fin S8192x8192.rank)
  reducesTo_S8192x8192_S_d0_1 : S8192x8192.ReducesTo [0, 1] S_
  dot_S8192x256_S256x8192_S8192x8192_1_0_0_1_n_n_wf : DotDims.WF S8192x256 S256x8192 S8192x8192 [1] [0] [0] [1] [] []

variable [Facts₀]

def dot_S8192x256_S256x8192_S8192x8192_1_0_0_1_n_n : DotDims S8192x256 S256x8192 S8192x8192 where
  lhsContracting := [1]
  rhsContracting := [0]
  lhsNonContracting := [0]
  rhsNonContracting := [1]
  lhsBatch := []
  rhsBatch := []
  wf := dot_S8192x256_S256x8192_S8192x8192_1_0_0_1_n_n_wf

class Facts : Prop extends Facts₀ where

variable [Facts]
-- ==== Proof.K.R0.lean ====
/-
  Region 0's kernel body and its proof data.

  The body branches on the grid point: at the first point (both coordinates zero) it first stores the zero 1×1
  vector into the scratch accumulator; at every point it then loads the two 512×256 input blocks and the
  accumulator, stores accumulator + (this block pair's sum) back into the accumulator, reads it again and
  stores that into the 1×1 output block. So there are two cases: A, the first point, where the accumulator's
  incoming contents do not matter, and B, every later point, where they are what the point before left.
  What the output's staging buffer and the accumulator hold after point n is therefore a recursion on n
  (`held0`): case A's result at n = 0, case B's over the accumulator of point n − 1 afterwards. The region's
  invariant carries the accumulator at that value from one point to the next; the two input windows' buffers
  hold their blocks of the arrays at every point, fetched there or not; the output's buffer is written back
  only after the last point.
-/
import proofs.«164100_j38646115730032_1_alg».proof.Proof.Gen.Kernel.Launch
import proofs.«164100_j38646115730032_1_alg».proof.Proof.Gen.Kernel.Skeleton
import proofs.«164100_j38646115730032_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: both are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point and at no other: decided over the 256 points. -/
theorem hcond0 : ∀ t : Fin cfg0.N, cond0 (grid0.coords t) ↔ t.val = 0 :=
  (by decide +kernel : ∀ t : Fin grid0.N, cond0 (grid0.coords t) ↔ t.val = 0)

/-- No window is ever idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel

/-- Each window's current staging memref at point `t`, as the pipeline passes it to the body; the scratch. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S1x1 .f32 := Memref.whole cc0_scratch0
/-- The views through which the output's and the accumulator's contents are stated. -/
abbrev VO0 : View sig .tc .vmem S1x1 .f32 := (Memref.whole cc0_stg2_0 : Memref sig .tc .vmem S1x1 .f32).view
abbrev VS0 : View sig .tc .vmem S1x1 .f32 := scM0.view

/-! ## The body, run once per case -/

set_option maxHeartbeats 1000000 in
/-- CASE A, the first point. From the two input blocks held at `x0`, `x1`, the output's staging buffer and the
    accumulator at anything, the body runs to its return with the inputs as they were and the output's buffer
    and the accumulator each overwritten by a list of stores the run finds. -/
noncomputable def runA0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S512x256 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__rbf_sum_kernel i arg2 harg2 arg3 harg3 arg4 harg4 arg5 harg5) K } := by
  refine ⟨?_, ?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 1000000 in
/-- CASE B, a later point: the same, from the accumulator held at `xs`, what the point before left. -/
noncomputable def runB0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S512x256 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__rbf_sum_kernel i arg2 harg2 arg3 harg3 arg4 harg4 arg5 harg5) K } := by
  refine ⟨?_, ?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-- Each case's stores cover the 1×1 output block and the 1×1 accumulator. -/
theorem coverA0_O (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S512x256 .f32) (y : S1x1.Idx) : ∃ pc ∈ (runA0 c i arg2 harg2 arg3 harg3 arg4 harg4 arg5 harg5 hc x0 x1).1, y ∈ pc.1.set :=
  View.cover_of_tiledL (runA0 c i arg2 harg2 arg3 harg3 arg4 harg4 arg5 harg5 hc x0 x1).1 S1x1.size (by sl_kernel_rfl) y
theorem coverA0_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S512x256 .f32) (y : S1x1.Idx) : ∃ pc ∈ (runA0 c i arg2 harg2 arg3 harg3 arg4 harg4 arg5 harg5 hc x0 x1).2.1, y ∈ pc.1.set :=
  View.cover_of_tiledL (runA0 c i arg2 harg2 arg3 harg3 arg4 harg4 arg5 harg5 hc x0 x1).2.1 S1x1.size (by sl_kernel_rfl) y
theorem coverB0_O (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S512x256 .f32) (xs : Vec F S1x1 .f32) (y : S1x1.Idx) : ∃ pc ∈ (runB0 c i arg2 harg2 arg3 harg3 arg4 harg4 arg5 harg5 hc x0 x1 xs).1, y ∈ pc.1.set :=
  View.cover_of_tiledL (runB0 c i arg2 harg2 arg3 harg3 arg4 harg4 arg5 harg5 hc x0 x1 xs).1 S1x1.size (by sl_kernel_rfl) y
theorem coverB0_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S512x256 .f32) (xs : Vec F S1x1 .f32) (y : S1x1.Idx) : ∃ pc ∈ (runB0 c i arg2 harg2 arg3 harg3 arg4 harg4 arg5 harg5 hc x0 x1 xs).2.1, y ∈ pc.1.set :=
  View.cover_of_tiledL (runB0 c i arg2 harg2 arg3 harg3 arg4 harg4 arg5 harg5 hc x0 x1 xs).2.1 S1x1.size (by sl_kernel_rfl) y

/-- What each case leaves: the output's staging buffer, then the accumulator (the stores read back). -/
def leftA0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S512x256 .f32) : Vec F S1x1 .f32 × Vec F S1x1 .f32 :=
  (VO0.read (Elt F) (VO0.writes (Elt F) VO0.junk (runA0 c i arg2 harg2 arg3 harg3 arg4 harg4 arg5 harg5 hc x0 x1).1),
   VS0.read (Elt F) (VS0.writes (Elt F) VS0.junk (runA0 c i arg2 harg2 arg3 harg3 arg4 harg4 arg5 harg5 hc x0 x1).2.1))
def leftB0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S512x256 .f32) (xs : Vec F S1x1 .f32) : Vec F S1x1 .f32 × Vec F S1x1 .f32 :=
  (VO0.read (Elt F) (VO0.writes (Elt F) VO0.junk (runB0 c i arg2 harg2 arg3 harg3 arg4 harg4 arg5 harg5 hc x0 x1 xs).1),
   VS0.read (Elt F) (VS0.writes (Elt F) VS0.junk (runB0 c i arg2 harg2 arg3 harg3 arg4 harg4 arg5 harg5 hc x0 x1 xs).2.1))

/-! ## The blocks and the accumulation -/

variable (V : (c : Dev nD) → (b : Ref sig .tc) → Buf (Elt F) ((c : Thread nD τ).loc b))

/-- Window `w`'s block at point `t`, read off its array at the region's entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output's staging buffer and the accumulator hold after the body at position `n`. -/
def held0 (c : Dev nD) : (n : ℕ) → n < cfg0.N → Vec F S1x1 .f32 × Vec F S1x1 .f32
  | 0, hn => leftA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _)
      ((hcond0 ⟨0, hn⟩).mpr rfl) (iblk0 V c 0 ⟨0, hn⟩) (iblk0 V c 1 ⟨0, hn⟩)
  | n + 1, hn => leftB0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _)
      (fun h => Nat.succ_ne_zero n ((hcond0 ⟨n + 1, hn⟩).mp h)) (iblk0 V c 0 ⟨n + 1, hn⟩) (iblk0 V c 1 ⟨n + 1, hn⟩) (held0 c n (Nat.lt_of_succ_lt hn)).2

theorem held0_first (c : Dev nD) (t : Fin cfg0.N) (h : t.val = 0) :
    held0 V c t.val t.isLt = leftA0 c (grid0.coords t) (ms0_0 t) (hs0_0 t) (ms0_1 t) (hs0_1 t) (ms0_2 t) (hs0_2 t) scM0 (Memref.isWhole_whole _)
      ((hcond0 t).mpr h) (iblk0 V c 0 t) (iblk0 V c 1 t) := by
  obtain ⟨n, hn⟩ := t
  cases n with
  | zero => rfl
  | succ n => exact absurd h (Nat.succ_ne_zero n)

theorem held0_later (c : Dev nD) (t : Fin cfg0.N) (h : t.val ≠ 0) :
    held0 V c t.val t.isLt = leftB0 c (grid0.coords t) (ms0_0 t) (hs0_0 t) (ms0_1 t) (hs0_1 t) (ms0_2 t) (hs0_2 t) scM0 (Memref.isWhole_whole _)
      (fun hc => h ((hcond0 t).mp hc)) (iblk0 V c 0 t) (iblk0 V c 1 t) (held0 V c (t.val - 1) (Nat.lt_of_le_of_lt (Nat.sub_le _ _) t.isLt)).2 := by
  obtain ⟨n, hn⟩ := t
  cases n with
  | zero => exact absurd rfl h
  | succ n => rfl

/-! ## The invariant: the accumulator carried from point to point -/

/-- The core's scoped buffers other than this region's staging buffers and accumulator (the other two regions'
    staging buffers and accumulators), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- Before position `n`: before the first point every scoped buffer the pipeline does not stage at anything and
    the generator register at some state; afterwards the same with the accumulator at what point `n − 1` left. -/
def inv0 (c : Dev nD) : (n : ℕ) → n ≤ cfg0.N → sProp 𝕄
  | 0, _ => Pipeline.ΦA spec0 c
  | n + 1, hn => iprop((owns (c : Thread nD τ) scM0 fullShare ((held0 V c n hn).2) ∗ others0 c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop((owns (c : Thread nD τ) scM0 fullShare ((held0 V c n hn).2) ∗ others0 c) ∗ (∃ r, prngReg c r)) := rfl
theorem inv0_pos (c : Dev nD) (n : ℕ) (h : n ≤ cfg0.N) (hz : n ≠ 0) :
    inv0 V c n h = iprop((owns (c : Thread nD τ) scM0 fullShare ((held0 V c (n - 1) (by omega)).2) ∗ others0 c) ∗ (∃ r, prngReg c r)) := by
  cases n with
  | zero => exact absurd rfl hz
  | succ n => rfl

/-- The launch's invariant opened at the accumulator, -/
theorem PhiA0_open (c : Dev nD) :
    (Pipeline.ΦA spec0 c : sProp 𝕄) ⊢ iprop(((∃ d, owns (c : Thread nD τ) scM0 fullShare d) ∗ others0 c) ∗ (∃ r, prngReg c r)) := by
  unfold Pipeline.ΦA others0; rw [scopedRest0_eq]
  iintro ⟨⟨HS, H_cc1_stg0_0, H_cc1_stg0_1, H_cc1_stg1_0, H_cc1_stg1_1, H_cc1_stg2_0, H_cc1_scratch0, H_cc2_stg0_0, H_cc2_stg0_1, H_cc2_stg1_0, H_cc2_stg1_1, H_cc2_stg2_0, H_cc2_scratch0⟩, Hg⟩
  isplitr [Hg]; swap; · iexact Hg
  isplitl [HS]
  · icases HS with ⟨%f, HS⟩; iexists f; rw [owns_whole]; iexact HS
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_scratch0]; · iexact H_cc1_scratch0
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  iexact H_cc2_scratch0

/-- and closed again, the accumulator's contents forgotten. -/
theorem PhiA0_close (c : Dev nD) (d : Vec F S1x1 .f32) :
    iprop((owns (c : Thread nD τ) scM0 fullShare d ∗ others0 c) ∗ (∃ r, prngReg c r)) ⊢ (Pipeline.ΦA spec0 c : sProp 𝕄) := by
  unfold Pipeline.ΦA others0; rw [scopedRest0_eq, owns_whole]
  iintro ⟨⟨HS0, ⟨H_cc1_stg0_0, H_cc1_stg0_1, H_cc1_stg1_0, H_cc1_stg1_1, H_cc1_stg2_0, H_cc1_scratch0, H_cc2_stg0_0, H_cc2_stg0_1, H_cc2_stg1_0, H_cc2_stg1_1, H_cc2_stg2_0, H_cc2_scratch0⟩⟩, Hg⟩
  isplitr [Hg]; swap; · iexact Hg
  ihave HS : (∃ f : Buf (Elt F) ((c : Thread nD τ).loc cc0_scratch0), ((c : Thread nD τ).loc cc0_scratch0) ↦{fullShare} f) $$ [HS0]
  · iexists _; iexact HS0
  isplitl [HS]; · iexact HS
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_scratch0]; · iexact H_cc1_scratch0
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  iexact H_cc2_scratch0

/-! ## The proof data -/

/-- The arrays at the region's entry contents; after the body at point `t` each input's buffer at its block and
    the output's at `held0`; the invariant `inv0`; nothing owed. The two input windows read one array: each holds half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (held0 V c t.val t.isLt).1
  Φ t := inv0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

/-- Nothing is owed at any point, nothing is recorded beyond the default, and the shares are as stated. -/
theorem owed_eq0 (c : Dev nD) (t : Fin (cfg0.N + 1)) : (dat0 V c).owed t = 0 := by dsimp only [dat0]
theorem recorded_eq0 (c : Dev nD) (t : Fin (cfg0.N + 1)) : (dat0 V c).recorded t = Set.univ := rfl
theorem q_eq0_0 (c : Dev nD) : (dat0 V c).q 0 = fullShare.left := by dsimp only [dat0]
theorem q_eq0_1 (c : Dev nD) : (dat0 V c).q 1 = fullShare.right := by dsimp only [dat0]
theorem q_eq0_2 (c : Dev nD) : (dat0 V c).q 2 = fullShare := by dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (held0 V c t.val t.isLt).1 := by dsimp only [dat0]

/-- Each input window's current buffer holds its block at every point, fetched there or not: unfetched, the
    block index has not moved since the fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (held0 V c t.val t.isLt).1 := by
  unfold Dat.leavesExact; rw [live0_2 t, after0_2]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4800000 in
/-- The body at any point: the inputs' buffers hold their blocks; at the first point case A's run applies, the
    accumulator taken out of the launch's invariant at anything; at a later point case B's, the accumulator at
    what the point before left; either way it goes back into the invariant at this point's value, the output's
    buffer holds this point's value, and the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl, inv0_succ]
  rw [leaves0_0, leaves0_1, leaves0_2]
  by_cases hz : t.val = 0
  · rw [held0_first V c t hz]
    unfold leftA0; dsimp only
    rw [inv0_castSucc V c t, inv0_zero V c _ _ hz]
    iintro ⟨HΦ, Ho, ⟨%d0, H0⟩, ⟨%d1, H1⟩, ⟨%d2, H2⟩⟩
    ihave HΦ' := (PhiA0_open c) $$ HΦ
    icases HΦ' with ⟨⟨HS, Hoth⟩, Hg⟩
    iapply ((runA0 c (grid0.coords t) _ _ _ _ _ _ _ _ ((hcond0 t).mpr hz) (iblk0 V c 0 t) (iblk0 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverA0_S c _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverA0_O c _ _ _ _ _ _ _ _ _ _ _ _)
  · rw [held0_later V c t hz]
    unfold leftB0; dsimp only
    rw [inv0_castSucc V c t, inv0_pos V c _ _ hz]
    iintro ⟨⟨⟨HS, Hoth⟩, Hg⟩, Ho, ⟨%d0, H0⟩, ⟨%d1, H1⟩, ⟨%d2, H2⟩⟩
    iapply ((runB0 c (grid0.coords t) _ _ _ _ _ _ _ _ (fun hc => hz ((hcond0 t).mp hc)) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverB0_S c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverB0_O c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = inv0 V c 0 (Nat.zero_le _) from rfl, inv0_zero V c 0 _ rfl]

/-- and after the last point the invariant gives it back, the accumulator's value forgotten. -/
theorem hout0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 256 := N_0; omega)]
  exact PhiA0_close c _

end Cert.Kernel.Hand

end
-- ==== Proof.K.R1.lean ====
/-
  Region 1's kernel body and its proof data.

  The body branches on the grid point: at the first point (both coordinates zero) it first stores the zero 1×1
  vector into the scratch accumulator; at every point it then loads the two 512×256 input blocks and the
  accumulator, stores accumulator + (this block pair's sum) back into the accumulator, reads it again and
  stores that into the 1×1 output block. So there are two cases: A, the first point, where the accumulator's
  incoming contents do not matter, and B, every later point, where they are what the point before left.
  What the output's staging buffer and the accumulator hold after point n is therefore a recursion on n
  (`held1`): case A's result at n = 0, case B's over the accumulator of point n − 1 afterwards. The region's
  invariant carries the accumulator at that value from one point to the next; the two input windows' buffers
  hold their blocks of the arrays at every point, fetched there or not; the output's buffer is written back
  only after the last point.
-/
import proofs.«164100_j38646115730032_1_alg».proof.Proof.Gen.Kernel.Launch
import proofs.«164100_j38646115730032_1_alg».proof.Proof.Gen.Kernel.Skeleton
import proofs.«164100_j38646115730032_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: both are zero. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point and at no other: decided over the 256 points. -/
theorem hcond1 : ∀ t : Fin cfg1.N, cond1 (grid1.coords t) ↔ t.val = 0 :=
  (by decide +kernel : ∀ t : Fin grid1.N, cond1 (grid1.coords t) ↔ t.val = 0)

/-- No window is ever idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

/-- Each window's current staging memref at point `t`, as the pipeline passes it to the body; the scratch. -/
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1 : Memref sig .tc .vmem S1x1 .f32 := Memref.whole cc1_scratch0
/-- The views through which the output's and the accumulator's contents are stated. -/
abbrev VO1 : View sig .tc .vmem S1x1 .f32 := (Memref.whole cc1_stg2_0 : Memref sig .tc .vmem S1x1 .f32).view
abbrev VS1 : View sig .tc .vmem S1x1 .f32 := scM1.view

/-! ## The body, run once per case -/

set_option maxHeartbeats 1000000 in
/-- CASE A, the first point. From the two input blocks held at `x0`, `x1`, the output's staging buffer and the
    accumulator at anything, the body runs to its return with the inputs as they were and the output's buffer
    and the accumulator each overwritten by a list of stores the run finds. -/
noncomputable def runA1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond1 i)
    (x0 x1 : Vec F S512x256 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__rbf_sum_kernel i arg2 harg2 arg3 harg3 arg4 harg4 arg5 harg5) K } := by
  refine ⟨?_, ?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 1000000 in
/-- CASE B, a later point: the same, from the accumulator held at `xs`, what the point before left. -/
noncomputable def runB1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 x1 : Vec F S512x256 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__rbf_sum_kernel i arg2 harg2 arg3 harg3 arg4 harg4 arg5 harg5) K } := by
  refine ⟨?_, ?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-- Each case's stores cover the 1×1 output block and the 1×1 accumulator. -/
theorem coverA1_O (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond1 i)
    (x0 x1 : Vec F S512x256 .f32) (y : S1x1.Idx) : ∃ pc ∈ (runA1 c i arg2 harg2 arg3 harg3 arg4 harg4 arg5 harg5 hc x0 x1).1, y ∈ pc.1.set :=
  View.cover_of_tiledL (runA1 c i arg2 harg2 arg3 harg3 arg4 harg4 arg5 harg5 hc x0 x1).1 S1x1.size (by sl_kernel_rfl) y
theorem coverA1_S (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond1 i)
    (x0 x1 : Vec F S512x256 .f32) (y : S1x1.Idx) : ∃ pc ∈ (runA1 c i arg2 harg2 arg3 harg3 arg4 harg4 arg5 harg5 hc x0 x1).2.1, y ∈ pc.1.set :=
  View.cover_of_tiledL (runA1 c i arg2 harg2 arg3 harg3 arg4 harg4 arg5 harg5 hc x0 x1).2.1 S1x1.size (by sl_kernel_rfl) y
theorem coverB1_O (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 x1 : Vec F S512x256 .f32) (xs : Vec F S1x1 .f32) (y : S1x1.Idx) : ∃ pc ∈ (runB1 c i arg2 harg2 arg3 harg3 arg4 harg4 arg5 harg5 hc x0 x1 xs).1, y ∈ pc.1.set :=
  View.cover_of_tiledL (runB1 c i arg2 harg2 arg3 harg3 arg4 harg4 arg5 harg5 hc x0 x1 xs).1 S1x1.size (by sl_kernel_rfl) y
theorem coverB1_S (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 x1 : Vec F S512x256 .f32) (xs : Vec F S1x1 .f32) (y : S1x1.Idx) : ∃ pc ∈ (runB1 c i arg2 harg2 arg3 harg3 arg4 harg4 arg5 harg5 hc x0 x1 xs).2.1, y ∈ pc.1.set :=
  View.cover_of_tiledL (runB1 c i arg2 harg2 arg3 harg3 arg4 harg4 arg5 harg5 hc x0 x1 xs).2.1 S1x1.size (by sl_kernel_rfl) y

/-- What each case leaves: the output's staging buffer, then the accumulator (the stores read back). -/
def leftA1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond1 i)
    (x0 x1 : Vec F S512x256 .f32) : Vec F S1x1 .f32 × Vec F S1x1 .f32 :=
  (VO1.read (Elt F) (VO1.writes (Elt F) VO1.junk (runA1 c i arg2 harg2 arg3 harg3 arg4 harg4 arg5 harg5 hc x0 x1).1),
   VS1.read (Elt F) (VS1.writes (Elt F) VS1.junk (runA1 c i arg2 harg2 arg3 harg3 arg4 harg4 arg5 harg5 hc x0 x1).2.1))
def leftB1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 x1 : Vec F S512x256 .f32) (xs : Vec F S1x1 .f32) : Vec F S1x1 .f32 × Vec F S1x1 .f32 :=
  (VO1.read (Elt F) (VO1.writes (Elt F) VO1.junk (runB1 c i arg2 harg2 arg3 harg3 arg4 harg4 arg5 harg5 hc x0 x1 xs).1),
   VS1.read (Elt F) (VS1.writes (Elt F) VS1.junk (runB1 c i arg2 harg2 arg3 harg3 arg4 harg4 arg5 harg5 hc x0 x1 xs).2.1))

/-! ## The blocks and the accumulation -/

variable (V : (c : Dev nD) → (b : Ref sig .tc) → Buf (Elt F) ((c : Thread nD τ).loc b))

/-- Window `w`'s block at point `t`, read off its array at the region's entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output's staging buffer and the accumulator hold after the body at position `n`. -/
def held1 (c : Dev nD) : (n : ℕ) → n < cfg1.N → Vec F S1x1 .f32 × Vec F S1x1 .f32
  | 0, hn => leftA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _)
      ((hcond1 ⟨0, hn⟩).mpr rfl) (iblk1 V c 0 ⟨0, hn⟩) (iblk1 V c 1 ⟨0, hn⟩)
  | n + 1, hn => leftB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
      (fun h => Nat.succ_ne_zero n ((hcond1 ⟨n + 1, hn⟩).mp h)) (iblk1 V c 0 ⟨n + 1, hn⟩) (iblk1 V c 1 ⟨n + 1, hn⟩) (held1 c n (Nat.lt_of_succ_lt hn)).2

theorem held1_first (c : Dev nD) (t : Fin cfg1.N) (h : t.val = 0) :
    held1 V c t.val t.isLt = leftA1 c (grid1.coords t) (ms1_0 t) (hs1_0 t) (ms1_1 t) (hs1_1 t) (ms1_2 t) (hs1_2 t) scM1 (Memref.isWhole_whole _)
      ((hcond1 t).mpr h) (iblk1 V c 0 t) (iblk1 V c 1 t) := by
  obtain ⟨n, hn⟩ := t
  cases n with
  | zero => rfl
  | succ n => exact absurd h (Nat.succ_ne_zero n)

theorem held1_later (c : Dev nD) (t : Fin cfg1.N) (h : t.val ≠ 0) :
    held1 V c t.val t.isLt = leftB1 c (grid1.coords t) (ms1_0 t) (hs1_0 t) (ms1_1 t) (hs1_1 t) (ms1_2 t) (hs1_2 t) scM1 (Memref.isWhole_whole _)
      (fun hc => h ((hcond1 t).mp hc)) (iblk1 V c 0 t) (iblk1 V c 1 t) (held1 V c (t.val - 1) (Nat.lt_of_le_of_lt (Nat.sub_le _ _) t.isLt)).2 := by
  obtain ⟨n, hn⟩ := t
  cases n with
  | zero => exact absurd rfl h
  | succ n => rfl

/-! ## The invariant: the accumulator carried from point to point -/

/-- The core's scoped buffers other than this region's staging buffers and accumulator (the other two regions'
    staging buffers and accumulators), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- Before position `n`: before the first point every scoped buffer the pipeline does not stage at anything and
    the generator register at some state; afterwards the same with the accumulator at what point `n − 1` left. -/
def inv1 (c : Dev nD) : (n : ℕ) → n ≤ cfg1.N → sProp 𝕄
  | 0, _ => Pipeline.ΦA spec1 c
  | n + 1, hn => iprop((owns (c : Thread nD τ) scM1 fullShare ((held1 V c n hn).2) ∗ others1 c) ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop((owns (c : Thread nD τ) scM1 fullShare ((held1 V c n hn).2) ∗ others1 c) ∗ (∃ r, prngReg c r)) := rfl
theorem inv1_pos (c : Dev nD) (n : ℕ) (h : n ≤ cfg1.N) (hz : n ≠ 0) :
    inv1 V c n h = iprop((owns (c : Thread nD τ) scM1 fullShare ((held1 V c (n - 1) (by omega)).2) ∗ others1 c) ∗ (∃ r, prngReg c r)) := by
  cases n with
  | zero => exact absurd rfl hz
  | succ n => rfl

/-- The launch's invariant opened at the accumulator, -/
theorem PhiA1_open (c : Dev nD) :
    (Pipeline.ΦA spec1 c : sProp 𝕄) ⊢ iprop(((∃ d, owns (c : Thread nD τ) scM1 fullShare d) ∗ others1 c) ∗ (∃ r, prngReg c r)) := by
  unfold Pipeline.ΦA others1; rw [scopedRest1_eq]
  iintro ⟨⟨H_cc0_stg0_0, H_cc0_stg0_1, H_cc0_stg1_0, H_cc0_stg1_1, H_cc0_stg2_0, H_cc0_scratch0, HS, H_cc2_stg0_0, H_cc2_stg0_1, H_cc2_stg1_0, H_cc2_stg1_1, H_cc2_stg2_0, H_cc2_scratch0⟩, Hg⟩
  isplitr [Hg]; swap; · iexact Hg
  isplitl [HS]
  · icases HS with ⟨%f, HS⟩; iexists f; rw [owns_whole]; iexact HS
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_scratch0]; · iexact H_cc0_scratch0
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  iexact H_cc2_scratch0

/-- and closed again, the accumulator's contents forgotten. -/
theorem PhiA1_close (c : Dev nD) (d : Vec F S1x1 .f32) :
    iprop((owns (c : Thread nD τ) scM1 fullShare d ∗ others1 c) ∗ (∃ r, prngReg c r)) ⊢ (Pipeline.ΦA spec1 c : sProp 𝕄) := by
  unfold Pipeline.ΦA others1; rw [scopedRest1_eq, owns_whole]
  iintro ⟨⟨HS0, ⟨H_cc0_stg0_0, H_cc0_stg0_1, H_cc0_stg1_0, H_cc0_stg1_1, H_cc0_stg2_0, H_cc0_scratch0, H_cc2_stg0_0, H_cc2_stg0_1, H_cc2_stg1_0, H_cc2_stg1_1, H_cc2_stg2_0, H_cc2_scratch0⟩⟩, Hg⟩
  isplitr [Hg]; swap; · iexact Hg
  ihave HS : (∃ f : Buf (Elt F) ((c : Thread nD τ).loc cc1_scratch0), ((c : Thread nD τ).loc cc1_scratch0) ↦{fullShare} f) $$ [HS0]
  · iexists _; iexact HS0
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_scratch0]; · iexact H_cc0_scratch0
  isplitl [HS]; · iexact HS
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  iexact H_cc2_scratch0

/-! ## The proof data -/

/-- The arrays at the region's entry contents; after the body at point `t` each input's buffer at its block and
    the output's at `held1`; the invariant `inv1`; nothing owed. The two input windows read one array: each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (held1 V c t.val t.isLt).1
  Φ t := inv1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

/-- Nothing is owed at any point, nothing is recorded beyond the default, and the shares are as stated. -/
theorem owed_eq1 (c : Dev nD) (t : Fin (cfg1.N + 1)) : (dat1 V c).owed t = 0 := by dsimp only [dat1]
theorem recorded_eq1 (c : Dev nD) (t : Fin (cfg1.N + 1)) : (dat1 V c).recorded t = Set.univ := rfl
theorem q_eq1_0 (c : Dev nD) : (dat1 V c).q 0 = fullShare.left := by dsimp only [dat1]
theorem q_eq1_1 (c : Dev nD) : (dat1 V c).q 1 = fullShare.right := by dsimp only [dat1]
theorem q_eq1_2 (c : Dev nD) : (dat1 V c).q 2 = fullShare := by dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (held1 V c t.val t.isLt).1 := by dsimp only [dat1]

/-- Each input window's current buffer holds its block at every point, fetched there or not: unfetched, the
    block index has not moved since the fetch. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (held1 V c t.val t.isLt).1 := by
  unfold Dat.leavesExact; rw [live1_2 t, after1_2]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4800000 in
/-- The body at any point: the inputs' buffers hold their blocks; at the first point case A's run applies, the
    accumulator taken out of the launch's invariant at anything; at a later point case B's, the accumulator at
    what the point before left; either way it goes back into the invariant at this point's value, the output's
    buffer holds this point's value, and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = inv1 V c (t.val + 1) t.isLt from rfl, inv1_succ]
  rw [leaves1_0, leaves1_1, leaves1_2]
  by_cases hz : t.val = 0
  · rw [held1_first V c t hz]
    unfold leftA1; dsimp only
    rw [inv1_castSucc V c t, inv1_zero V c _ _ hz]
    iintro ⟨HΦ, Ho, ⟨%d0, H0⟩, ⟨%d1, H1⟩, ⟨%d2, H2⟩⟩
    ihave HΦ' := (PhiA1_open c) $$ HΦ
    icases HΦ' with ⟨⟨HS, Hoth⟩, Hg⟩
    iapply ((runA1 c (grid1.coords t) _ _ _ _ _ _ _ _ ((hcond1 t).mpr hz) (iblk1 V c 0 t) (iblk1 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverA1_S c _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverA1_O c _ _ _ _ _ _ _ _ _ _ _ _)
  · rw [held1_later V c t hz]
    unfold leftB1; dsimp only
    rw [inv1_castSucc V c t, inv1_pos V c _ _ hz]
    iintro ⟨⟨⟨HS, Hoth⟩, Hg⟩, Ho, ⟨%d0, H0⟩, ⟨%d1, H1⟩, ⟨%d2, H2⟩⟩
    iapply ((runB1 c (grid1.coords t) _ _ _ _ _ _ _ _ (fun hc => hz ((hcond1 t).mp hc)) (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverB1_S c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverB1_O c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = inv1 V c 0 (Nat.zero_le _) from rfl, inv1_zero V c 0 _ rfl]

/-- and after the last point the invariant gives it back, the accumulator's value forgotten. -/
theorem hout1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 256 := N_1; omega)]
  exact PhiA1_close c _

end Cert.Kernel.Hand

end
-- ==== Proof.K.R2.lean ====
/-
  Region 2's kernel body and its proof data.

  The body branches on the grid point: at the first point (both coordinates zero) it first stores the zero 1×1
  vector into the scratch accumulator; at every point it then loads the two 512×256 input blocks and the
  accumulator, stores accumulator + (this block pair's sum) back into the accumulator, reads it again and
  stores that into the 1×1 output block. So there are two cases: A, the first point, where the accumulator's
  incoming contents do not matter, and B, every later point, where they are what the point before left.
  What the output's staging buffer and the accumulator hold after point n is therefore a recursion on n
  (`held2`): case A's result at n = 0, case B's over the accumulator of point n − 1 afterwards. The region's
  invariant carries the accumulator at that value from one point to the next; the two input windows' buffers
  hold their blocks of the arrays at every point, fetched there or not; the output's buffer is written back
  only after the last point.
-/
import proofs.«164100_j38646115730032_1_alg».proof.Proof.Gen.Kernel.Launch
import proofs.«164100_j38646115730032_1_alg».proof.Proof.Gen.Kernel.Skeleton
import proofs.«164100_j38646115730032_1_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: both are zero. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point and at no other: decided over the 256 points. -/
theorem hcond2 : ∀ t : Fin cfg2.N, cond2 (grid2.coords t) ↔ t.val = 0 :=
  (by decide +kernel : ∀ t : Fin grid2.N, cond2 (grid2.coords t) ↔ t.val = 0)

/-- No window is ever idle. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel

/-- Each window's current staging memref at point `t`, as the pipeline passes it to the body; the scratch. -/
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2 : Memref sig .tc .vmem S1x1 .f32 := Memref.whole cc2_scratch0
/-- The views through which the output's and the accumulator's contents are stated. -/
abbrev VO2 : View sig .tc .vmem S1x1 .f32 := (Memref.whole cc2_stg2_0 : Memref sig .tc .vmem S1x1 .f32).view
abbrev VS2 : View sig .tc .vmem S1x1 .f32 := scM2.view

/-! ## The body, run once per case -/

set_option maxHeartbeats 1000000 in
/-- CASE A, the first point. From the two input blocks held at `x0`, `x1`, the output's staging buffer and the
    accumulator at anything, the body runs to its return with the inputs as they were and the output's buffer
    and the accumulator each overwritten by a list of stores the run finds. -/
noncomputable def runA2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond2 i)
    (x0 x1 : Vec F S512x256 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2__rbf_sum_kernel i arg2 harg2 arg3 harg3 arg4 harg4 arg5 harg5) K } := by
  refine ⟨?_, ?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 1000000 in
/-- CASE B, a later point: the same, from the accumulator held at `xs`, what the point before left. -/
noncomputable def runB2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond2 i)
    (x0 x1 : Vec F S512x256 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2__rbf_sum_kernel i arg2 harg2 arg3 harg3 arg4 harg4 arg5 harg5) K } := by
  refine ⟨?_, ?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-- Each case's stores cover the 1×1 output block and the 1×1 accumulator. -/
theorem coverA2_O (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond2 i)
    (x0 x1 : Vec F S512x256 .f32) (y : S1x1.Idx) : ∃ pc ∈ (runA2 c i arg2 harg2 arg3 harg3 arg4 harg4 arg5 harg5 hc x0 x1).1, y ∈ pc.1.set :=
  View.cover_of_tiledL (runA2 c i arg2 harg2 arg3 harg3 arg4 harg4 arg5 harg5 hc x0 x1).1 S1x1.size (by sl_kernel_rfl) y
theorem coverA2_S (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond2 i)
    (x0 x1 : Vec F S512x256 .f32) (y : S1x1.Idx) : ∃ pc ∈ (runA2 c i arg2 harg2 arg3 harg3 arg4 harg4 arg5 harg5 hc x0 x1).2.1, y ∈ pc.1.set :=
  View.cover_of_tiledL (runA2 c i arg2 harg2 arg3 harg3 arg4 harg4 arg5 harg5 hc x0 x1).2.1 S1x1.size (by sl_kernel_rfl) y
theorem coverB2_O (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond2 i)
    (x0 x1 : Vec F S512x256 .f32) (xs : Vec F S1x1 .f32) (y : S1x1.Idx) : ∃ pc ∈ (runB2 c i arg2 harg2 arg3 harg3 arg4 harg4 arg5 harg5 hc x0 x1 xs).1, y ∈ pc.1.set :=
  View.cover_of_tiledL (runB2 c i arg2 harg2 arg3 harg3 arg4 harg4 arg5 harg5 hc x0 x1 xs).1 S1x1.size (by sl_kernel_rfl) y
theorem coverB2_S (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond2 i)
    (x0 x1 : Vec F S512x256 .f32) (xs : Vec F S1x1 .f32) (y : S1x1.Idx) : ∃ pc ∈ (runB2 c i arg2 harg2 arg3 harg3 arg4 harg4 arg5 harg5 hc x0 x1 xs).2.1, y ∈ pc.1.set :=
  View.cover_of_tiledL (runB2 c i arg2 harg2 arg3 harg3 arg4 harg4 arg5 harg5 hc x0 x1 xs).2.1 S1x1.size (by sl_kernel_rfl) y

/-- What each case leaves: the output's staging buffer, then the accumulator (the stores read back). -/
def leftA2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond2 i)
    (x0 x1 : Vec F S512x256 .f32) : Vec F S1x1 .f32 × Vec F S1x1 .f32 :=
  (VO2.read (Elt F) (VO2.writes (Elt F) VO2.junk (runA2 c i arg2 harg2 arg3 harg3 arg4 harg4 arg5 harg5 hc x0 x1).1),
   VS2.read (Elt F) (VS2.writes (Elt F) VS2.junk (runA2 c i arg2 harg2 arg3 harg3 arg4 harg4 arg5 harg5 hc x0 x1).2.1))
def leftB2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond2 i)
    (x0 x1 : Vec F S512x256 .f32) (xs : Vec F S1x1 .f32) : Vec F S1x1 .f32 × Vec F S1x1 .f32 :=
  (VO2.read (Elt F) (VO2.writes (Elt F) VO2.junk (runB2 c i arg2 harg2 arg3 harg3 arg4 harg4 arg5 harg5 hc x0 x1 xs).1),
   VS2.read (Elt F) (VS2.writes (Elt F) VS2.junk (runB2 c i arg2 harg2 arg3 harg3 arg4 harg4 arg5 harg5 hc x0 x1 xs).2.1))

/-! ## The blocks and the accumulation -/

variable (V : (c : Dev nD) → (b : Ref sig .tc) → Buf (Elt F) ((c : Thread nD τ).loc b))

/-- Window `w`'s block at point `t`, read off its array at the region's entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output's staging buffer and the accumulator hold after the body at position `n`. -/
def held2 (c : Dev nD) : (n : ℕ) → n < cfg2.N → Vec F S1x1 .f32 × Vec F S1x1 .f32
  | 0, hn => leftA2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _)
      ((hcond2 ⟨0, hn⟩).mpr rfl) (iblk2 V c 0 ⟨0, hn⟩) (iblk2 V c 1 ⟨0, hn⟩)
  | n + 1, hn => leftB2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _)
      (fun h => Nat.succ_ne_zero n ((hcond2 ⟨n + 1, hn⟩).mp h)) (iblk2 V c 0 ⟨n + 1, hn⟩) (iblk2 V c 1 ⟨n + 1, hn⟩) (held2 c n (Nat.lt_of_succ_lt hn)).2

theorem held2_first (c : Dev nD) (t : Fin cfg2.N) (h : t.val = 0) :
    held2 V c t.val t.isLt = leftA2 c (grid2.coords t) (ms2_0 t) (hs2_0 t) (ms2_1 t) (hs2_1 t) (ms2_2 t) (hs2_2 t) scM2 (Memref.isWhole_whole _)
      ((hcond2 t).mpr h) (iblk2 V c 0 t) (iblk2 V c 1 t) := by
  obtain ⟨n, hn⟩ := t
  cases n with
  | zero => rfl
  | succ n => exact absurd h (Nat.succ_ne_zero n)

theorem held2_later (c : Dev nD) (t : Fin cfg2.N) (h : t.val ≠ 0) :
    held2 V c t.val t.isLt = leftB2 c (grid2.coords t) (ms2_0 t) (hs2_0 t) (ms2_1 t) (hs2_1 t) (ms2_2 t) (hs2_2 t) scM2 (Memref.isWhole_whole _)
      (fun hc => h ((hcond2 t).mp hc)) (iblk2 V c 0 t) (iblk2 V c 1 t) (held2 V c (t.val - 1) (Nat.lt_of_le_of_lt (Nat.sub_le _ _) t.isLt)).2 := by
  obtain ⟨n, hn⟩ := t
  cases n with
  | zero => exact absurd rfl h
  | succ n => rfl

/-! ## The invariant: the accumulator carried from point to point -/

/-- The core's scoped buffers other than this region's staging buffers and accumulator (the other two regions'
    staging buffers and accumulators), each at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- Before position `n`: before the first point every scoped buffer the pipeline does not stage at anything and
    the generator register at some state; afterwards the same with the accumulator at what point `n − 1` left. -/
def inv2 (c : Dev nD) : (n : ℕ) → n ≤ cfg2.N → sProp 𝕄
  | 0, _ => Pipeline.ΦA spec2 c
  | n + 1, hn => iprop((owns (c : Thread nD τ) scM2 fullShare ((held2 V c n hn).2) ∗ others2 c) ∗ (∃ r, prngReg c r))

theorem inv2_zero (c : Dev nD) (n : ℕ) (h : n ≤ cfg2.N) (hz : n = 0) : inv2 V c n h = Pipeline.ΦA spec2 c := by
  subst hz; rfl
theorem inv2_succ (c : Dev nD) (n : ℕ) (hn : n < cfg2.N) :
    inv2 V c (n + 1) hn = iprop((owns (c : Thread nD τ) scM2 fullShare ((held2 V c n hn).2) ∗ others2 c) ∗ (∃ r, prngReg c r)) := rfl
theorem inv2_pos (c : Dev nD) (n : ℕ) (h : n ≤ cfg2.N) (hz : n ≠ 0) :
    inv2 V c n h = iprop((owns (c : Thread nD τ) scM2 fullShare ((held2 V c (n - 1) (by omega)).2) ∗ others2 c) ∗ (∃ r, prngReg c r)) := by
  cases n with
  | zero => exact absurd rfl hz
  | succ n => rfl

/-- The launch's invariant opened at the accumulator, -/
theorem PhiA2_open (c : Dev nD) :
    (Pipeline.ΦA spec2 c : sProp 𝕄) ⊢ iprop(((∃ d, owns (c : Thread nD τ) scM2 fullShare d) ∗ others2 c) ∗ (∃ r, prngReg c r)) := by
  unfold Pipeline.ΦA others2; rw [scopedRest2_eq]
  iintro ⟨⟨H_cc0_stg0_0, H_cc0_stg0_1, H_cc0_stg1_0, H_cc0_stg1_1, H_cc0_stg2_0, H_cc0_scratch0, H_cc1_stg0_0, H_cc1_stg0_1, H_cc1_stg1_0, H_cc1_stg1_1, H_cc1_stg2_0, H_cc1_scratch0, HS⟩, Hg⟩
  isplitr [Hg]; swap; · iexact Hg
  isplitl [HS]
  · icases HS with ⟨%f, HS⟩; iexists f; rw [owns_whole]; iexact HS
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_scratch0]; · iexact H_cc0_scratch0
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  iexact H_cc1_scratch0

/-- and closed again, the accumulator's contents forgotten. -/
theorem PhiA2_close (c : Dev nD) (d : Vec F S1x1 .f32) :
    iprop((owns (c : Thread nD τ) scM2 fullShare d ∗ others2 c) ∗ (∃ r, prngReg c r)) ⊢ (Pipeline.ΦA spec2 c : sProp 𝕄) := by
  unfold Pipeline.ΦA others2; rw [scopedRest2_eq, owns_whole]
  iintro ⟨⟨HS0, ⟨H_cc0_stg0_0, H_cc0_stg0_1, H_cc0_stg1_0, H_cc0_stg1_1, H_cc0_stg2_0, H_cc0_scratch0, H_cc1_stg0_0, H_cc1_stg0_1, H_cc1_stg1_0, H_cc1_stg1_1, H_cc1_stg2_0, H_cc1_scratch0⟩⟩, Hg⟩
  isplitr [Hg]; swap; · iexact Hg
  ihave HS : (∃ f : Buf (Elt F) ((c : Thread nD τ).loc cc2_scratch0), ((c : Thread nD τ).loc cc2_scratch0) ↦{fullShare} f) $$ [HS0]
  · iexists _; iexact HS0
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_scratch0]; · iexact H_cc0_scratch0
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_scratch0]; · iexact H_cc1_scratch0
  iexact HS

/-! ## The proof data -/

/-- The arrays at the region's entry contents; after the body at point `t` each input's buffer at its block and
    the output's at `held2`; the invariant `inv2`; nothing owed. Each array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (held2 V c t.val t.isLt).1
  Φ t := inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- Nothing is owed at any point, nothing is recorded beyond the default, and the shares are as stated. -/
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := rfl
theorem q_eq2 (c : Dev nD) (w : Fin cfg2.W) : (dat2 V c).q w = fullShare := by dsimp only [dat2]

theorem inv2_castSucc (c : Dev nD) (t : Fin cfg2.N) :
    (dat2 V c).Φ t.castSucc = inv2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (held2 V c t.val t.isLt).1 := by dsimp only [dat2]

/-- Each input window's current buffer holds its block at every point, fetched there or not: unfetched, the
    block index has not moved since the fetch. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem leaves2_0 (c : Dev nD) (t : Fin cfg2.N) : (dat2 V c).leavesExact 0 t = owns (c : Thread nD τ) (ms2_0 t) fullShare (iblk2 V c 0 t) := by
  unfold Dat.leavesExact; rw [live2_0 t, after2_0]
theorem leaves2_1 (c : Dev nD) (t : Fin cfg2.N) : (dat2 V c).leavesExact 1 t = owns (c : Thread nD τ) (ms2_1 t) fullShare (iblk2 V c 1 t) := by
  unfold Dat.leavesExact; rw [live2_1 t, after2_1]
theorem leaves2_2 (c : Dev nD) (t : Fin cfg2.N) : (dat2 V c).leavesExact 2 t = owns (c : Thread nD τ) (ms2_2 t) fullShare (held2 V c t.val t.isLt).1 := by
  unfold Dat.leavesExact; rw [live2_2 t, after2_2]

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 4800000 in
/-- The body at any point: the inputs' buffers hold their blocks; at the first point case A's run applies, the
    accumulator taken out of the launch's invariant at anything; at a later point case B's, the accumulator at
    what the point before left; either way it goes back into the invariant at this point's value, the output's
    buffer holds this point's value, and the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = inv2 V c (t.val + 1) t.isLt from rfl, inv2_succ]
  rw [leaves2_0, leaves2_1, leaves2_2]
  by_cases hz : t.val = 0
  · rw [held2_first V c t hz]
    unfold leftA2; dsimp only
    rw [inv2_castSucc V c t, inv2_zero V c _ _ hz]
    iintro ⟨HΦ, Ho, ⟨%d0, H0⟩, ⟨%d1, H1⟩, ⟨%d2, H2⟩⟩
    ihave HΦ' := (PhiA2_open c) $$ HΦ
    icases HΦ' with ⟨⟨HS, Hoth⟩, Hg⟩
    iapply ((runA2 c (grid2.coords t) _ _ _ _ _ _ _ _ ((hcond2 t).mpr hz) (iblk2 V c 0 t) (iblk2 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverA2_S c _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverA2_O c _ _ _ _ _ _ _ _ _ _ _ _)
  · rw [held2_later V c t hz]
    unfold leftB2; dsimp only
    rw [inv2_castSucc V c t, inv2_pos V c _ _ hz]
    iintro ⟨⟨⟨HS, Hoth⟩, Hg⟩, Ho, ⟨%d0, H0⟩, ⟨%d1, H1⟩, ⟨%d2, H2⟩⟩
    iapply ((runB2 c (grid2.coords t) _ _ _ _ _ _ _ _ (fun hc => hz ((hcond2 t).mp hc)) (iblk2 V c 0 t) (iblk2 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverB2_S c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverB2_O c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := by
  rw [show (dat2 V c).Φ 0 = inv2 V c 0 (Nat.zero_le _) from rfl, inv2_zero V c 0 _ rfl]

/-- and after the last point the invariant gives it back, the accumulator's value forgotten. -/
theorem hout2 (c : Dev nD) : (dat2 V c).Φ (Fin.last cfg2.N) ⊢ Pipeline.ΦA spec2 c := by
  rw [show (dat2 V c).Φ (Fin.last cfg2.N) = inv2 V c (Fin.last cfg2.N).val (Nat.le_of_lt_succ (Fin.last cfg2.N).isLt) from rfl,
    inv2_pos V c _ _ (by rw [Fin.val_last]; have : cfg2.N = 256 := N_2; omega)]
  exact PhiA2_close c _

end Cert.Kernel.Hand

end
-- ==== Proof.K.Main.lean ====
import proofs.«164100_j38646115730032_1_alg».proof.Proof.Gen.Kernel.Launch
import proofs.«164100_j38646115730032_1_alg».proof.Proof.Gen.Kernel.Regions
import proofs.«164100_j38646115730032_1_alg».proof.Proof.K.R0
import proofs.«164100_j38646115730032_1_alg».proof.Proof.K.R1
import proofs.«164100_j38646115730032_1_alg».proof.Proof.K.R2
import Idealize.ShloMosaic.Lib.Pipeline.Frame
import Idealize.ShloMosaic.Lib.Pipeline.Regions
import Idealize.ShloMosaic.Lib.Pipeline.RegionsLoop
import Idealize.ShloMosaic.Lib.StableHlo.Run

/- @main of the kernel program, assembled: three pallas_calls with stretches of host operations between them, run as a
   list of items over a thread state that tracks every unscoped buffer of a core at a valuation. Generic in the float
   type. What is proved here: the run (`run_all`: every buffer ends at `W6`), the frame (`frame`: the argument arrays end
   as launched) and the reading of the valuations (`WJ_…`, `W6_…`). The bodies of the three calls are the modules R0–R2. -/

noncomputable section

namespace Cert.Kernel.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel Cert.Kernel.Gen

variable {F : FTy → Type} [FloatOps F]

local notation "𝕄" => MT nD τ sig Unit (Elt F) ℕ (UR sig nD τ) ℕ

/-! # A pallas_call that reads ONE array through two windows

Calls 0 and 1 hand their kernel the same array twice. Two windows cannot both own the array whole: the first holds it
at the left half of the full share, the second at the right half, the output window its own array whole. No write-back
touches an input array, so at the call's exit both halves still hold the entry contents and join into the full share. -/

/-- The buffers behind call 0's three windows are two: the doubly read array and the output. -/
theorem arrSet0 : Finset.univ.image (Pipeline.arrRef spec0) = ({main_arg0, main_v0} : Finset (Ref sig .tc)) := by decide

/-- Call 0's arrays at contents `G`, window by window: whole buffers, the input array at the two halves. -/
theorem arrays0_split {c : Dev nD} (d : Dat τ (Elt F) Unit ℕ (UR sig nD τ) ℕ cfg0 c)
    (hq0 : d.q 0 = fullShare.left) (hq1 : d.q 1 = fullShare.right)
    (G : (w : Fin cfg0.W) → Buf (Elt F) ((cfg0.win w).arr.view.loc (c.tc : Thread nD τ))) :
    (d.arrays G : sProp 𝕄) = iprop((((c : Thread nD τ).loc main_arg0) ↦{fullShare.left} G 0)
      ∗ (((c : Thread nD τ).loc main_arg0) ↦{fullShare.right} G 1) ∗ (((c : Thread nD τ).loc main_v0) ↦{fullShare} G 2)) := by
  have s0 : d.share 0 = fullShare.left := by unfold Dat.share; rw [if_neg (by decide)]; exact hq0
  have s1 : d.share 1 = fullShare.right := by unfold Dat.share; rw [if_neg (by decide)]; exact hq1
  have s2 : d.share 2 = fullShare := by unfold Dat.share; rw [if_pos (by decide)]
  unfold Dat.arrays
  rw [bigSep_W0, s0, s1, s2, (arr_whole0 0).set_eq_univ, (arr_whole0 2).set_eq_univ]

/-- A core's unscoped buffers at `V`: those two, and the buffers call 0 has no window on. -/
theorem bufs0_split (c : Dev nD) (V : (b : Ref sig .tc) → Buf (Elt F) ((c : Thread nD τ).loc b)) :
    (unscopedBufs c V : sProp 𝕄) = iprop(((((c : Thread nD τ).loc main_arg0) ↦{fullShare} V main_arg0)
      ∗ (((c : Thread nD τ).loc main_v0) ↦{fullShare} V main_v0)) ∗ Pipeline.unscopedRest spec0 c V) := by
  have h : (unscopedBufs c V : sProp 𝕄) = iprop(Pipeline.arrBufs spec0 c V ∗ Pipeline.unscopedRest spec0 c V) :=
    Pipeline.unscopedBufs_split₀ cfgs 0 winFacts₀0.arr_unscoped c V
  rw [h]; unfold Pipeline.arrBufs
  rw [arrSet0, bigSep_insert (by decide), bigSep_singleton]
  rfl

/-- ENTRY of call 0: out of the unscoped buffers at `V` come its arrays at the proof data's entry contents (read off
    `V`), the input array's full share cut in two. -/
theorem enter0 {c : Dev nD} (V : (b : Ref sig .tc) → Buf (Elt F) ((c : Thread nD τ).loc b))
    (d : Dat τ (Elt F) Unit ℕ (UR sig nD τ) ℕ cfg0 c) (hA : ∀ w, d.A w = V (Pipeline.arrRef spec0 w))
    (hq0 : d.q 0 = fullShare.left) (hq1 : d.q 1 = fullShare.right) :
    (unscopedBufs c V : sProp 𝕄) ⊢ iprop(d.arrays (d.arrAt · 0) ∗ Pipeline.unscopedRest spec0 c V) := by
  rw [bufs0_split, arrays0_split d hq0 hq1]
  rw [show d.arrAt 0 0 = V main_arg0 from hA 0, show d.arrAt 1 0 = V main_arg0 from hA 1, show d.arrAt 2 0 = V main_v0 from hA 2]
  iintro ⟨⟨Hx, Ho⟩, Hrest⟩
  isplitr [Hrest]
  · ihave H := (pointsTo_share (PosShare.mem_left_op_right fullShare)).1 $$ Hx
    icases H with ⟨Hl, Hr⟩
    isplitl [Hl]; · iexact Hl
    isplitl [Hr]; · iexact Hr
    iexact Ho
  iexact Hrest

/-- EXIT of call 0: its arrays at what the pipeline leaves and the bypassing buffers at `V` are the unscoped buffers at
    any `V'` that has the output array at its write-backs' fold and agrees with `V` elsewhere. Both windows on the input
    array end at `Dat.arrAt … N`, which for an input is the entry contents (`Dat.arrAt_in`): the halves agree and join. -/
theorem leave0 {c : Dev nD} (V V' : (b : Ref sig .tc) → Buf (Elt F) ((c : Thread nD τ).loc b))
    (d : Dat τ (Elt F) Unit ℕ (UR sig nD τ) ℕ cfg0 c) (hA : ∀ w, d.A w = V (Pipeline.arrRef spec0 w))
    (hq0 : d.q 0 = fullShare.left) (hq1 : d.q 1 = fullShare.right)
    (hout : V' main_v0 = d.arrAt 2 cfg0.N) (hoff : ∀ b, b ≠ main_v0 → V' b = V b) :
    iprop(d.arrays (d.arrAt · cfg0.N) ∗ Pipeline.unscopedRest spec0 c V) ⊢ (unscopedBufs c V' : sProp 𝕄) := by
  rw [bufs0_split, arrays0_split d hq0 hq1, hout, hoff main_arg0 (by decide)]
  rw [show d.arrAt 0 cfg0.N = V main_arg0 from (d.arrAt_in 0 rfl _).trans (hA 0),
    show d.arrAt 1 cfg0.N = V main_arg0 from (d.arrAt_in 1 rfl _).trans (hA 1)]
  have hrest : (Pipeline.unscopedRest spec0 c V' : sProp 𝕄) = Pipeline.unscopedRest spec0 c V := by
    unfold Pipeline.unscopedRest
    exact bigSep_congr fun b hb => by
      rw [hoff b fun e => (Finset.mem_sdiff.mp hb).2 (e ▸ Finset.mem_image.mpr ⟨2, Finset.mem_univ _, rfl⟩)]
  rw [hrest]
  iintro ⟨⟨Hl, Hr, Ho⟩, Hrest⟩
  isplitr [Hrest]
  · isplitr [Ho]
    · iapply (pointsTo_share (PosShare.mem_left_op_right fullShare)).2
      isplitl [Hl]; · iexact Hl
      iexact Hr
    iexact Ho
  iexact Hrest

/-! ## The same for call 1, on `main_arg2` and `main_v2` -/

/-- The buffers behind call 1's three windows are two: the doubly read array and the output. -/
theorem arrSet1 : Finset.univ.image (Pipeline.arrRef spec1) = ({main_arg2, main_v2} : Finset (Ref sig .tc)) := by decide

/-- Call 1's arrays at contents `G`, window by window: whole buffers, the input array at the two halves. -/
theorem arrays1_split {c : Dev nD} (d : Dat τ (Elt F) Unit ℕ (UR sig nD τ) ℕ cfg1 c)
    (hq0 : d.q 0 = fullShare.left) (hq1 : d.q 1 = fullShare.right)
    (G : (w : Fin cfg1.W) → Buf (Elt F) ((cfg1.win w).arr.view.loc (c.tc : Thread nD τ))) :
    (d.arrays G : sProp 𝕄) = iprop((((c : Thread nD τ).loc main_arg2) ↦{fullShare.left} G 0)
      ∗ (((c : Thread nD τ).loc main_arg2) ↦{fullShare.right} G 1) ∗ (((c : Thread nD τ).loc main_v2) ↦{fullShare} G 2)) := by
  have s0 : d.share 0 = fullShare.left := by unfold Dat.share; rw [if_neg (by decide)]; exact hq0
  have s1 : d.share 1 = fullShare.right := by unfold Dat.share; rw [if_neg (by decide)]; exact hq1
  have s2 : d.share 2 = fullShare := by unfold Dat.share; rw [if_pos (by decide)]
  unfold Dat.arrays
  rw [bigSep_W1, s0, s1, s2, (arr_whole1 0).set_eq_univ, (arr_whole1 2).set_eq_univ]

/-- A core's unscoped buffers at `V`: those two, and the buffers call 1 has no window on. -/
theorem bufs1_split (c : Dev nD) (V : (b : Ref sig .tc) → Buf (Elt F) ((c : Thread nD τ).loc b)) :
    (unscopedBufs c V : sProp 𝕄) = iprop(((((c : Thread nD τ).loc main_arg2) ↦{fullShare} V main_arg2)
      ∗ (((c : Thread nD τ).loc main_v2) ↦{fullShare} V main_v2)) ∗ Pipeline.unscopedRest spec1 c V) := by
  have h : (unscopedBufs c V : sProp 𝕄) = iprop(Pipeline.arrBufs spec1 c V ∗ Pipeline.unscopedRest spec1 c V) :=
    Pipeline.unscopedBufs_split₀ cfgs 1 winFacts₀1.arr_unscoped c V
  rw [h]; unfold Pipeline.arrBufs
  rw [arrSet1, bigSep_insert (by decide), bigSep_singleton]
  rfl

/-- ENTRY of call 1: out of the unscoped buffers at `V` come its arrays at the proof data's entry contents (read off
    `V`), the input array's full share cut in two. -/
theorem enter1 {c : Dev nD} (V : (b : Ref sig .tc) → Buf (Elt F) ((c : Thread nD τ).loc b))
    (d : Dat τ (Elt F) Unit ℕ (UR sig nD τ) ℕ cfg1 c) (hA : ∀ w, d.A w = V (Pipeline.arrRef spec1 w))
    (hq0 : d.q 0 = fullShare.left) (hq1 : d.q 1 = fullShare.right) :
    (unscopedBufs c V : sProp 𝕄) ⊢ iprop(d.arrays (d.arrAt · 0) ∗ Pipeline.unscopedRest spec1 c V) := by
  rw [bufs1_split, arrays1_split d hq0 hq1]
  rw [show d.arrAt 0 0 = V main_arg2 from hA 0, show d.arrAt 1 0 = V main_arg2 from hA 1, show d.arrAt 2 0 = V main_v2 from hA 2]
  iintro ⟨⟨Hx, Ho⟩, Hrest⟩
  isplitr [Hrest]
  · ihave H := (pointsTo_share (PosShare.mem_left_op_right fullShare)).1 $$ Hx
    icases H with ⟨Hl, Hr⟩
    isplitl [Hl]; · iexact Hl
    isplitl [Hr]; · iexact Hr
    iexact Ho
  iexact Hrest

/-- EXIT of call 1: its arrays at what the pipeline leaves and the bypassing buffers at `V` are the unscoped buffers at
    any `V'` that has the output array at its write-backs' fold and agrees with `V` elsewhere. Both windows on the input
    array end at `Dat.arrAt … N`, which for an input is the entry contents (`Dat.arrAt_in`): the halves agree and join. -/
theorem leave1 {c : Dev nD} (V V' : (b : Ref sig .tc) → Buf (Elt F) ((c : Thread nD τ).loc b))
    (d : Dat τ (Elt F) Unit ℕ (UR sig nD τ) ℕ cfg1 c) (hA : ∀ w, d.A w = V (Pipeline.arrRef spec1 w))
    (hq0 : d.q 0 = fullShare.left) (hq1 : d.q 1 = fullShare.right)
    (hout : V' main_v2 = d.arrAt 2 cfg1.N) (hoff : ∀ b, b ≠ main_v2 → V' b = V b) :
    iprop(d.arrays (d.arrAt · cfg1.N) ∗ Pipeline.unscopedRest spec1 c V) ⊢ (unscopedBufs c V' : sProp 𝕄) := by
  rw [bufs1_split, arrays1_split d hq0 hq1, hout, hoff main_arg2 (by decide)]
  rw [show d.arrAt 0 cfg1.N = V main_arg2 from (d.arrAt_in 0 rfl _).trans (hA 0),
    show d.arrAt 1 cfg1.N = V main_arg2 from (d.arrAt_in 1 rfl _).trans (hA 1)]
  have hrest : (Pipeline.unscopedRest spec1 c V' : sProp 𝕄) = Pipeline.unscopedRest spec1 c V := by
    unfold Pipeline.unscopedRest
    exact bigSep_congr fun b hb => by
      rw [hoff b fun e => (Finset.mem_sdiff.mp hb).2 (e ▸ Finset.mem_image.mpr ⟨2, Finset.mem_univ _, rfl⟩)]
  rw [hrest]
  iintro ⟨⟨Hl, Hr, Ho⟩, Hrest⟩
  isplitr [Hrest]
  · isplitr [Ho]
    · iapply (pointsTo_share (PosShare.mem_left_op_right fullShare)).2
      isplitl [Hl]; · iexact Hl
      iexact Hr
    iexact Ho
  iexact Hrest

/-! # The core's ledger at a proof data that owes nothing -/

/-- A core owing nothing, its recorded waits unknown, is the pipeline's ledger at any point of a proof data that owes
    nothing there and bounds the recorded waits by everything. -/
theorem owesAt_of_nothing {cfg : Pipeline.Cfg sig Λ₀} {c : Dev nD} (d : Dat τ (Elt F) Unit ℕ (UR sig nD τ) ℕ cfg c) (t : Fin (cfg.N + 1))
    (ho : d.owed t = 0) (hr : d.recorded t = Set.univ) :
    (iprop(∃ W, owes (c : Thread nD τ) (0 : CellTallies nD τ sig Unit) W) : sProp 𝕄) ⊢ d.owesAt () t := by
  unfold Dat.owesAt Pipeline.owesWithin
  rw [ho]
  iintro ⟨%W, H⟩
  iexists W
  isplitr
  · ipureintro; intro x _; exact Or.inl (hr ▸ Set.mem_univ x)
  iexact H

/-- and back. -/
theorem nothing_of_owesAt {cfg : Pipeline.Cfg sig Λ₀} {c : Dev nD} (d : Dat τ (Elt F) Unit ℕ (UR sig nD τ) ℕ cfg c) (t : Fin (cfg.N + 1))
    (ho : d.owed t = 0) :
    d.owesAt () t ⊢ (iprop(∃ W, owes (c : Thread nD τ) (0 : CellTallies nD τ sig Unit) W) : sProp 𝕄) := by
  unfold Dat.owesAt Pipeline.owesWithin
  rw [ho]
  iintro ⟨%W, -, H⟩
  iexists W
  iexact H

/-! # What the core's buffers hold between @main's items

@main is six items: call 0, one reshape, call 1, one reshape, call 2, eleven scalar operations. `WJ` is the contents
of every buffer of core `c` after `J` items. A host stretch moves it by `StableHlo.after`. A call changes ONE buffer, its
output array, to what its write-backs leave there (`Dat.arrAt … N` of its proof data, taken at the contents the call
was entered from); its input arrays and every buffer it has no window on stay as they were. -/

/-- At launch: the memory. -/
abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

/-- `W0` at the TensorCore's references: what call 0's proof data is taken at. -/
abbrev V0 : (c : Dev nD) → (b : Ref sig .tc) → Buf (Elt F) ((c : Thread nD τ).loc b) := fun c b => W0 m ρ c b
/-- After call 0: `main_v0` at what its write-backs leave. -/
def W1 (c : Dev nD) : Valuation τ sig (Elt F) :=
  Function.update (W0 m ρ c) (Proc.devRef .tc main_v0) ((dat0 (V0 m ρ) c).arrAt 2 cfg0.N)
/-- After the first reshape. -/
abbrev W2 : Dev nD → Valuation τ sig (Elt F) := fun c => StableHlo.after hostOps1 (W1 m ρ c)
/-- `W2` at the TensorCore's references: what call 1's proof data is taken at. -/
abbrev V2 : (c : Dev nD) → (b : Ref sig .tc) → Buf (Elt F) ((c : Thread nD τ).loc b) := fun c b => W2 m ρ c b
/-- After call 1: `main_v2` at what its write-backs leave. -/
def W3 (c : Dev nD) : Valuation τ sig (Elt F) :=
  Function.update (W2 m ρ c) (Proc.devRef .tc main_v2) ((dat1 (V2 m ρ) c).arrAt 2 cfg1.N)
/-- After the second reshape. -/
abbrev W4 : Dev nD → Valuation τ sig (Elt F) := fun c => StableHlo.after hostOps2 (W3 m ρ c)
/-- `W4` at the TensorCore's references: what call 2's proof data is taken at. -/
abbrev V4 : (c : Dev nD) → (b : Ref sig .tc) → Buf (Elt F) ((c : Thread nD τ).loc b) := fun c b => W4 m ρ c b
/-- After call 2: `main_v4` at what its write-backs leave. -/
def W5 (c : Dev nD) : Valuation τ sig (Elt F) :=
  Function.update (W4 m ρ c) (Proc.devRef .tc main_v4) ((dat2 (V4 m ρ) c).arrAt 2 cfg2.N)
/-- After the eleven scalar operations: @main's end. -/
abbrev W6 : Dev nD → Valuation τ sig (Elt F) := fun c => StableHlo.after hostOps3 (W5 m ρ c)

/-! ## Reading the valuations: a call's output, and everything it leaves alone -/

theorem W1_out (c : Dev nD) : W1 m ρ c (Proc.devRef .tc main_v0) = (dat0 (V0 m ρ) c).arrAt 2 cfg0.N := by
  unfold W1; exact Function.update_self ..
theorem W1_off (c : Dev nD) (b : Ref sig .tc) (h : b ≠ main_v0) : W1 m ρ c (Proc.devRef .tc b) = W0 m ρ c (Proc.devRef .tc b) := by
  unfold W1; exact Function.update_of_ne (StableHlo.devRef_ne_of_ne h) ..
theorem W2_off (c : Dev nD) (b : Ref sig .tc) (h : b ∉ hostOps1_W) : W2 m ρ c (Proc.devRef .tc b) = W1 m ρ c (Proc.devRef .tc b) :=
  StableHlo.after_of_writes_sub hostOps1 _ hostOps1_writes h
theorem W3_out (c : Dev nD) : W3 m ρ c (Proc.devRef .tc main_v2) = (dat1 (V2 m ρ) c).arrAt 2 cfg1.N := by
  unfold W3; exact Function.update_self ..
theorem W3_off (c : Dev nD) (b : Ref sig .tc) (h : b ≠ main_v2) : W3 m ρ c (Proc.devRef .tc b) = W2 m ρ c (Proc.devRef .tc b) := by
  unfold W3; exact Function.update_of_ne (StableHlo.devRef_ne_of_ne h) ..
theorem W4_off (c : Dev nD) (b : Ref sig .tc) (h : b ∉ hostOps2_W) : W4 m ρ c (Proc.devRef .tc b) = W3 m ρ c (Proc.devRef .tc b) :=
  StableHlo.after_of_writes_sub hostOps2 _ hostOps2_writes h
theorem W5_out (c : Dev nD) : W5 m ρ c (Proc.devRef .tc main_v4) = (dat2 (V4 m ρ) c).arrAt 2 cfg2.N := by
  unfold W5; exact Function.update_self ..
theorem W5_off (c : Dev nD) (b : Ref sig .tc) (h : b ≠ main_v4) : W5 m ρ c (Proc.devRef .tc b) = W4 m ρ c (Proc.devRef .tc b) := by
  unfold W5; exact Function.update_of_ne (StableHlo.devRef_ne_of_ne h) ..
theorem W6_off (c : Dev nD) (b : Ref sig .tc) (h : b ∉ hostOps3_W) : W6 m ρ c (Proc.devRef .tc b) = W5 m ρ c (Proc.devRef .tc b) :=
  StableHlo.after_of_writes_sub hostOps3 _ hostOps3_writes h

/-! ## No item writes an argument of @main: each holds its launch contents throughout -/

/-- A buffer no item writes holds, after every item, what the memory held. -/
theorem untouched (c : Dev nD) (b : Ref sig .tc) (h0 : b ≠ main_v0) (h1 : b ∉ hostOps1_W) (h2 : b ≠ main_v2) (h3 : b ∉ hostOps2_W)
    (h4 : b ≠ main_v4) (h5 : b ∉ hostOps3_W) :
    W2 m ρ c (Proc.devRef .tc b) = m ((c : Thread nD τ).loc b) ∧ W4 m ρ c (Proc.devRef .tc b) = m ((c : Thread nD τ).loc b)
      ∧ W6 m ρ c (Proc.devRef .tc b) = m ((c : Thread nD τ).loc b) := by
  have e2 : W2 m ρ c (Proc.devRef .tc b) = m ((c : Thread nD τ).loc b) := (W2_off m ρ c b h1).trans (W1_off m ρ c b h0)
  have e4 : W4 m ρ c (Proc.devRef .tc b) = m ((c : Thread nD τ).loc b) := ((W4_off m ρ c b h3).trans (W3_off m ρ c b h2)).trans e2
  exact ⟨e2, e4, ((W6_off m ρ c b h5).trans (W5_off m ρ c b h4)).trans e4⟩

theorem W0_main_arg0 (c : Dev nD) : W0 m ρ c (Proc.devRef .tc main_arg0) = m ((c : Thread nD τ).loc main_arg0) := rfl
theorem W0_main_arg2 (c : Dev nD) : W0 m ρ c (Proc.devRef .tc main_arg2) = m ((c : Thread nD τ).loc main_arg2) := rfl
theorem W2_main_arg0 (c : Dev nD) : W2 m ρ c (Proc.devRef .tc main_arg0) = m ((c : Thread nD τ).loc main_arg0) :=
  (untouched m ρ c main_arg0 (by decide) (by decide) (by decide) (by decide) (by decide) (by decide)).1
theorem W2_main_arg2 (c : Dev nD) : W2 m ρ c (Proc.devRef .tc main_arg2) = m ((c : Thread nD τ).loc main_arg2) :=
  (untouched m ρ c main_arg2 (by decide) (by decide) (by decide) (by decide) (by decide) (by decide)).1
theorem W4_main_arg0 (c : Dev nD) : W4 m ρ c (Proc.devRef .tc main_arg0) = m ((c : Thread nD τ).loc main_arg0) :=
  (untouched m ρ c main_arg0 (by decide) (by decide) (by decide) (by decide) (by decide) (by decide)).2.1
theorem W4_main_arg2 (c : Dev nD) : W4 m ρ c (Proc.devRef .tc main_arg2) = m ((c : Thread nD τ).loc main_arg2) :=
  (untouched m ρ c main_arg2 (by decide) (by decide) (by decide) (by decide) (by decide) (by decide)).2.1
theorem W6_main_arg0 (c : Dev nD) : W6 m ρ c (Proc.devRef .tc main_arg0) = m ((c : Thread nD τ).loc main_arg0) :=
  (untouched m ρ c main_arg0 (by decide) (by decide) (by decide) (by decide) (by decide) (by decide)).2.2
theorem W6_main_arg1 (c : Dev nD) : W6 m ρ c (Proc.devRef .tc main_arg1) = m ((c : Thread nD τ).loc main_arg1) :=
  (untouched m ρ c main_arg1 (by decide) (by decide) (by decide) (by decide) (by decide) (by decide)).2.2
theorem W6_main_arg2 (c : Dev nD) : W6 m ρ c (Proc.devRef .tc main_arg2) = m ((c : Thread nD τ).loc main_arg2) :=
  (untouched m ρ c main_arg2 (by decide) (by decide) (by decide) (by decide) (by decide) (by decide)).2.2
theorem W6_main_arg3 (c : Dev nD) : W6 m ρ c (Proc.devRef .tc main_arg3) = m ((c : Thread nD τ).loc main_arg3) :=
  (untouched m ρ c main_arg3 (by decide) (by decide) (by decide) (by decide) (by decide) (by decide)).2.2

/-- The exit views: each call's exit contents at the TensorCore's references. -/
abbrev V1 : (c : Dev nD) → (b : Ref sig .tc) → Buf (Elt F) ((c : Thread nD τ).loc b) := fun c b => W1 m ρ c b
abbrev V3 : (c : Dev nD) → (b : Ref sig .tc) → Buf (Elt F) ((c : Thread nD τ).loc b) := fun c b => W3 m ρ c b
abbrev V5 : (c : Dev nD) → (b : Ref sig .tc) → Buf (Elt F) ((c : Thread nD τ).loc b) := fun c b => W5 m ρ c b

/-- Call 2's arrays are three distinct buffers: at its exit each holds what the pipeline leaves in it — the two inputs
    their entry contents, the output its write-backs — -/
theorem exit2_arr (c : Dev nD) : ∀ w : Fin 3, (dat2 (V4 m ρ) c).arrAt w cfg2.N = V5 m ρ c (Pipeline.arrRef spec2 w)
  | ⟨0, _⟩ => ((dat2 (V4 m ρ) c).arrAt_in 0 rfl _).trans ((A_eq2 (V4 m ρ) c 0).trans (W5_off m ρ c main_arg0 (by decide)).symm)
  | ⟨1, _⟩ => ((dat2 (V4 m ρ) c).arrAt_in 1 rfl _).trans ((A_eq2 (V4 m ρ) c 1).trans (W5_off m ρ c main_arg2 (by decide)).symm)
  | ⟨2, _⟩ => (W5_out m ρ c).symm
/-- and every other buffer what it held at entry. -/
theorem exit2_off (c : Dev nD) : ∀ b, b ∉ Finset.univ.image (Pipeline.arrRef spec2) → V5 m ρ c b = V4 m ρ c b :=
  fun b hb => W5_off m ρ c b fun e => hb (e ▸ Finset.mem_image.mpr ⟨2, Finset.mem_univ _, rfl⟩)

/-! # The proof data of the three calls, each at the contents its call is entered from -/

/-- A literal match on the pipeline's index, so that the index at a numeral reduces to the call's own proof data. -/
def dats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c

/-- No core waits on another: no pair of cells is levelled. -/
abbrev noPairs : GSem nD τ sig → Finset Unit := fun _ => ∅
abbrev noLevel : GSem nD τ sig → Unit → ℕ := fun _ _ => 0

/-! # The thread state between two items

Every unscoped buffer of the core whole, at the full share, at the contents `W c`; beside them the core's generator
register at some state (a call's invariant takes it in and hands it back) and its ledger, owing nothing. -/

abbrev side (c : Dev nD) : sProp 𝕄 :=
  iprop((∃ r, prngReg c r) ∗ ∃ W, owes (c : Thread nD τ) (0 : CellTallies nD τ sig Unit) W)
abbrev between (W : Dev nD → Valuation τ sig (Elt F)) (c : Dev nD) : sProp 𝕄 :=
  iprop(StableHlo.held (c : Thread nD τ) (Pipeline.ucRefs τ sig) (W c) ∗ side c)

/-- A stretch of host operations as an item: from `between W` it runs to `between` of `StableHlo.after` the stretch. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # The three calls as items -/

set_option backward.isDefEq.respectTransparency.types false in
/-- CALL 0, both input windows on `main_arg0`. Entry: the array's full share is halved between the two windows, the
    output array goes in whole, every other unscoped buffer bypasses the call. Exit: no write-back touches an input
    array, so both halves hold the entry contents and join; the output array comes back at its write-backs' fold. -/
def call0 : Pipeline.RegionSeg (pcfgs (F := F)) adm (dats m ρ) () defs₀ Variants.none noPairs noLevel 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ noPairs noLevel 0 fun c t => owed_eq0 (V0 m ρ) c t
  pre := between (W0 m ρ)
  post := between (W1 m ρ)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := enter0 (V0 m ρ c) (dats m ρ 0 c) (A_eq0 (V0 m ρ) c) (q_eq0_0 (V0 m ρ) c) (q_eq0_1 (V0 m ρ) c)
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · iapply (owesAt_of_nothing (dat0 (V0 m ρ) c) 0 (owed_eq0 _ c 0) (recorded_eq0 _ c 0)); iexact Howes
    isplitl [Hprng]; · iexact Hprng
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := leave0 (V0 m ρ c) (V1 m ρ c) (dats m ρ 0 c) (A_eq0 (V0 m ρ) c) (q_eq0_0 (V0 m ρ) c) (q_eq0_1 (V0 m ρ) c) (W1_out m ρ c)
      (fun b h => W1_off m ρ c b h)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (nothing_of_owesAt (dat0 (V0 m ρ) c) (Fin.last _) (owed_eq0 _ c _)); iexact Howes
set_option backward.isDefEq.respectTransparency.types false in
/-- CALL 1, both input windows on `main_arg2`: as call 0. -/
def call1 : Pipeline.RegionSeg (pcfgs (F := F)) adm (dats m ρ) () defs₀ Variants.none noPairs noLevel 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ noPairs noLevel 1 fun c t => owed_eq1 (V2 m ρ) c t
  pre := between (W2 m ρ)
  post := between (W3 m ρ)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := enter1 (V2 m ρ c) (dats m ρ 1 c) (A_eq1 (V2 m ρ) c) (q_eq1_0 (V2 m ρ) c) (q_eq1_1 (V2 m ρ) c)
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · iapply (owesAt_of_nothing (dat1 (V2 m ρ) c) 0 (owed_eq1 _ c 0) (recorded_eq1 _ c 0)); iexact Howes
    isplitl [Hprng]; · iexact Hprng
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := leave1 (V2 m ρ c) (V3 m ρ c) (dats m ρ 1 c) (A_eq1 (V2 m ρ) c) (q_eq1_0 (V2 m ρ) c) (q_eq1_1 (V2 m ρ) c) (W3_out m ρ c)
      (fun b h => W3_off m ρ c b h)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (nothing_of_owesAt (dat1 (V2 m ρ) c) (Fin.last _) (owed_eq1 _ c _)); iexact Howes

set_option backward.isDefEq.respectTransparency.types false in
/-- CALL 2, one window on `main_arg0`, one on `main_arg2`: three distinct arrays, each whole at the full share, split out
    of the unscoped buffers at entry and put back at the exit contents. -/
def call2 : Pipeline.RegionSeg (pcfgs (F := F)) adm (dats m ρ) () defs₀ Variants.none noPairs noLevel 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ noPairs noLevel 2 fun c t => owed_eq2 (V4 m ρ) c t
  pre := between (W4 m ρ)
  post := between (W5 m ρ)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (dats m ρ) launch2.win launch2.arr_whole c
      ((dats m ρ 2 c).share_full fun w => q_eq2 (V4 m ρ) c w) (V4 m ρ c) fun w => A_eq2 (V4 m ρ) c w
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · iapply (owesAt_of_nothing (dat2 (V4 m ρ) c) 0 (owed_eq2 _ c 0) (recorded_eq2 _ c 0)); iexact Howes
    isplitl [Hprng]; · iexact Hprng
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (dats m ρ) ((dats m ρ 2 c).share_full fun w => q_eq2 (V4 m ρ) c w)
      (V4 m ρ c) (V5 m ρ c) ((dats m ρ 2 c).arrAt · cfg2.N) (exit2_arr m ρ c) (exit2_off m ρ c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (nothing_of_owesAt (dat2 (V4 m ρ) c) (Fin.last _) (owed_eq2 _ c _)); iexact Howes

/-! # @main as its six items, and the run -/

abbrev items : List (Pipeline.Seg (pcfgs (F := F)) adm (dats m ρ) () defs₀ Variants.none noPairs noLevel) :=
  [ .region (call0 m ρ),
    .host (hostItem hostOps1 hostOps1_sub hostOps1_fresh (W1 m ρ)),
    .region (call1 m ρ),
    .host (hostItem hostOps2 hostOps2_sub hostOps2_fresh (W3 m ρ)),
    .region (call2 m ρ),
    .host (hostItem hostOps3 hostOps3_sub hostOps3_fresh (W5 m ρ)) ]

/-- @main is the run of its items, in order. -/
theorem main_items (c : Dev nD) : main (F := F) c = Pipeline.Seg.run (items m ρ) :=
  main_segs adm (dats m ρ) () Variants.none noPairs noLevel _ _ _ (call0 m ρ) (call1 m ρ) (call2 m ρ) rfl rfl rfl c

set_option backward.isDefEq.respectTransparency.types false in
/-- THE RUN. From any memory `m` with every counter at zero and any generator registers, every weakly fair execution of
    @main on the TensorCores terminates, and at the end every unscoped buffer of every core holds `W6`: the launch
    deals each core its unscoped buffers at the memory's contents, its register and an empty ledger (`between W0`); the
    items chain, each entered from what the one before left; the last thread state is read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := F)) adm (dats m ρ) () cellOf_inj emb₁ defs₀ Variants.none noPairs noLevel m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (W0 m ρ))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun c => by
      show between (W6 m ρ) c ⊢ _
      iintro ⟨Hh, Hp, Ho⟩
      isplitr [Ho]
      · isplitl [Hh]; · iexact Hh
        iexact Hp
      iexact Ho⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W6 m ρ c b)
    (hfin := fun c s' => by
      iintro ⟨⟨Hh, -⟩, HSI⟩
      unfold StableHlo.held
      imodintro
      iapply (pointsTo_read_all (Pipeline.ucRefs τ sig) (fun b => ((c : Thread nD τ).1, b)) (W6 m ρ c) s')
      isplitl [Hh] <;> iassumption)
    (hQ := fun s h => h)

/-- THE FRAME: at the end every argument array of @main holds its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m ρ c), (h c _ (mem_uc main_arg1 (by decide))).trans (W6_main_arg1 m ρ c),
      (h c _ (mem_uc main_arg2 (by decide))).trans (W6_main_arg2 m ρ c), (h c _ (mem_uc main_arg3 (by decide))).trans (W6_main_arg3 m ρ c)⟩)
    (run_all m ρ)

end Cert.Kernel.Hand
end
-- ==== Proof.KI.R0.lean ====
/-
  Region 0's kernel body and its proof data.

  The body branches on the grid point: at the first point (both coordinates zero) it first stores the zero 1×1
  vector into the scratch accumulator; at every point it then loads the two 512×256 input blocks and the
  accumulator, stores accumulator + (this block pair's sum) back into the accumulator, reads it again and
  stores that into the 1×1 output block. So there are two cases: A, the first point, where the accumulator's
  incoming contents do not matter, and B, every later point, where they are what the point before left.
  What the output's staging buffer and the accumulator hold after point n is therefore a recursion on n
  (`held0`): case A's result at n = 0, case B's over the accumulator of point n − 1 afterwards. The region's
  invariant carries the accumulator at that value from one point to the next; the two input windows' buffers
  hold their blocks of the arrays at every point, fetched there or not; the output's buffer is written back
  only after the last point.
-/
import proofs.«164100_j38646115730032_1_alg».proof.Proof.Gen.KernelIdeal.Launch
import proofs.«164100_j38646115730032_1_alg».proof.Proof.Gen.KernelIdeal.Skeleton
import proofs.«164100_j38646115730032_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: both are zero. -/
abbrev cond0 (i : grid0.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point and at no other: decided over the 256 points. -/
theorem hcond0 : ∀ t : Fin cfg0.N, cond0 (grid0.coords t) ↔ t.val = 0 :=
  (by decide +kernel : ∀ t : Fin grid0.N, cond0 (grid0.coords t) ↔ t.val = 0)

/-- No window is ever idle. -/
theorem live0_0 : ∀ t : Fin cfg0.N, cfg0.idle 0 (grid0.coords t) = false := by decide +kernel
theorem live0_1 : ∀ t : Fin cfg0.N, cfg0.idle 1 (grid0.coords t) = false := by decide +kernel
theorem live0_2 : ∀ t : Fin cfg0.N, cfg0.idle 2 (grid0.coords t) = false := by decide +kernel

/-- Each window's current staging memref at point `t`, as the pipeline passes it to the body; the scratch. -/
abbrev ms0_0 (t : Fin cfg0.N) : Memref sig .tc .vmem S512x256 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S512x256 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1x1 .f32 := win0_2.stage (cfg0.slots t 2)
abbrev hs0_2 (t : Fin cfg0.N) : (ms0_2 t).IsWhole := hstage0_2 ((cfg0.slots t 2).cast nbuf0_2)
abbrev scM0 : Memref sig .tc .vmem S1x1 .f32 := Memref.whole cc0_scratch0
/-- The views through which the output's and the accumulator's contents are stated. -/
abbrev VO0 : View sig .tc .vmem S1x1 .f32 := (Memref.whole cc0_stg2_0 : Memref sig .tc .vmem S1x1 .f32).view
abbrev VS0 : View sig .tc .vmem S1x1 .f32 := scM0.view

/-! ## The body, run once per case -/

set_option maxHeartbeats 1000000 in
/-- CASE A, the first point. From the two input blocks held at `x0`, `x1`, the output's staging buffer and the
    accumulator at anything, the body runs to its return with the inputs as they were and the output's buffer
    and the accumulator each overwritten by a list of stores the run finds. -/
noncomputable def runA0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S512x256 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__rbf_sum_kernel i arg2 harg2 arg3 harg3 arg4 harg4 arg5 harg5) K } := by
  refine ⟨?_, ?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 1000000 in
/-- CASE B, a later point: the same, from the accumulator held at `xs`, what the point before left. -/
noncomputable def runB0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S512x256 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc0__rbf_sum_kernel i arg2 harg2 arg3 harg3 arg4 harg4 arg5 harg5) K } := by
  refine ⟨?_, ?_, fun E K => ?run⟩
  case run =>
    simp only [cc0__rbf_sum_kernel_eq_skeleton]; unfold cc0__rbf_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-- Each case's stores cover the 1×1 output block and the 1×1 accumulator. -/
theorem coverA0_O (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S512x256 .f32) (y : S1x1.Idx) : ∃ pc ∈ (runA0 c i arg2 harg2 arg3 harg3 arg4 harg4 arg5 harg5 hc x0 x1).1, y ∈ pc.1.set :=
  View.cover_of_tiledL (runA0 c i arg2 harg2 arg3 harg3 arg4 harg4 arg5 harg5 hc x0 x1).1 S1x1.size (by sl_kernel_rfl) y
theorem coverA0_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S512x256 .f32) (y : S1x1.Idx) : ∃ pc ∈ (runA0 c i arg2 harg2 arg3 harg3 arg4 harg4 arg5 harg5 hc x0 x1).2.1, y ∈ pc.1.set :=
  View.cover_of_tiledL (runA0 c i arg2 harg2 arg3 harg3 arg4 harg4 arg5 harg5 hc x0 x1).2.1 S1x1.size (by sl_kernel_rfl) y
theorem coverB0_O (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S512x256 .f32) (xs : Vec F S1x1 .f32) (y : S1x1.Idx) : ∃ pc ∈ (runB0 c i arg2 harg2 arg3 harg3 arg4 harg4 arg5 harg5 hc x0 x1 xs).1, y ∈ pc.1.set :=
  View.cover_of_tiledL (runB0 c i arg2 harg2 arg3 harg3 arg4 harg4 arg5 harg5 hc x0 x1 xs).1 S1x1.size (by sl_kernel_rfl) y
theorem coverB0_S (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S512x256 .f32) (xs : Vec F S1x1 .f32) (y : S1x1.Idx) : ∃ pc ∈ (runB0 c i arg2 harg2 arg3 harg3 arg4 harg4 arg5 harg5 hc x0 x1 xs).2.1, y ∈ pc.1.set :=
  View.cover_of_tiledL (runB0 c i arg2 harg2 arg3 harg3 arg4 harg4 arg5 harg5 hc x0 x1 xs).2.1 S1x1.size (by sl_kernel_rfl) y

/-- What each case leaves: the output's staging buffer, then the accumulator (the stores read back). -/
def leftA0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S512x256 .f32) : Vec F S1x1 .f32 × Vec F S1x1 .f32 :=
  (VO0.read (Elt F) (VO0.writes (Elt F) VO0.junk (runA0 c i arg2 harg2 arg3 harg3 arg4 harg4 arg5 harg5 hc x0 x1).1),
   VS0.read (Elt F) (VS0.writes (Elt F) VS0.junk (runA0 c i arg2 harg2 arg3 harg3 arg4 harg4 arg5 harg5 hc x0 x1).2.1))
def leftB0 (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S512x256 .f32) (xs : Vec F S1x1 .f32) : Vec F S1x1 .f32 × Vec F S1x1 .f32 :=
  (VO0.read (Elt F) (VO0.writes (Elt F) VO0.junk (runB0 c i arg2 harg2 arg3 harg3 arg4 harg4 arg5 harg5 hc x0 x1 xs).1),
   VS0.read (Elt F) (VS0.writes (Elt F) VS0.junk (runB0 c i arg2 harg2 arg3 harg3 arg4 harg4 arg5 harg5 hc x0 x1 xs).2.1))

/-! ## The blocks and the accumulation -/

variable (V : (c : Dev nD) → (b : Ref sig .tc) → Buf (Elt F) ((c : Thread nD τ).loc b))

/-- Window `w`'s block at point `t`, read off its array at the region's entry contents `V`. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- What the output's staging buffer and the accumulator hold after the body at position `n`. -/
def held0 (c : Dev nD) : (n : ℕ) → n < cfg0.N → Vec F S1x1 .f32 × Vec F S1x1 .f32
  | 0, hn => leftA0 c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _)
      ((hcond0 ⟨0, hn⟩).mpr rfl) (iblk0 V c 0 ⟨0, hn⟩) (iblk0 V c 1 ⟨0, hn⟩)
  | n + 1, hn => leftB0 c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _)
      (fun h => Nat.succ_ne_zero n ((hcond0 ⟨n + 1, hn⟩).mp h)) (iblk0 V c 0 ⟨n + 1, hn⟩) (iblk0 V c 1 ⟨n + 1, hn⟩) (held0 c n (Nat.lt_of_succ_lt hn)).2

theorem held0_first (c : Dev nD) (t : Fin cfg0.N) (h : t.val = 0) :
    held0 V c t.val t.isLt = leftA0 c (grid0.coords t) (ms0_0 t) (hs0_0 t) (ms0_1 t) (hs0_1 t) (ms0_2 t) (hs0_2 t) scM0 (Memref.isWhole_whole _)
      ((hcond0 t).mpr h) (iblk0 V c 0 t) (iblk0 V c 1 t) := by
  obtain ⟨n, hn⟩ := t
  cases n with
  | zero => rfl
  | succ n => exact absurd h (Nat.succ_ne_zero n)

theorem held0_later (c : Dev nD) (t : Fin cfg0.N) (h : t.val ≠ 0) :
    held0 V c t.val t.isLt = leftB0 c (grid0.coords t) (ms0_0 t) (hs0_0 t) (ms0_1 t) (hs0_1 t) (ms0_2 t) (hs0_2 t) scM0 (Memref.isWhole_whole _)
      (fun hc => h ((hcond0 t).mp hc)) (iblk0 V c 0 t) (iblk0 V c 1 t) (held0 V c (t.val - 1) (Nat.lt_of_le_of_lt (Nat.sub_le _ _) t.isLt)).2 := by
  obtain ⟨n, hn⟩ := t
  cases n with
  | zero => exact absurd rfl h
  | succ n => rfl

/-! ## The invariant: the accumulator carried from point to point -/

/-- The core's scoped buffers other than this region's staging buffers and accumulator (the other two regions'
    staging buffers and accumulators), each at some contents. -/
def others0 (c : Dev nD) : sProp 𝕄 :=
  iprop((∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- Before position `n`: before the first point every scoped buffer the pipeline does not stage at anything and
    the generator register at some state; afterwards the same with the accumulator at what point `n − 1` left. -/
def inv0 (c : Dev nD) : (n : ℕ) → n ≤ cfg0.N → sProp 𝕄
  | 0, _ => Pipeline.ΦA spec0 c
  | n + 1, hn => iprop((owns (c : Thread nD τ) scM0 fullShare ((held0 V c n hn).2) ∗ others0 c) ∗ (∃ r, prngReg c r))

theorem inv0_zero (c : Dev nD) (n : ℕ) (h : n ≤ cfg0.N) (hz : n = 0) : inv0 V c n h = Pipeline.ΦA spec0 c := by
  subst hz; rfl
theorem inv0_succ (c : Dev nD) (n : ℕ) (hn : n < cfg0.N) :
    inv0 V c (n + 1) hn = iprop((owns (c : Thread nD τ) scM0 fullShare ((held0 V c n hn).2) ∗ others0 c) ∗ (∃ r, prngReg c r)) := rfl
theorem inv0_pos (c : Dev nD) (n : ℕ) (h : n ≤ cfg0.N) (hz : n ≠ 0) :
    inv0 V c n h = iprop((owns (c : Thread nD τ) scM0 fullShare ((held0 V c (n - 1) (by omega)).2) ∗ others0 c) ∗ (∃ r, prngReg c r)) := by
  cases n with
  | zero => exact absurd rfl hz
  | succ n => rfl

/-- The launch's invariant opened at the accumulator, -/
theorem PhiA0_open (c : Dev nD) :
    (Pipeline.ΦA spec0 c : sProp 𝕄) ⊢ iprop(((∃ d, owns (c : Thread nD τ) scM0 fullShare d) ∗ others0 c) ∗ (∃ r, prngReg c r)) := by
  unfold Pipeline.ΦA others0; rw [scopedRest0_eq]
  iintro ⟨⟨HS, H_cc1_stg0_0, H_cc1_stg0_1, H_cc1_stg1_0, H_cc1_stg1_1, H_cc1_stg2_0, H_cc1_scratch0, H_cc2_stg0_0, H_cc2_stg0_1, H_cc2_stg1_0, H_cc2_stg1_1, H_cc2_stg2_0, H_cc2_scratch0⟩, Hg⟩
  isplitr [Hg]; swap; · iexact Hg
  isplitl [HS]
  · icases HS with ⟨%f, HS⟩; iexists f; rw [owns_whole]; iexact HS
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_scratch0]; · iexact H_cc1_scratch0
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  iexact H_cc2_scratch0

/-- and closed again, the accumulator's contents forgotten. -/
theorem PhiA0_close (c : Dev nD) (d : Vec F S1x1 .f32) :
    iprop((owns (c : Thread nD τ) scM0 fullShare d ∗ others0 c) ∗ (∃ r, prngReg c r)) ⊢ (Pipeline.ΦA spec0 c : sProp 𝕄) := by
  unfold Pipeline.ΦA others0; rw [scopedRest0_eq, owns_whole]
  iintro ⟨⟨HS0, ⟨H_cc1_stg0_0, H_cc1_stg0_1, H_cc1_stg1_0, H_cc1_stg1_1, H_cc1_stg2_0, H_cc1_scratch0, H_cc2_stg0_0, H_cc2_stg0_1, H_cc2_stg1_0, H_cc2_stg1_1, H_cc2_stg2_0, H_cc2_scratch0⟩⟩, Hg⟩
  isplitr [Hg]; swap; · iexact Hg
  ihave HS : (∃ f : Buf (Elt F) ((c : Thread nD τ).loc cc0_scratch0), ((c : Thread nD τ).loc cc0_scratch0) ↦{fullShare} f) $$ [HS0]
  · iexists _; iexact HS0
  isplitl [HS]; · iexact HS
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_scratch0]; · iexact H_cc1_scratch0
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  iexact H_cc2_scratch0

/-! ## The proof data -/

/-- The arrays at the region's entry contents; after the body at point `t` each input's buffer at its block and
    the output's at `held0`; the invariant `inv0`; nothing owed. The two input windows read one array: each holds half of it. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => (held0 V c t.val t.isLt).1
  Φ t := inv0 V c t.val (Nat.le_of_lt_succ t.isLt)
  q w := match w with
    | ⟨0, _⟩ => fullShare.left
    | ⟨1, _⟩ => fullShare.right
    | ⟨2, _⟩ => fullShare
  owed _ := 0

theorem A_eq0 (c : Dev nD) (w : Fin cfg0.W) : (dat0 V c).A w = V c (Pipeline.arrRef spec0 w) := by
  dsimp only [dat0]

/-- Nothing is owed at any point, nothing is recorded beyond the default, and the shares are as stated. -/
theorem owed_eq0 (c : Dev nD) (t : Fin (cfg0.N + 1)) : (dat0 V c).owed t = 0 := by dsimp only [dat0]
theorem recorded_eq0 (c : Dev nD) (t : Fin (cfg0.N + 1)) : (dat0 V c).recorded t = Set.univ := rfl
theorem q_eq0_0 (c : Dev nD) : (dat0 V c).q 0 = fullShare.left := by dsimp only [dat0]
theorem q_eq0_1 (c : Dev nD) : (dat0 V c).q 1 = fullShare.right := by dsimp only [dat0]
theorem q_eq0_2 (c : Dev nD) : (dat0 V c).q 2 = fullShare := by dsimp only [dat0]

theorem inv0_castSucc (c : Dev nD) (t : Fin cfg0.N) :
    (dat0 V c).Φ t.castSucc = inv0 V c t.val (Nat.le_of_lt t.isLt) := by
  dsimp only [dat0]; simp only [Fin.coe_castSucc]

theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = (held0 V c t.val t.isLt).1 := by dsimp only [dat0]

/-- Each input window's current buffer holds its block at every point, fetched there or not: unfetched, the
    block index has not moved since the fetch. -/
theorem before0_0 (c : Dev nD) (t : Fin cfg0.N) (d) : (dat0 V c).before 0 t d = iblk0 V c 0 t :=
  ((dat0 V c).before_in_eq_fetched 0 rfl (fun _ => rfl) (fun _ _ _ => rfl) (fun t => by rw [after0_0]; unfold Dat.blockOf iblk0; rw [A_eq0]; try rfl) t d).trans
    (by unfold Dat.fetched Dat.blockOf iblk0; rw [A_eq0]; try rfl)
theorem before0_1 (c : Dev nD) (t : Fin cfg0.N) (d) : (dat0 V c).before 1 t d = iblk0 V c 1 t :=
  ((dat0 V c).before_in_eq_fetched 1 rfl (fun _ => rfl) (fun _ _ _ => rfl) (fun t => by rw [after0_1]; unfold Dat.blockOf iblk0; rw [A_eq0]; try rfl) t d).trans
    (by unfold Dat.fetched Dat.blockOf iblk0; rw [A_eq0]; try rfl)

theorem leaves0_0 (c : Dev nD) (t : Fin cfg0.N) : (dat0 V c).leavesExact 0 t = owns (c : Thread nD τ) (ms0_0 t) fullShare (iblk0 V c 0 t) := by
  unfold Dat.leavesExact; rw [live0_0 t, after0_0]
theorem leaves0_1 (c : Dev nD) (t : Fin cfg0.N) : (dat0 V c).leavesExact 1 t = owns (c : Thread nD τ) (ms0_1 t) fullShare (iblk0 V c 1 t) := by
  unfold Dat.leavesExact; rw [live0_1 t, after0_1]
theorem leaves0_2 (c : Dev nD) (t : Fin cfg0.N) : (dat0 V c).leavesExact 2 t = owns (c : Thread nD τ) (ms0_2 t) fullShare (held0 V c t.val t.isLt).1 := by
  unfold Dat.leavesExact; rw [live0_2 t, after0_2]

/-! ## The body obligation -/

/-- What the body is called with at point `t`, -/
def bodyPre0 (c : Dev nD) (t : Fin cfg0.N) : sProp 𝕄 :=
  iprop((dat0 V c).Φ t.castSucc ∗ (dat0 V c).owesAt () t.castSucc
    ∗ (∃ d, owns (c : Thread nD τ) (ms0_0 t) fullShare ((dat0 V c).before 0 t d))
    ∗ (∃ d, owns (c : Thread nD τ) (ms0_1 t) fullShare ((dat0 V c).before 1 t d))
    ∗ (∃ d, owns (c : Thread nD τ) (ms0_2 t) fullShare ((dat0 V c).before 2 t d)))

/-- and what it returns. -/
def bodyPost0 (c : Dev nD) (t : Fin cfg0.N) : sProp 𝕄 :=
  iprop((dat0 V c).Φ t.succ ∗ (dat0 V c).owesAt () t.succ
    ∗ (dat0 V c).leavesExact 0 t ∗ (dat0 V c).leavesExact 1 t ∗ (dat0 V c).leavesExact 2 t)

set_option maxHeartbeats 4800000 in
/-- The body at any point: the inputs' buffers hold their blocks; at the first point case A's run applies, the
    accumulator taken out of the launch's invariant at anything; at a later point case B's, the accumulator at
    what the point before left; either way it goes back into the invariant at this point's value, the output's
    buffer holds this point's value, and the core owes nothing throughout. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).owesAt () t.succ = (dat0 V c).owesAt () t.castSucc from rfl]
  rw [show (dat0 V c).Φ t.succ = inv0 V c (t.val + 1) t.isLt from rfl, inv0_succ]
  rw [leaves0_0, leaves0_1, leaves0_2]
  by_cases hz : t.val = 0
  · rw [held0_first V c t hz]
    unfold leftA0; dsimp only
    rw [inv0_castSucc V c t, inv0_zero V c _ _ hz]
    iintro ⟨HΦ, Ho, ⟨%d0, H0⟩, ⟨%d1, H1⟩, ⟨%d2, H2⟩⟩
    ihave HΦ' := (PhiA0_open c) $$ HΦ
    icases HΦ' with ⟨⟨HS, Hoth⟩, Hg⟩
    iapply ((runA0 c (grid0.coords t) _ _ _ _ _ _ _ _ ((hcond0 t).mpr hz) (iblk0 V c 0 t) (iblk0 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverA0_S c _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverA0_O c _ _ _ _ _ _ _ _ _ _ _ _)
  · rw [held0_later V c t hz]
    unfold leftB0; dsimp only
    rw [inv0_castSucc V c t, inv0_pos V c _ _ hz]
    iintro ⟨⟨⟨HS, Hoth⟩, Hg⟩, Ho, ⟨%d0, H0⟩, ⟨%d1, H1⟩, ⟨%d2, H2⟩⟩
    iapply ((runB0 c (grid0.coords t) _ _ _ _ _ _ _ _ (fun hc => hz ((hcond0 t).mp hc)) (iblk0 V c 0 t) (iblk0 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverB0_S c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverB0_O c _ _ _ _ _ _ _ _ _ _ _ _ _)

/-- The library's body obligation, at every point. -/
theorem body_obligation0 (c : Dev nD) : BodyObligation (dat0 (F := F) V c) (defs₀ (F := F)) Variants.none () Set.univ := fun t => by
  rw [bigSep_W0, bigSep_W0]
  exact sound_body0 V c t

/-- What the launch hands the region is the invariant before the first point, -/
theorem hin0 (c : Dev nD) : Pipeline.ΦA spec0 c ⊢ (dat0 V c).Φ 0 := by
  rw [show (dat0 V c).Φ 0 = inv0 V c 0 (Nat.zero_le _) from rfl, inv0_zero V c 0 _ rfl]

/-- and after the last point the invariant gives it back, the accumulator's value forgotten. -/
theorem hout0 (c : Dev nD) : (dat0 V c).Φ (Fin.last cfg0.N) ⊢ Pipeline.ΦA spec0 c := by
  rw [show (dat0 V c).Φ (Fin.last cfg0.N) = inv0 V c (Fin.last cfg0.N).val (Nat.le_of_lt_succ (Fin.last cfg0.N).isLt) from rfl,
    inv0_pos V c _ _ (by rw [Fin.val_last]; have : cfg0.N = 256 := N_0; omega)]
  exact PhiA0_close c _

end Cert.KernelIdeal.Hand

end
-- ==== Proof.KI.R1.lean ====
/-
  Region 1's kernel body and its proof data.

  The body branches on the grid point: at the first point (both coordinates zero) it first stores the zero 1×1
  vector into the scratch accumulator; at every point it then loads the two 512×256 input blocks and the
  accumulator, stores accumulator + (this block pair's sum) back into the accumulator, reads it again and
  stores that into the 1×1 output block. So there are two cases: A, the first point, where the accumulator's
  incoming contents do not matter, and B, every later point, where they are what the point before left.
  What the output's staging buffer and the accumulator hold after point n is therefore a recursion on n
  (`held1`): case A's result at n = 0, case B's over the accumulator of point n − 1 afterwards. The region's
  invariant carries the accumulator at that value from one point to the next; the two input windows' buffers
  hold their blocks of the arrays at every point, fetched there or not; the output's buffer is written back
  only after the last point.
-/
import proofs.«164100_j38646115730032_1_alg».proof.Proof.Gen.KernelIdeal.Launch
import proofs.«164100_j38646115730032_1_alg».proof.Proof.Gen.KernelIdeal.Skeleton
import proofs.«164100_j38646115730032_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: both are zero. -/
abbrev cond1 (i : grid1.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point and at no other: decided over the 256 points. -/
theorem hcond1 : ∀ t : Fin cfg1.N, cond1 (grid1.coords t) ↔ t.val = 0 :=
  (by decide +kernel : ∀ t : Fin grid1.N, cond1 (grid1.coords t) ↔ t.val = 0)

/-- No window is ever idle. -/
theorem live1_0 : ∀ t : Fin cfg1.N, cfg1.idle 0 (grid1.coords t) = false := by decide +kernel
theorem live1_1 : ∀ t : Fin cfg1.N, cfg1.idle 1 (grid1.coords t) = false := by decide +kernel
theorem live1_2 : ∀ t : Fin cfg1.N, cfg1.idle 2 (grid1.coords t) = false := by decide +kernel

/-- Each window's current staging memref at point `t`, as the pipeline passes it to the body; the scratch. -/
abbrev ms1_0 (t : Fin cfg1.N) : Memref sig .tc .vmem S512x256 .f32 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S512x256 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1 .f32 := win1_2.stage (cfg1.slots t 2)
abbrev hs1_2 (t : Fin cfg1.N) : (ms1_2 t).IsWhole := hstage1_2 ((cfg1.slots t 2).cast nbuf1_2)
abbrev scM1 : Memref sig .tc .vmem S1x1 .f32 := Memref.whole cc1_scratch0
/-- The views through which the output's and the accumulator's contents are stated. -/
abbrev VO1 : View sig .tc .vmem S1x1 .f32 := (Memref.whole cc1_stg2_0 : Memref sig .tc .vmem S1x1 .f32).view
abbrev VS1 : View sig .tc .vmem S1x1 .f32 := scM1.view

/-! ## The body, run once per case -/

set_option maxHeartbeats 1000000 in
/-- CASE A, the first point. From the two input blocks held at `x0`, `x1`, the output's staging buffer and the
    accumulator at anything, the body runs to its return with the inputs as they were and the output's buffer
    and the accumulator each overwritten by a list of stores the run finds. -/
noncomputable def runA1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond1 i)
    (x0 x1 : Vec F S512x256 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__rbf_sum_kernel i arg2 harg2 arg3 harg3 arg4 harg4 arg5 harg5) K } := by
  refine ⟨?_, ?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 1000000 in
/-- CASE B, a later point: the same, from the accumulator held at `xs`, what the point before left. -/
noncomputable def runB1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 x1 : Vec F S512x256 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc1__rbf_sum_kernel i arg2 harg2 arg3 harg3 arg4 harg4 arg5 harg5) K } := by
  refine ⟨?_, ?_, fun E K => ?run⟩
  case run =>
    simp only [cc1__rbf_sum_kernel_eq_skeleton]; unfold cc1__rbf_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-- Each case's stores cover the 1×1 output block and the 1×1 accumulator. -/
theorem coverA1_O (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond1 i)
    (x0 x1 : Vec F S512x256 .f32) (y : S1x1.Idx) : ∃ pc ∈ (runA1 c i arg2 harg2 arg3 harg3 arg4 harg4 arg5 harg5 hc x0 x1).1, y ∈ pc.1.set :=
  View.cover_of_tiledL (runA1 c i arg2 harg2 arg3 harg3 arg4 harg4 arg5 harg5 hc x0 x1).1 S1x1.size (by sl_kernel_rfl) y
theorem coverA1_S (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond1 i)
    (x0 x1 : Vec F S512x256 .f32) (y : S1x1.Idx) : ∃ pc ∈ (runA1 c i arg2 harg2 arg3 harg3 arg4 harg4 arg5 harg5 hc x0 x1).2.1, y ∈ pc.1.set :=
  View.cover_of_tiledL (runA1 c i arg2 harg2 arg3 harg3 arg4 harg4 arg5 harg5 hc x0 x1).2.1 S1x1.size (by sl_kernel_rfl) y
theorem coverB1_O (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 x1 : Vec F S512x256 .f32) (xs : Vec F S1x1 .f32) (y : S1x1.Idx) : ∃ pc ∈ (runB1 c i arg2 harg2 arg3 harg3 arg4 harg4 arg5 harg5 hc x0 x1 xs).1, y ∈ pc.1.set :=
  View.cover_of_tiledL (runB1 c i arg2 harg2 arg3 harg3 arg4 harg4 arg5 harg5 hc x0 x1 xs).1 S1x1.size (by sl_kernel_rfl) y
theorem coverB1_S (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 x1 : Vec F S512x256 .f32) (xs : Vec F S1x1 .f32) (y : S1x1.Idx) : ∃ pc ∈ (runB1 c i arg2 harg2 arg3 harg3 arg4 harg4 arg5 harg5 hc x0 x1 xs).2.1, y ∈ pc.1.set :=
  View.cover_of_tiledL (runB1 c i arg2 harg2 arg3 harg3 arg4 harg4 arg5 harg5 hc x0 x1 xs).2.1 S1x1.size (by sl_kernel_rfl) y

/-- What each case leaves: the output's staging buffer, then the accumulator (the stores read back). -/
def leftA1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond1 i)
    (x0 x1 : Vec F S512x256 .f32) : Vec F S1x1 .f32 × Vec F S1x1 .f32 :=
  (VO1.read (Elt F) (VO1.writes (Elt F) VO1.junk (runA1 c i arg2 harg2 arg3 harg3 arg4 harg4 arg5 harg5 hc x0 x1).1),
   VS1.read (Elt F) (VS1.writes (Elt F) VS1.junk (runA1 c i arg2 harg2 arg3 harg3 arg4 harg4 arg5 harg5 hc x0 x1).2.1))
def leftB1 (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 x1 : Vec F S512x256 .f32) (xs : Vec F S1x1 .f32) : Vec F S1x1 .f32 × Vec F S1x1 .f32 :=
  (VO1.read (Elt F) (VO1.writes (Elt F) VO1.junk (runB1 c i arg2 harg2 arg3 harg3 arg4 harg4 arg5 harg5 hc x0 x1 xs).1),
   VS1.read (Elt F) (VS1.writes (Elt F) VS1.junk (runB1 c i arg2 harg2 arg3 harg3 arg4 harg4 arg5 harg5 hc x0 x1 xs).2.1))

/-! ## The blocks and the accumulation -/

variable (V : (c : Dev nD) → (b : Ref sig .tc) → Buf (Elt F) ((c : Thread nD τ).loc b))

/-- Window `w`'s block at point `t`, read off its array at the region's entry contents `V`. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- What the output's staging buffer and the accumulator hold after the body at position `n`. -/
def held1 (c : Dev nD) : (n : ℕ) → n < cfg1.N → Vec F S1x1 .f32 × Vec F S1x1 .f32
  | 0, hn => leftA1 c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _)
      ((hcond1 ⟨0, hn⟩).mpr rfl) (iblk1 V c 0 ⟨0, hn⟩) (iblk1 V c 1 ⟨0, hn⟩)
  | n + 1, hn => leftB1 c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
      (fun h => Nat.succ_ne_zero n ((hcond1 ⟨n + 1, hn⟩).mp h)) (iblk1 V c 0 ⟨n + 1, hn⟩) (iblk1 V c 1 ⟨n + 1, hn⟩) (held1 c n (Nat.lt_of_succ_lt hn)).2

theorem held1_first (c : Dev nD) (t : Fin cfg1.N) (h : t.val = 0) :
    held1 V c t.val t.isLt = leftA1 c (grid1.coords t) (ms1_0 t) (hs1_0 t) (ms1_1 t) (hs1_1 t) (ms1_2 t) (hs1_2 t) scM1 (Memref.isWhole_whole _)
      ((hcond1 t).mpr h) (iblk1 V c 0 t) (iblk1 V c 1 t) := by
  obtain ⟨n, hn⟩ := t
  cases n with
  | zero => rfl
  | succ n => exact absurd h (Nat.succ_ne_zero n)

theorem held1_later (c : Dev nD) (t : Fin cfg1.N) (h : t.val ≠ 0) :
    held1 V c t.val t.isLt = leftB1 c (grid1.coords t) (ms1_0 t) (hs1_0 t) (ms1_1 t) (hs1_1 t) (ms1_2 t) (hs1_2 t) scM1 (Memref.isWhole_whole _)
      (fun hc => h ((hcond1 t).mp hc)) (iblk1 V c 0 t) (iblk1 V c 1 t) (held1 V c (t.val - 1) (Nat.lt_of_le_of_lt (Nat.sub_le _ _) t.isLt)).2 := by
  obtain ⟨n, hn⟩ := t
  cases n with
  | zero => exact absurd rfl h
  | succ n => rfl

/-! ## The invariant: the accumulator carried from point to point -/

/-- The core's scoped buffers other than this region's staging buffers and accumulator (the other two regions'
    staging buffers and accumulators), each at some contents. -/
def others1 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc2_stg0_0), ((c : Thread nD τ).loc cc2_stg0_0) ↦{fullShare} f) ∗ (∃ f : Buf (Elt F) ((c : Thread nD τ).loc cc2_stg0_1), ((c : Thread nD τ).loc cc2_stg0_1) ↦{fullShare} f) ∗ (∃ f : Buf (Elt F) ((c : Thread nD τ).loc cc2_stg1_0), ((c : Thread nD τ).loc cc2_stg1_0) ↦{fullShare} f) ∗ (∃ f : Buf (Elt F) ((c : Thread nD τ).loc cc2_stg1_1), ((c : Thread nD τ).loc cc2_stg1_1) ↦{fullShare} f) ∗ (∃ f : Buf (Elt F) ((c : Thread nD τ).loc cc2_stg2_0), ((c : Thread nD τ).loc cc2_stg2_0) ↦{fullShare} f) ∗ (∃ f : Buf (Elt F) ((c : Thread nD τ).loc cc2_scratch0), ((c : Thread nD τ).loc cc2_scratch0) ↦{fullShare} f))

/-- Before position `n`: before the first point every scoped buffer the pipeline does not stage at anything and
    the generator register at some state; afterwards the same with the accumulator at what point `n − 1` left. -/
def inv1 (c : Dev nD) : (n : ℕ) → n ≤ cfg1.N → sProp 𝕄
  | 0, _ => Pipeline.ΦA spec1 c
  | n + 1, hn => iprop((owns (c : Thread nD τ) scM1 fullShare ((held1 V c n hn).2) ∗ others1 c) ∗ (∃ r, prngReg c r))

theorem inv1_zero (c : Dev nD) (n : ℕ) (h : n ≤ cfg1.N) (hz : n = 0) : inv1 V c n h = Pipeline.ΦA spec1 c := by
  subst hz; rfl
theorem inv1_succ (c : Dev nD) (n : ℕ) (hn : n < cfg1.N) :
    inv1 V c (n + 1) hn = iprop((owns (c : Thread nD τ) scM1 fullShare ((held1 V c n hn).2) ∗ others1 c) ∗ (∃ r, prngReg c r)) := rfl
theorem inv1_pos (c : Dev nD) (n : ℕ) (h : n ≤ cfg1.N) (hz : n ≠ 0) :
    inv1 V c n h = iprop((owns (c : Thread nD τ) scM1 fullShare ((held1 V c (n - 1) (by omega)).2) ∗ others1 c) ∗ (∃ r, prngReg c r)) := by
  cases n with
  | zero => exact absurd rfl hz
  | succ n => rfl

/-- The launch's invariant opened at the accumulator, -/
theorem PhiA1_open (c : Dev nD) :
    (Pipeline.ΦA spec1 c : sProp 𝕄) ⊢ iprop(((∃ d, owns (c : Thread nD τ) scM1 fullShare d) ∗ others1 c) ∗ (∃ r, prngReg c r)) := by
  unfold Pipeline.ΦA others1; rw [scopedRest1_eq]
  iintro ⟨⟨H_cc0_stg0_0, H_cc0_stg0_1, H_cc0_stg1_0, H_cc0_stg1_1, H_cc0_stg2_0, H_cc0_scratch0, HS, H_cc2_stg0_0, H_cc2_stg0_1, H_cc2_stg1_0, H_cc2_stg1_1, H_cc2_stg2_0, H_cc2_scratch0⟩, Hg⟩
  isplitr [Hg]; swap; · iexact Hg
  isplitl [HS]
  · icases HS with ⟨%f, HS⟩; iexists f; rw [owns_whole]; iexact HS
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_scratch0]; · iexact H_cc0_scratch0
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  iexact H_cc2_scratch0

/-- and closed again, the accumulator's contents forgotten. -/
theorem PhiA1_close (c : Dev nD) (d : Vec F S1x1 .f32) :
    iprop((owns (c : Thread nD τ) scM1 fullShare d ∗ others1 c) ∗ (∃ r, prngReg c r)) ⊢ (Pipeline.ΦA spec1 c : sProp 𝕄) := by
  unfold Pipeline.ΦA others1; rw [scopedRest1_eq, owns_whole]
  iintro ⟨⟨HS0, ⟨H_cc0_stg0_0, H_cc0_stg0_1, H_cc0_stg1_0, H_cc0_stg1_1, H_cc0_stg2_0, H_cc0_scratch0, H_cc2_stg0_0, H_cc2_stg0_1, H_cc2_stg1_0, H_cc2_stg1_1, H_cc2_stg2_0, H_cc2_scratch0⟩⟩, Hg⟩
  isplitr [Hg]; swap; · iexact Hg
  ihave HS : (∃ f : Buf (Elt F) ((c : Thread nD τ).loc cc1_scratch0), ((c : Thread nD τ).loc cc1_scratch0) ↦{fullShare} f) $$ [HS0]
  · iexists _; iexact HS0
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_scratch0]; · iexact H_cc0_scratch0
  isplitl [HS]; · iexact HS
  isplitl [H_cc2_stg0_0]; · iexact H_cc2_stg0_0
  isplitl [H_cc2_stg0_1]; · iexact H_cc2_stg0_1
  isplitl [H_cc2_stg1_0]; · iexact H_cc2_stg1_0
  isplitl [H_cc2_stg1_1]; · iexact H_cc2_stg1_1
  isplitl [H_cc2_stg2_0]; · iexact H_cc2_stg2_0
  iexact H_cc2_scratch0

/-! ## The proof data -/

/-- The arrays at the region's entry contents; after the body at point `t` each input's buffer at its block and
    the output's at `held1`; the invariant `inv1`; nothing owed. The two input windows read one array: each holds half of it. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => (held1 V c t.val t.isLt).1
  Φ t := inv1 V c t.val (Nat.le_of_lt_succ t.isLt)
  q w := match w with
    | ⟨0, _⟩ => fullShare.left
    | ⟨1, _⟩ => fullShare.right
    | ⟨2, _⟩ => fullShare
  owed _ := 0

theorem A_eq1 (c : Dev nD) (w : Fin cfg1.W) : (dat1 V c).A w = V c (Pipeline.arrRef spec1 w) := by
  dsimp only [dat1]

/-- Nothing is owed at any point, nothing is recorded beyond the default, and the shares are as stated. -/
theorem owed_eq1 (c : Dev nD) (t : Fin (cfg1.N + 1)) : (dat1 V c).owed t = 0 := by dsimp only [dat1]
theorem recorded_eq1 (c : Dev nD) (t : Fin (cfg1.N + 1)) : (dat1 V c).recorded t = Set.univ := rfl
theorem q_eq1_0 (c : Dev nD) : (dat1 V c).q 0 = fullShare.left := by dsimp only [dat1]
theorem q_eq1_1 (c : Dev nD) : (dat1 V c).q 1 = fullShare.right := by dsimp only [dat1]
theorem q_eq1_2 (c : Dev nD) : (dat1 V c).q 2 = fullShare := by dsimp only [dat1]

theorem inv1_castSucc (c : Dev nD) (t : Fin cfg1.N) :
    (dat1 V c).Φ t.castSucc = inv1 V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = (held1 V c t.val t.isLt).1 := by dsimp only [dat1]

/-- Each input window's current buffer holds its block at every point, fetched there or not: unfetched, the
    block index has not moved since the fetch. -/
theorem before1_0 (c : Dev nD) (t : Fin cfg1.N) (d) : (dat1 V c).before 0 t d = iblk1 V c 0 t :=
  ((dat1 V c).before_in_eq_fetched 0 rfl (fun _ => rfl) (fun _ _ _ => rfl) (fun t => by rw [after1_0]; unfold Dat.blockOf iblk1; rw [A_eq1]; try rfl) t d).trans
    (by unfold Dat.fetched Dat.blockOf iblk1; rw [A_eq1]; try rfl)
theorem before1_1 (c : Dev nD) (t : Fin cfg1.N) (d) : (dat1 V c).before 1 t d = iblk1 V c 1 t :=
  ((dat1 V c).before_in_eq_fetched 1 rfl (fun _ => rfl) (fun _ _ _ => rfl) (fun t => by rw [after1_1]; unfold Dat.blockOf iblk1; rw [A_eq1]; try rfl) t d).trans
    (by unfold Dat.fetched Dat.blockOf iblk1; rw [A_eq1]; try rfl)

theorem leaves1_0 (c : Dev nD) (t : Fin cfg1.N) : (dat1 V c).leavesExact 0 t = owns (c : Thread nD τ) (ms1_0 t) fullShare (iblk1 V c 0 t) := by
  unfold Dat.leavesExact; rw [live1_0 t, after1_0]
theorem leaves1_1 (c : Dev nD) (t : Fin cfg1.N) : (dat1 V c).leavesExact 1 t = owns (c : Thread nD τ) (ms1_1 t) fullShare (iblk1 V c 1 t) := by
  unfold Dat.leavesExact; rw [live1_1 t, after1_1]
theorem leaves1_2 (c : Dev nD) (t : Fin cfg1.N) : (dat1 V c).leavesExact 2 t = owns (c : Thread nD τ) (ms1_2 t) fullShare (held1 V c t.val t.isLt).1 := by
  unfold Dat.leavesExact; rw [live1_2 t, after1_2]

/-! ## The body obligation -/

/-- What the body is called with at point `t`, -/
def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d)))

/-- and what it returns. -/
def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t)

set_option maxHeartbeats 4800000 in
/-- The body at any point: the inputs' buffers hold their blocks; at the first point case A's run applies, the
    accumulator taken out of the launch's invariant at anything; at a later point case B's, the accumulator at
    what the point before left; either way it goes back into the invariant at this point's value, the output's
    buffer holds this point's value, and the core owes nothing throughout. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1]
  rw [show (dat1 V c).owesAt () t.succ = (dat1 V c).owesAt () t.castSucc from rfl]
  rw [show (dat1 V c).Φ t.succ = inv1 V c (t.val + 1) t.isLt from rfl, inv1_succ]
  rw [leaves1_0, leaves1_1, leaves1_2]
  by_cases hz : t.val = 0
  · rw [held1_first V c t hz]
    unfold leftA1; dsimp only
    rw [inv1_castSucc V c t, inv1_zero V c _ _ hz]
    iintro ⟨HΦ, Ho, ⟨%d0, H0⟩, ⟨%d1, H1⟩, ⟨%d2, H2⟩⟩
    ihave HΦ' := (PhiA1_open c) $$ HΦ
    icases HΦ' with ⟨⟨HS, Hoth⟩, Hg⟩
    iapply ((runA1 c (grid1.coords t) _ _ _ _ _ _ _ _ ((hcond1 t).mpr hz) (iblk1 V c 0 t) (iblk1 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverA1_S c _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverA1_O c _ _ _ _ _ _ _ _ _ _ _ _)
  · rw [held1_later V c t hz]
    unfold leftB1; dsimp only
    rw [inv1_castSucc V c t, inv1_pos V c _ _ hz]
    iintro ⟨⟨⟨HS, Hoth⟩, Hg⟩, Ho, ⟨%d0, H0⟩, ⟨%d1, H1⟩, ⟨%d2, H2⟩⟩
    iapply ((runB1 c (grid1.coords t) _ _ _ _ _ _ _ _ (fun hc => hz ((hcond1 t).mp hc)) (iblk1 V c 0 t) (iblk1 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverB1_S c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverB1_O c _ _ _ _ _ _ _ _ _ _ _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the launch hands the region is the invariant before the first point, -/
theorem hin1 (c : Dev nD) : Pipeline.ΦA spec1 c ⊢ (dat1 V c).Φ 0 := by
  rw [show (dat1 V c).Φ 0 = inv1 V c 0 (Nat.zero_le _) from rfl, inv1_zero V c 0 _ rfl]

/-- and after the last point the invariant gives it back, the accumulator's value forgotten. -/
theorem hout1 (c : Dev nD) : (dat1 V c).Φ (Fin.last cfg1.N) ⊢ Pipeline.ΦA spec1 c := by
  rw [show (dat1 V c).Φ (Fin.last cfg1.N) = inv1 V c (Fin.last cfg1.N).val (Nat.le_of_lt_succ (Fin.last cfg1.N).isLt) from rfl,
    inv1_pos V c _ _ (by rw [Fin.val_last]; have : cfg1.N = 256 := N_1; omega)]
  exact PhiA1_close c _

end Cert.KernelIdeal.Hand

end
-- ==== Proof.KI.R2.lean ====
/-
  Region 2's kernel body and its proof data.

  The body branches on the grid point: at the first point (both coordinates zero) it first stores the zero 1×1
  vector into the scratch accumulator; at every point it then loads the two 512×256 input blocks and the
  accumulator, stores accumulator + (this block pair's sum) back into the accumulator, reads it again and
  stores that into the 1×1 output block. So there are two cases: A, the first point, where the accumulator's
  incoming contents do not matter, and B, every later point, where they are what the point before left.
  What the output's staging buffer and the accumulator hold after point n is therefore a recursion on n
  (`held2`): case A's result at n = 0, case B's over the accumulator of point n − 1 afterwards. The region's
  invariant carries the accumulator at that value from one point to the next; the two input windows' buffers
  hold their blocks of the arrays at every point, fetched there or not; the output's buffer is written back
  only after the last point.
-/
import proofs.«164100_j38646115730032_1_alg».proof.Proof.Gen.KernelIdeal.Launch
import proofs.«164100_j38646115730032_1_alg».proof.Proof.Gen.KernelIdeal.Skeleton
import proofs.«164100_j38646115730032_1_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The branch condition of the body, from the grid coordinates: both are zero. -/
abbrev cond2 (i : grid2.Coords) : Prop :=
  (Scalar.cmpi .ne (Scalar.extui (Scalar.andi (Scalar.cmpi .eq (BitVec.ofNat 32 (i 0).val) 0#32) (Scalar.cmpi .eq (BitVec.ofNat 32 (i 1).val) 0#32))) 0#32) = 1#1

/-- It holds at the first grid point and at no other: decided over the 256 points. -/
theorem hcond2 : ∀ t : Fin cfg2.N, cond2 (grid2.coords t) ↔ t.val = 0 :=
  (by decide +kernel : ∀ t : Fin grid2.N, cond2 (grid2.coords t) ↔ t.val = 0)

/-- No window is ever idle. -/
theorem live2_0 : ∀ t : Fin cfg2.N, cfg2.idle 0 (grid2.coords t) = false := by decide +kernel
theorem live2_1 : ∀ t : Fin cfg2.N, cfg2.idle 1 (grid2.coords t) = false := by decide +kernel
theorem live2_2 : ∀ t : Fin cfg2.N, cfg2.idle 2 (grid2.coords t) = false := by decide +kernel

/-- Each window's current staging memref at point `t`, as the pipeline passes it to the body; the scratch. -/
abbrev ms2_0 (t : Fin cfg2.N) : Memref sig .tc .vmem S512x256 .f32 := win2_0.stage (cfg2.slots t 0)
abbrev hs2_0 (t : Fin cfg2.N) : (ms2_0 t).IsWhole := hstage2_0 ((cfg2.slots t 0).cast nbuf2_0)
abbrev ms2_1 (t : Fin cfg2.N) : Memref sig .tc .vmem S512x256 .f32 := win2_1.stage (cfg2.slots t 1)
abbrev hs2_1 (t : Fin cfg2.N) : (ms2_1 t).IsWhole := hstage2_1 ((cfg2.slots t 1).cast nbuf2_1)
abbrev ms2_2 (t : Fin cfg2.N) : Memref sig .tc .vmem S1x1 .f32 := win2_2.stage (cfg2.slots t 2)
abbrev hs2_2 (t : Fin cfg2.N) : (ms2_2 t).IsWhole := hstage2_2 ((cfg2.slots t 2).cast nbuf2_2)
abbrev scM2 : Memref sig .tc .vmem S1x1 .f32 := Memref.whole cc2_scratch0
/-- The views through which the output's and the accumulator's contents are stated. -/
abbrev VO2 : View sig .tc .vmem S1x1 .f32 := (Memref.whole cc2_stg2_0 : Memref sig .tc .vmem S1x1 .f32).view
abbrev VS2 : View sig .tc .vmem S1x1 .f32 := scM2.view

/-! ## The body, run once per case -/

set_option maxHeartbeats 1000000 in
/-- CASE A, the first point. From the two input blocks held at `x0`, `x1`, the output's staging buffer and the
    accumulator at anything, the body runs to its return with the inputs as they were and the output's buffer
    and the accumulator each overwritten by a list of stores the run finds. -/
noncomputable def runA2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond2 i)
    (x0 x1 : Vec F S512x256 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ (∃ d, owns (c : Thread nD τ) arg5 fullShare d)
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2__rbf_sum_kernel i arg2 harg2 arg3 harg3 arg4 harg4 arg5 harg5) K } := by
  refine ⟨?_, ?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%d2, %f2, -, H2⟩, ⟨%ds, %fs, -, HS⟩, Hk⟩
    obtain rfl := harg2.eq_unread hf0; obtain rfl := harg3.eq_unread hf1
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

set_option maxHeartbeats 1000000 in
/-- CASE B, a later point: the same, from the accumulator held at `xs`, what the point before left. -/
noncomputable def runB2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond2 i)
    (x0 x1 : Vec F S512x256 .f32) (xs : Vec F S1x1 .f32) :
    Σ' (LO : List (View.Piece (Elt F) S1x1 .f32)), { LS : List (View.Piece (Elt F) S1x1 .f32) //
      ∀ (E : Set ℕ) (K : PUnit → sProp 𝕄),
        iprop(owns (c : Thread nD τ) arg2 fullShare x0 ∗ owns (c : Thread nD τ) arg3 fullShare x1 ∗ (∃ d, owns (c : Thread nD τ) arg4 fullShare d) ∗ owns (c : Thread nD τ) arg5 fullShare xs
            ∗ (iprop(owns (c : Thread nD τ) arg2 fullShare x0 ∗ owns (c : Thread nD τ) arg3 fullShare x1
                ∗ (∃ f, arg4.view.loc (c : Thread nD τ) ↦[arg4.view.set]{fullShare} arg4.view.writes (Elt F) f LO)
                ∗ (∃ f, arg5.view.loc (c : Thread nD τ) ↦[arg5.view.set]{fullShare} arg5.view.writes (Elt F) f LS)) -∗ K ⟨⟩))
          ⊢ wp frame (wpE (defs₀ (F := F)) Variants.none c none) E (cc2__rbf_sum_kernel i arg2 harg2 arg3 harg3 arg4 harg4 arg5 harg5) K } := by
  refine ⟨?_, ?_, fun E K => ?run⟩
  case run =>
    simp only [cc2__rbf_sum_kernel_eq_skeleton]; unfold cc2__rbf_sum_kernel_skel
    unfold owns
    iintro ⟨⟨%f0, %hf0, H0⟩, ⟨%f1, %hf1, H1⟩, ⟨%d2, %f2, -, H2⟩, ⟨%fs, %hfs, HS⟩, Hk⟩
    obtain rfl := harg2.eq_unread hf0; obtain rfl := harg3.eq_unread hf1; obtain rfl := harg5.eq_unread hfs
    sl_exec (disch := first | exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]; · iexists _; iexact H2
    iexists _; iexact HS

/-- Each case's stores cover the 1×1 output block and the 1×1 accumulator. -/
theorem coverA2_O (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond2 i)
    (x0 x1 : Vec F S512x256 .f32) (y : S1x1.Idx) : ∃ pc ∈ (runA2 c i arg2 harg2 arg3 harg3 arg4 harg4 arg5 harg5 hc x0 x1).1, y ∈ pc.1.set :=
  View.cover_of_tiledL (runA2 c i arg2 harg2 arg3 harg3 arg4 harg4 arg5 harg5 hc x0 x1).1 S1x1.size (by sl_kernel_rfl) y
theorem coverA2_S (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond2 i)
    (x0 x1 : Vec F S512x256 .f32) (y : S1x1.Idx) : ∃ pc ∈ (runA2 c i arg2 harg2 arg3 harg3 arg4 harg4 arg5 harg5 hc x0 x1).2.1, y ∈ pc.1.set :=
  View.cover_of_tiledL (runA2 c i arg2 harg2 arg3 harg3 arg4 harg4 arg5 harg5 hc x0 x1).2.1 S1x1.size (by sl_kernel_rfl) y
theorem coverB2_O (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond2 i)
    (x0 x1 : Vec F S512x256 .f32) (xs : Vec F S1x1 .f32) (y : S1x1.Idx) : ∃ pc ∈ (runB2 c i arg2 harg2 arg3 harg3 arg4 harg4 arg5 harg5 hc x0 x1 xs).1, y ∈ pc.1.set :=
  View.cover_of_tiledL (runB2 c i arg2 harg2 arg3 harg3 arg4 harg4 arg5 harg5 hc x0 x1 xs).1 S1x1.size (by sl_kernel_rfl) y
theorem coverB2_S (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond2 i)
    (x0 x1 : Vec F S512x256 .f32) (xs : Vec F S1x1 .f32) (y : S1x1.Idx) : ∃ pc ∈ (runB2 c i arg2 harg2 arg3 harg3 arg4 harg4 arg5 harg5 hc x0 x1 xs).2.1, y ∈ pc.1.set :=
  View.cover_of_tiledL (runB2 c i arg2 harg2 arg3 harg3 arg4 harg4 arg5 harg5 hc x0 x1 xs).2.1 S1x1.size (by sl_kernel_rfl) y

/-- What each case leaves: the output's staging buffer, then the accumulator (the stores read back). -/
def leftA2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond2 i)
    (x0 x1 : Vec F S512x256 .f32) : Vec F S1x1 .f32 × Vec F S1x1 .f32 :=
  (VO2.read (Elt F) (VO2.writes (Elt F) VO2.junk (runA2 c i arg2 harg2 arg3 harg3 arg4 harg4 arg5 harg5 hc x0 x1).1),
   VS2.read (Elt F) (VS2.writes (Elt F) VS2.junk (runA2 c i arg2 harg2 arg3 harg3 arg4 harg4 arg5 harg5 hc x0 x1).2.1))
def leftB2 (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond2 i)
    (x0 x1 : Vec F S512x256 .f32) (xs : Vec F S1x1 .f32) : Vec F S1x1 .f32 × Vec F S1x1 .f32 :=
  (VO2.read (Elt F) (VO2.writes (Elt F) VO2.junk (runB2 c i arg2 harg2 arg3 harg3 arg4 harg4 arg5 harg5 hc x0 x1 xs).1),
   VS2.read (Elt F) (VS2.writes (Elt F) VS2.junk (runB2 c i arg2 harg2 arg3 harg3 arg4 harg4 arg5 harg5 hc x0 x1 xs).2.1))

/-! ## The blocks and the accumulation -/

variable (V : (c : Dev nD) → (b : Ref sig .tc) → Buf (Elt F) ((c : Thread nD τ).loc b))

/-- Window `w`'s block at point `t`, read off its array at the region's entry contents `V`. -/
def iblk2 (c : Dev nD) (w : Fin cfg2.W) (t : Fin cfg2.N) : ((cfg2.win w).xblock (cfg2.grid.coords t)).Idx → Elt F (cfg2.win w).elt :=
  ((cfg2.win w).blk t).view.read (Elt F) (V c (Pipeline.arrRef spec2 w))

/-- What the output's staging buffer and the accumulator hold after the body at position `n`. -/
def held2 (c : Dev nD) : (n : ℕ) → n < cfg2.N → Vec F S1x1 .f32 × Vec F S1x1 .f32
  | 0, hn => leftA2 c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _)
      ((hcond2 ⟨0, hn⟩).mpr rfl) (iblk2 V c 0 ⟨0, hn⟩) (iblk2 V c 1 ⟨0, hn⟩)
  | n + 1, hn => leftB2 c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _)
      (fun h => Nat.succ_ne_zero n ((hcond2 ⟨n + 1, hn⟩).mp h)) (iblk2 V c 0 ⟨n + 1, hn⟩) (iblk2 V c 1 ⟨n + 1, hn⟩) (held2 c n (Nat.lt_of_succ_lt hn)).2

theorem held2_first (c : Dev nD) (t : Fin cfg2.N) (h : t.val = 0) :
    held2 V c t.val t.isLt = leftA2 c (grid2.coords t) (ms2_0 t) (hs2_0 t) (ms2_1 t) (hs2_1 t) (ms2_2 t) (hs2_2 t) scM2 (Memref.isWhole_whole _)
      ((hcond2 t).mpr h) (iblk2 V c 0 t) (iblk2 V c 1 t) := by
  obtain ⟨n, hn⟩ := t
  cases n with
  | zero => rfl
  | succ n => exact absurd h (Nat.succ_ne_zero n)

theorem held2_later (c : Dev nD) (t : Fin cfg2.N) (h : t.val ≠ 0) :
    held2 V c t.val t.isLt = leftB2 c (grid2.coords t) (ms2_0 t) (hs2_0 t) (ms2_1 t) (hs2_1 t) (ms2_2 t) (hs2_2 t) scM2 (Memref.isWhole_whole _)
      (fun hc => h ((hcond2 t).mp hc)) (iblk2 V c 0 t) (iblk2 V c 1 t) (held2 V c (t.val - 1) (Nat.lt_of_le_of_lt (Nat.sub_le _ _) t.isLt)).2 := by
  obtain ⟨n, hn⟩ := t
  cases n with
  | zero => exact absurd rfl h
  | succ n => rfl

/-! ## The invariant: the accumulator carried from point to point -/

/-- The core's scoped buffers other than this region's staging buffers and accumulator (the other two regions'
    staging buffers and accumulators), each at some contents. -/
def others2 (c : Dev nD) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f) ∗ (∃ f : Buf (Elt F) ((c : Thread nD τ).loc cc0_stg1_1), ((c : Thread nD τ).loc cc0_stg1_1) ↦{fullShare} f) ∗ (∃ f : Buf (Elt F) ((c : Thread nD τ).loc cc0_stg2_0), ((c : Thread nD τ).loc cc0_stg2_0) ↦{fullShare} f) ∗ (∃ f : Buf (Elt F) ((c : Thread nD τ).loc cc0_scratch0), ((c : Thread nD τ).loc cc0_scratch0) ↦{fullShare} f) ∗ (∃ f : Buf (Elt F) ((c : Thread nD τ).loc cc1_stg0_0), ((c : Thread nD τ).loc cc1_stg0_0) ↦{fullShare} f) ∗ (∃ f : Buf (Elt F) ((c : Thread nD τ).loc cc1_stg0_1), ((c : Thread nD τ).loc cc1_stg0_1) ↦{fullShare} f) ∗ (∃ f : Buf (Elt F) ((c : Thread nD τ).loc cc1_stg1_0), ((c : Thread nD τ).loc cc1_stg1_0) ↦{fullShare} f) ∗ (∃ f : Buf (Elt F) ((c : Thread nD τ).loc cc1_stg1_1), ((c : Thread nD τ).loc cc1_stg1_1) ↦{fullShare} f) ∗ (∃ f : Buf (Elt F) ((c : Thread nD τ).loc cc1_stg2_0), ((c : Thread nD τ).loc cc1_stg2_0) ↦{fullShare} f) ∗ (∃ f : Buf (Elt F) ((c : Thread nD τ).loc cc1_scratch0), ((c : Thread nD τ).loc cc1_scratch0) ↦{fullShare} f))

/-- Before position `n`: before the first point every scoped buffer the pipeline does not stage at anything and
    the generator register at some state; afterwards the same with the accumulator at what point `n − 1` left. -/
def inv2 (c : Dev nD) : (n : ℕ) → n ≤ cfg2.N → sProp 𝕄
  | 0, _ => Pipeline.ΦA spec2 c
  | n + 1, hn => iprop((owns (c : Thread nD τ) scM2 fullShare ((held2 V c n hn).2) ∗ others2 c) ∗ (∃ r, prngReg c r))

theorem inv2_zero (c : Dev nD) (n : ℕ) (h : n ≤ cfg2.N) (hz : n = 0) : inv2 V c n h = Pipeline.ΦA spec2 c := by
  subst hz; rfl
theorem inv2_succ (c : Dev nD) (n : ℕ) (hn : n < cfg2.N) :
    inv2 V c (n + 1) hn = iprop((owns (c : Thread nD τ) scM2 fullShare ((held2 V c n hn).2) ∗ others2 c) ∗ (∃ r, prngReg c r)) := rfl
theorem inv2_pos (c : Dev nD) (n : ℕ) (h : n ≤ cfg2.N) (hz : n ≠ 0) :
    inv2 V c n h = iprop((owns (c : Thread nD τ) scM2 fullShare ((held2 V c (n - 1) (by omega)).2) ∗ others2 c) ∗ (∃ r, prngReg c r)) := by
  cases n with
  | zero => exact absurd rfl hz
  | succ n => rfl

/-- The launch's invariant opened at the accumulator, -/
theorem PhiA2_open (c : Dev nD) :
    (Pipeline.ΦA spec2 c : sProp 𝕄) ⊢ iprop(((∃ d, owns (c : Thread nD τ) scM2 fullShare d) ∗ others2 c) ∗ (∃ r, prngReg c r)) := by
  unfold Pipeline.ΦA others2; rw [scopedRest2_eq]
  iintro ⟨⟨H_cc0_stg0_0, H_cc0_stg0_1, H_cc0_stg1_0, H_cc0_stg1_1, H_cc0_stg2_0, H_cc0_scratch0, H_cc1_stg0_0, H_cc1_stg0_1, H_cc1_stg1_0, H_cc1_stg1_1, H_cc1_stg2_0, H_cc1_scratch0, HS⟩, Hg⟩
  isplitr [Hg]; swap; · iexact Hg
  isplitl [HS]
  · icases HS with ⟨%f, HS⟩; iexists f; rw [owns_whole]; iexact HS
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_scratch0]; · iexact H_cc0_scratch0
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  iexact H_cc1_scratch0

/-- and closed again, the accumulator's contents forgotten. -/
theorem PhiA2_close (c : Dev nD) (d : Vec F S1x1 .f32) :
    iprop((owns (c : Thread nD τ) scM2 fullShare d ∗ others2 c) ∗ (∃ r, prngReg c r)) ⊢ (Pipeline.ΦA spec2 c : sProp 𝕄) := by
  unfold Pipeline.ΦA others2; rw [scopedRest2_eq, owns_whole]
  iintro ⟨⟨HS0, ⟨H_cc0_stg0_0, H_cc0_stg0_1, H_cc0_stg1_0, H_cc0_stg1_1, H_cc0_stg2_0, H_cc0_scratch0, H_cc1_stg0_0, H_cc1_stg0_1, H_cc1_stg1_0, H_cc1_stg1_1, H_cc1_stg2_0, H_cc1_scratch0⟩⟩, Hg⟩
  isplitr [Hg]; swap; · iexact Hg
  ihave HS : (∃ f : Buf (Elt F) ((c : Thread nD τ).loc cc2_scratch0), ((c : Thread nD τ).loc cc2_scratch0) ↦{fullShare} f) $$ [HS0]
  · iexists _; iexact HS0
  isplitl [H_cc0_stg0_0]; · iexact H_cc0_stg0_0
  isplitl [H_cc0_stg0_1]; · iexact H_cc0_stg0_1
  isplitl [H_cc0_stg1_0]; · iexact H_cc0_stg1_0
  isplitl [H_cc0_stg1_1]; · iexact H_cc0_stg1_1
  isplitl [H_cc0_stg2_0]; · iexact H_cc0_stg2_0
  isplitl [H_cc0_scratch0]; · iexact H_cc0_scratch0
  isplitl [H_cc1_stg0_0]; · iexact H_cc1_stg0_0
  isplitl [H_cc1_stg0_1]; · iexact H_cc1_stg0_1
  isplitl [H_cc1_stg1_0]; · iexact H_cc1_stg1_0
  isplitl [H_cc1_stg1_1]; · iexact H_cc1_stg1_1
  isplitl [H_cc1_stg2_0]; · iexact H_cc1_stg2_0
  isplitl [H_cc1_scratch0]; · iexact H_cc1_scratch0
  iexact HS

/-! ## The proof data -/

/-- The arrays at the region's entry contents; after the body at point `t` each input's buffer at its block and
    the output's at `held2`; the invariant `inv2`; nothing owed. Each array held whole. -/
def dat2 (c : Dev nD) : Dat τ (Elt F) Unit ℕ (UR sig nD τ) ℕ cfg2 c where
  A w := V c (Pipeline.arrRef spec2 w)
  after w t := match w with
    | ⟨0, _⟩ => iblk2 V c 0 t
    | ⟨1, _⟩ => iblk2 V c 1 t
    | ⟨2, _⟩ => (held2 V c t.val t.isLt).1
  Φ t := inv2 V c t.val (Nat.le_of_lt_succ t.isLt)
  q _ := fullShare
  owed _ := 0

theorem A_eq2 (c : Dev nD) (w : Fin cfg2.W) : (dat2 V c).A w = V c (Pipeline.arrRef spec2 w) := by
  dsimp only [dat2]

/-- Nothing is owed at any point, nothing is recorded beyond the default, and the shares are as stated. -/
theorem owed_eq2 (c : Dev nD) (t : Fin (cfg2.N + 1)) : (dat2 V c).owed t = 0 := by dsimp only [dat2]
theorem recorded_eq2 (c : Dev nD) (t : Fin (cfg2.N + 1)) : (dat2 V c).recorded t = Set.univ := rfl
theorem q_eq2 (c : Dev nD) (w : Fin cfg2.W) : (dat2 V c).q w = fullShare := by dsimp only [dat2]

theorem inv2_castSucc (c : Dev nD) (t : Fin cfg2.N) :
    (dat2 V c).Φ t.castSucc = inv2 V c t.val (Nat.le_of_lt t.isLt) := by
  dsimp only [dat2]; simp only [Fin.coe_castSucc]

theorem after2_0 (c : Dev nD) (t : Fin cfg2.N) : (dat2 V c).after 0 t = iblk2 V c 0 t := by dsimp only [dat2]
theorem after2_1 (c : Dev nD) (t : Fin cfg2.N) : (dat2 V c).after 1 t = iblk2 V c 1 t := by dsimp only [dat2]
theorem after2_2 (c : Dev nD) (t : Fin cfg2.N) : (dat2 V c).after 2 t = (held2 V c t.val t.isLt).1 := by dsimp only [dat2]

/-- Each input window's current buffer holds its block at every point, fetched there or not: unfetched, the
    block index has not moved since the fetch. -/
theorem before2_0 (c : Dev nD) (t : Fin cfg2.N) (d) : (dat2 V c).before 0 t d = iblk2 V c 0 t :=
  ((dat2 V c).before_in_eq_fetched 0 rfl (fun _ => rfl) (fun _ _ _ => rfl) (fun t => by rw [after2_0]; unfold Dat.blockOf iblk2; rw [A_eq2]; try rfl) t d).trans
    (by unfold Dat.fetched Dat.blockOf iblk2; rw [A_eq2]; try rfl)
theorem before2_1 (c : Dev nD) (t : Fin cfg2.N) (d) : (dat2 V c).before 1 t d = iblk2 V c 1 t :=
  ((dat2 V c).before_in_eq_fetched 1 rfl (fun _ => rfl) (fun _ _ _ => rfl) (fun t => by rw [after2_1]; unfold Dat.blockOf iblk2; rw [A_eq2]; try rfl) t d).trans
    (by unfold Dat.fetched Dat.blockOf iblk2; rw [A_eq2]; try rfl)

theorem leaves2_0 (c : Dev nD) (t : Fin cfg2.N) : (dat2 V c).leavesExact 0 t = owns (c : Thread nD τ) (ms2_0 t) fullShare (iblk2 V c 0 t) := by
  unfold Dat.leavesExact; rw [live2_0 t, after2_0]
theorem leaves2_1 (c : Dev nD) (t : Fin cfg2.N) : (dat2 V c).leavesExact 1 t = owns (c : Thread nD τ) (ms2_1 t) fullShare (iblk2 V c 1 t) := by
  unfold Dat.leavesExact; rw [live2_1 t, after2_1]
theorem leaves2_2 (c : Dev nD) (t : Fin cfg2.N) : (dat2 V c).leavesExact 2 t = owns (c : Thread nD τ) (ms2_2 t) fullShare (held2 V c t.val t.isLt).1 := by
  unfold Dat.leavesExact; rw [live2_2 t, after2_2]

/-! ## The body obligation -/

/-- What the body is called with at point `t`, -/
def bodyPre2 (c : Dev nD) (t : Fin cfg2.N) : sProp 𝕄 :=
  iprop((dat2 V c).Φ t.castSucc ∗ (dat2 V c).owesAt () t.castSucc
    ∗ (∃ d, owns (c : Thread nD τ) (ms2_0 t) fullShare ((dat2 V c).before 0 t d))
    ∗ (∃ d, owns (c : Thread nD τ) (ms2_1 t) fullShare ((dat2 V c).before 1 t d))
    ∗ (∃ d, owns (c : Thread nD τ) (ms2_2 t) fullShare ((dat2 V c).before 2 t d)))

/-- and what it returns. -/
def bodyPost2 (c : Dev nD) (t : Fin cfg2.N) : sProp 𝕄 :=
  iprop((dat2 V c).Φ t.succ ∗ (dat2 V c).owesAt () t.succ
    ∗ (dat2 V c).leavesExact 0 t ∗ (dat2 V c).leavesExact 1 t ∗ (dat2 V c).leavesExact 2 t)

set_option maxHeartbeats 4800000 in
/-- The body at any point: the inputs' buffers hold their blocks; at the first point case A's run applies, the
    accumulator taken out of the launch's invariant at anything; at a later point case B's, the accumulator at
    what the point before left; either way it goes back into the invariant at this point's value, the output's
    buffer holds this point's value, and the core owes nothing throughout. -/
theorem sound_body2 (c : Dev nD) (t : Fin cfg2.N) :
    bodyPre2 V c t ⊢ wp frame (wpE (defs₀ (F := F)) Variants.none c none) Set.univ (bodyAt2 t) (fun _ => bodyPost2 V c t) := by
  unfold bodyPre2 bodyPost2 bodyAt2
  simp only [before2_0, before2_1]
  rw [show (dat2 V c).owesAt () t.succ = (dat2 V c).owesAt () t.castSucc from rfl]
  rw [show (dat2 V c).Φ t.succ = inv2 V c (t.val + 1) t.isLt from rfl, inv2_succ]
  rw [leaves2_0, leaves2_1, leaves2_2]
  by_cases hz : t.val = 0
  · rw [held2_first V c t hz]
    unfold leftA2; dsimp only
    rw [inv2_castSucc V c t, inv2_zero V c _ _ hz]
    iintro ⟨HΦ, Ho, ⟨%d0, H0⟩, ⟨%d1, H1⟩, ⟨%d2, H2⟩⟩
    ihave HΦ' := (PhiA2_open c) $$ HΦ
    icases HΦ' with ⟨⟨HS, Hoth⟩, Hg⟩
    iapply ((runA2 c (grid2.coords t) _ _ _ _ _ _ _ _ ((hcond2 t).mpr hz) (iblk2 V c 0 t) (iblk2 V c 1 t)).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverA2_S c _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverA2_O c _ _ _ _ _ _ _ _ _ _ _ _)
  · rw [held2_later V c t hz]
    unfold leftB2; dsimp only
    rw [inv2_castSucc V c t, inv2_pos V c _ _ hz]
    iintro ⟨⟨⟨HS, Hoth⟩, Hg⟩, Ho, ⟨%d0, H0⟩, ⟨%d1, H1⟩, ⟨%d2, H2⟩⟩
    iapply ((runB2 c (grid2.coords t) _ _ _ _ _ _ _ _ (fun hc => hz ((hcond2 t).mp hc)) (iblk2 V c 0 t) (iblk2 V c 1 t) _).2.2 Set.univ _)
    isplitl [H0]; · iexact H0
    isplitl [H1]; · iexact H1
    isplitl [H2]; · iexists _; iexact H2
    isplitl [HS]; · iexact HS
    iintro ⟨H0, H1, ⟨%e2, H2⟩, ⟨%es, HS⟩⟩
    isplitl [HS Hoth Hg]
    · isplitl [HS Hoth]
      · isplitl [HS]
        · unfold owns; iexists _; isplitr
          swap; · iexact HS
          ipureintro; exact View.read_writes_of_cover _ _ _ _ _ (coverB2_S c _ _ _ _ _ _ _ _ _ _ _ _ _)
        iexact Hoth
      iexact Hg
    isplitl [Ho]; · iexact Ho
    isplitl [H0]; · iexact H0
    isplitl [H1]; · iexact H1
    unfold owns; iexists _; isplitr
    swap; · iexact H2
    ipureintro; exact View.read_writes_of_cover _ _ _ _ _ (coverB2_O c _ _ _ _ _ _ _ _ _ _ _ _ _)

/-- The library's body obligation, at every point. -/
theorem body_obligation2 (c : Dev nD) : BodyObligation (dat2 (F := F) V c) (defs₀ (F := F)) Variants.none () Set.univ := fun t => by
  rw [bigSep_W2, bigSep_W2]
  exact sound_body2 V c t

/-- What the launch hands the region is the invariant before the first point, -/
theorem hin2 (c : Dev nD) : Pipeline.ΦA spec2 c ⊢ (dat2 V c).Φ 0 := by
  rw [show (dat2 V c).Φ 0 = inv2 V c 0 (Nat.zero_le _) from rfl, inv2_zero V c 0 _ rfl]

/-- and after the last point the invariant gives it back, the accumulator's value forgotten. -/
theorem hout2 (c : Dev nD) : (dat2 V c).Φ (Fin.last cfg2.N) ⊢ Pipeline.ΦA spec2 c := by
  rw [show (dat2 V c).Φ (Fin.last cfg2.N) = inv2 V c (Fin.last cfg2.N).val (Nat.le_of_lt_succ (Fin.last cfg2.N).isLt) from rfl,
    inv2_pos V c _ _ (by rw [Fin.val_last]; have : cfg2.N = 256 := N_2; omega)]
  exact PhiA2_close c _

end Cert.KernelIdeal.Hand

end
-- ==== Proof.KI.Main.lean ====
import proofs.«164100_j38646115730032_1_alg».proof.Proof.Gen.KernelIdeal.Launch
import proofs.«164100_j38646115730032_1_alg».proof.Proof.Gen.KernelIdeal.Regions
import proofs.«164100_j38646115730032_1_alg».proof.Proof.KI.R0
import proofs.«164100_j38646115730032_1_alg».proof.Proof.KI.R1
import proofs.«164100_j38646115730032_1_alg».proof.Proof.KI.R2
import Idealize.ShloMosaic.Lib.Pipeline.Frame
import Idealize.ShloMosaic.Lib.Pipeline.Regions
import Idealize.ShloMosaic.Lib.Pipeline.RegionsLoop
import Idealize.ShloMosaic.Lib.StableHlo.Run

/- @main of the kernel program, assembled: three pallas_calls with stretches of host operations between them, run as a
   list of items over a thread state that tracks every unscoped buffer of a core at a valuation. Generic in the float
   type. What is proved here: the run (`run_all`: every buffer ends at `W6`), the frame (`frame`: the argument arrays end
   as launched) and the reading of the valuations (`WJ_…`, `W6_…`). The bodies of the three calls are the modules R0–R2. -/

noncomputable section

namespace Cert.KernelIdeal.Hand

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.KernelIdeal Cert.KernelIdeal.Gen

variable {F : FTy → Type} [FloatOps F]

local notation "𝕄" => MT nD τ sig Unit (Elt F) ℕ (UR sig nD τ) ℕ

/-! # A pallas_call that reads ONE array through two windows

Calls 0 and 1 hand their kernel the same array twice. Two windows cannot both own the array whole: the first holds it
at the left half of the full share, the second at the right half, the output window its own array whole. No write-back
touches an input array, so at the call's exit both halves still hold the entry contents and join into the full share. -/

/-- The buffers behind call 0's three windows are two: the doubly read array and the output. -/
theorem arrSet0 : Finset.univ.image (Pipeline.arrRef spec0) = ({main_arg0, main_v0} : Finset (Ref sig .tc)) := by decide

/-- Call 0's arrays at contents `G`, window by window: whole buffers, the input array at the two halves. -/
theorem arrays0_split {c : Dev nD} (d : Dat τ (Elt F) Unit ℕ (UR sig nD τ) ℕ cfg0 c)
    (hq0 : d.q 0 = fullShare.left) (hq1 : d.q 1 = fullShare.right)
    (G : (w : Fin cfg0.W) → Buf (Elt F) ((cfg0.win w).arr.view.loc (c.tc : Thread nD τ))) :
    (d.arrays G : sProp 𝕄) = iprop((((c : Thread nD τ).loc main_arg0) ↦{fullShare.left} G 0)
      ∗ (((c : Thread nD τ).loc main_arg0) ↦{fullShare.right} G 1) ∗ (((c : Thread nD τ).loc main_v0) ↦{fullShare} G 2)) := by
  have s0 : d.share 0 = fullShare.left := by unfold Dat.share; rw [if_neg (by decide)]; exact hq0
  have s1 : d.share 1 = fullShare.right := by unfold Dat.share; rw [if_neg (by decide)]; exact hq1
  have s2 : d.share 2 = fullShare := by unfold Dat.share; rw [if_pos (by decide)]
  unfold Dat.arrays
  rw [bigSep_W0, s0, s1, s2, (arr_whole0 0).set_eq_univ, (arr_whole0 2).set_eq_univ]

/-- A core's unscoped buffers at `V`: those two, and the buffers call 0 has no window on. -/
theorem bufs0_split (c : Dev nD) (V : (b : Ref sig .tc) → Buf (Elt F) ((c : Thread nD τ).loc b)) :
    (unscopedBufs c V : sProp 𝕄) = iprop(((((c : Thread nD τ).loc main_arg0) ↦{fullShare} V main_arg0)
      ∗ (((c : Thread nD τ).loc main_v0) ↦{fullShare} V main_v0)) ∗ Pipeline.unscopedRest spec0 c V) := by
  have h : (unscopedBufs c V : sProp 𝕄) = iprop(Pipeline.arrBufs spec0 c V ∗ Pipeline.unscopedRest spec0 c V) :=
    Pipeline.unscopedBufs_split₀ cfgs 0 winFacts₀0.arr_unscoped c V
  rw [h]; unfold Pipeline.arrBufs
  rw [arrSet0, bigSep_insert (by decide), bigSep_singleton]
  rfl

/-- ENTRY of call 0: out of the unscoped buffers at `V` come its arrays at the proof data's entry contents (read off
    `V`), the input array's full share cut in two. -/
theorem enter0 {c : Dev nD} (V : (b : Ref sig .tc) → Buf (Elt F) ((c : Thread nD τ).loc b))
    (d : Dat τ (Elt F) Unit ℕ (UR sig nD τ) ℕ cfg0 c) (hA : ∀ w, d.A w = V (Pipeline.arrRef spec0 w))
    (hq0 : d.q 0 = fullShare.left) (hq1 : d.q 1 = fullShare.right) :
    (unscopedBufs c V : sProp 𝕄) ⊢ iprop(d.arrays (d.arrAt · 0) ∗ Pipeline.unscopedRest spec0 c V) := by
  rw [bufs0_split, arrays0_split d hq0 hq1]
  rw [show d.arrAt 0 0 = V main_arg0 from hA 0, show d.arrAt 1 0 = V main_arg0 from hA 1, show d.arrAt 2 0 = V main_v0 from hA 2]
  iintro ⟨⟨Hx, Ho⟩, Hrest⟩
  isplitr [Hrest]
  · ihave H := (pointsTo_share (PosShare.mem_left_op_right fullShare)).1 $$ Hx
    icases H with ⟨Hl, Hr⟩
    isplitl [Hl]; · iexact Hl
    isplitl [Hr]; · iexact Hr
    iexact Ho
  iexact Hrest

/-- EXIT of call 0: its arrays at what the pipeline leaves and the bypassing buffers at `V` are the unscoped buffers at
    any `V'` that has the output array at its write-backs' fold and agrees with `V` elsewhere. Both windows on the input
    array end at `Dat.arrAt … N`, which for an input is the entry contents (`Dat.arrAt_in`): the halves agree and join. -/
theorem leave0 {c : Dev nD} (V V' : (b : Ref sig .tc) → Buf (Elt F) ((c : Thread nD τ).loc b))
    (d : Dat τ (Elt F) Unit ℕ (UR sig nD τ) ℕ cfg0 c) (hA : ∀ w, d.A w = V (Pipeline.arrRef spec0 w))
    (hq0 : d.q 0 = fullShare.left) (hq1 : d.q 1 = fullShare.right)
    (hout : V' main_v0 = d.arrAt 2 cfg0.N) (hoff : ∀ b, b ≠ main_v0 → V' b = V b) :
    iprop(d.arrays (d.arrAt · cfg0.N) ∗ Pipeline.unscopedRest spec0 c V) ⊢ (unscopedBufs c V' : sProp 𝕄) := by
  rw [bufs0_split, arrays0_split d hq0 hq1, hout, hoff main_arg0 (by decide)]
  rw [show d.arrAt 0 cfg0.N = V main_arg0 from (d.arrAt_in 0 rfl _).trans (hA 0),
    show d.arrAt 1 cfg0.N = V main_arg0 from (d.arrAt_in 1 rfl _).trans (hA 1)]
  have hrest : (Pipeline.unscopedRest spec0 c V' : sProp 𝕄) = Pipeline.unscopedRest spec0 c V := by
    unfold Pipeline.unscopedRest
    exact bigSep_congr fun b hb => by
      rw [hoff b fun e => (Finset.mem_sdiff.mp hb).2 (e ▸ Finset.mem_image.mpr ⟨2, Finset.mem_univ _, rfl⟩)]
  rw [hrest]
  iintro ⟨⟨Hl, Hr, Ho⟩, Hrest⟩
  isplitr [Hrest]
  · isplitr [Ho]
    · iapply (pointsTo_share (PosShare.mem_left_op_right fullShare)).2
      isplitl [Hl]; · iexact Hl
      iexact Hr
    iexact Ho
  iexact Hrest

/-! ## The same for call 1, on `main_arg2` and `main_v2` -/

/-- The buffers behind call 1's three windows are two: the doubly read array and the output. -/
theorem arrSet1 : Finset.univ.image (Pipeline.arrRef spec1) = ({main_arg2, main_v2} : Finset (Ref sig .tc)) := by decide

/-- Call 1's arrays at contents `G`, window by window: whole buffers, the input array at the two halves. -/
theorem arrays1_split {c : Dev nD} (d : Dat τ (Elt F) Unit ℕ (UR sig nD τ) ℕ cfg1 c)
    (hq0 : d.q 0 = fullShare.left) (hq1 : d.q 1 = fullShare.right)
    (G : (w : Fin cfg1.W) → Buf (Elt F) ((cfg1.win w).arr.view.loc (c.tc : Thread nD τ))) :
    (d.arrays G : sProp 𝕄) = iprop((((c : Thread nD τ).loc main_arg2) ↦{fullShare.left} G 0)
      ∗ (((c : Thread nD τ).loc main_arg2) ↦{fullShare.right} G 1) ∗ (((c : Thread nD τ).loc main_v2) ↦{fullShare} G 2)) := by
  have s0 : d.share 0 = fullShare.left := by unfold Dat.share; rw [if_neg (by decide)]; exact hq0
  have s1 : d.share 1 = fullShare.right := by unfold Dat.share; rw [if_neg (by decide)]; exact hq1
  have s2 : d.share 2 = fullShare := by unfold Dat.share; rw [if_pos (by decide)]
  unfold Dat.arrays
  rw [bigSep_W1, s0, s1, s2, (arr_whole1 0).set_eq_univ, (arr_whole1 2).set_eq_univ]

/-- A core's unscoped buffers at `V`: those two, and the buffers call 1 has no window on. -/
theorem bufs1_split (c : Dev nD) (V : (b : Ref sig .tc) → Buf (Elt F) ((c : Thread nD τ).loc b)) :
    (unscopedBufs c V : sProp 𝕄) = iprop(((((c : Thread nD τ).loc main_arg2) ↦{fullShare} V main_arg2)
      ∗ (((c : Thread nD τ).loc main_v2) ↦{fullShare} V main_v2)) ∗ Pipeline.unscopedRest spec1 c V) := by
  have h : (unscopedBufs c V : sProp 𝕄) = iprop(Pipeline.arrBufs spec1 c V ∗ Pipeline.unscopedRest spec1 c V) :=
    Pipeline.unscopedBufs_split₀ cfgs 1 winFacts₀1.arr_unscoped c V
  rw [h]; unfold Pipeline.arrBufs
  rw [arrSet1, bigSep_insert (by decide), bigSep_singleton]
  rfl

/-- ENTRY of call 1: out of the unscoped buffers at `V` come its arrays at the proof data's entry contents (read off
    `V`), the input array's full share cut in two. -/
theorem enter1 {c : Dev nD} (V : (b : Ref sig .tc) → Buf (Elt F) ((c : Thread nD τ).loc b))
    (d : Dat τ (Elt F) Unit ℕ (UR sig nD τ) ℕ cfg1 c) (hA : ∀ w, d.A w = V (Pipeline.arrRef spec1 w))
    (hq0 : d.q 0 = fullShare.left) (hq1 : d.q 1 = fullShare.right) :
    (unscopedBufs c V : sProp 𝕄) ⊢ iprop(d.arrays (d.arrAt · 0) ∗ Pipeline.unscopedRest spec1 c V) := by
  rw [bufs1_split, arrays1_split d hq0 hq1]
  rw [show d.arrAt 0 0 = V main_arg2 from hA 0, show d.arrAt 1 0 = V main_arg2 from hA 1, show d.arrAt 2 0 = V main_v2 from hA 2]
  iintro ⟨⟨Hx, Ho⟩, Hrest⟩
  isplitr [Hrest]
  · ihave H := (pointsTo_share (PosShare.mem_left_op_right fullShare)).1 $$ Hx
    icases H with ⟨Hl, Hr⟩
    isplitl [Hl]; · iexact Hl
    isplitl [Hr]; · iexact Hr
    iexact Ho
  iexact Hrest

/-- EXIT of call 1: its arrays at what the pipeline leaves and the bypassing buffers at `V` are the unscoped buffers at
    any `V'` that has the output array at its write-backs' fold and agrees with `V` elsewhere. Both windows on the input
    array end at `Dat.arrAt … N`, which for an input is the entry contents (`Dat.arrAt_in`): the halves agree and join. -/
theorem leave1 {c : Dev nD} (V V' : (b : Ref sig .tc) → Buf (Elt F) ((c : Thread nD τ).loc b))
    (d : Dat τ (Elt F) Unit ℕ (UR sig nD τ) ℕ cfg1 c) (hA : ∀ w, d.A w = V (Pipeline.arrRef spec1 w))
    (hq0 : d.q 0 = fullShare.left) (hq1 : d.q 1 = fullShare.right)
    (hout : V' main_v2 = d.arrAt 2 cfg1.N) (hoff : ∀ b, b ≠ main_v2 → V' b = V b) :
    iprop(d.arrays (d.arrAt · cfg1.N) ∗ Pipeline.unscopedRest spec1 c V) ⊢ (unscopedBufs c V' : sProp 𝕄) := by
  rw [bufs1_split, arrays1_split d hq0 hq1, hout, hoff main_arg2 (by decide)]
  rw [show d.arrAt 0 cfg1.N = V main_arg2 from (d.arrAt_in 0 rfl _).trans (hA 0),
    show d.arrAt 1 cfg1.N = V main_arg2 from (d.arrAt_in 1 rfl _).trans (hA 1)]
  have hrest : (Pipeline.unscopedRest spec1 c V' : sProp 𝕄) = Pipeline.unscopedRest spec1 c V := by
    unfold Pipeline.unscopedRest
    exact bigSep_congr fun b hb => by
      rw [hoff b fun e => (Finset.mem_sdiff.mp hb).2 (e ▸ Finset.mem_image.mpr ⟨2, Finset.mem_univ _, rfl⟩)]
  rw [hrest]
  iintro ⟨⟨Hl, Hr, Ho⟩, Hrest⟩
  isplitr [Hrest]
  · isplitr [Ho]
    · iapply (pointsTo_share (PosShare.mem_left_op_right fullShare)).2
      isplitl [Hl]; · iexact Hl
      iexact Hr
    iexact Ho
  iexact Hrest

/-! # The core's ledger at a proof data that owes nothing -/

/-- A core owing nothing, its recorded waits unknown, is the pipeline's ledger at any point of a proof data that owes
    nothing there and bounds the recorded waits by everything. -/
theorem owesAt_of_nothing {cfg : Pipeline.Cfg sig Λ₀} {c : Dev nD} (d : Dat τ (Elt F) Unit ℕ (UR sig nD τ) ℕ cfg c) (t : Fin (cfg.N + 1))
    (ho : d.owed t = 0) (hr : d.recorded t = Set.univ) :
    (iprop(∃ W, owes (c : Thread nD τ) (0 : CellTallies nD τ sig Unit) W) : sProp 𝕄) ⊢ d.owesAt () t := by
  unfold Dat.owesAt Pipeline.owesWithin
  rw [ho]
  iintro ⟨%W, H⟩
  iexists W
  isplitr
  · ipureintro; intro x _; exact Or.inl (hr ▸ Set.mem_univ x)
  iexact H

/-- and back. -/
theorem nothing_of_owesAt {cfg : Pipeline.Cfg sig Λ₀} {c : Dev nD} (d : Dat τ (Elt F) Unit ℕ (UR sig nD τ) ℕ cfg c) (t : Fin (cfg.N + 1))
    (ho : d.owed t = 0) :
    d.owesAt () t ⊢ (iprop(∃ W, owes (c : Thread nD τ) (0 : CellTallies nD τ sig Unit) W) : sProp 𝕄) := by
  unfold Dat.owesAt Pipeline.owesWithin
  rw [ho]
  iintro ⟨%W, -, H⟩
  iexists W
  iexact H

/-! # What the core's buffers hold between @main's items

@main is six items: call 0, one reshape, call 1, one reshape, call 2, eleven scalar operations. `WJ` is the contents
of every buffer of core `c` after `J` items. A host stretch moves it by `StableHlo.after`. A call changes ONE buffer, its
output array, to what its write-backs leave there (`Dat.arrAt … N` of its proof data, taken at the contents the call
was entered from); its input arrays and every buffer it has no window on stay as they were. -/

/-- At launch: the memory. -/
abbrev W0 (m : (ℓ : Loc nD τ sig) → Buf (Elt F) ℓ) (ρ : Dev nD → PrngReg) : Dev nD → Valuation τ sig (Elt F) :=
  fun c b => m ((c : Dev nD), b)

variable (m : (ℓ : Loc nD τ sig) → Buf (Elt F) ℓ) (ρ : Dev nD → PrngReg)

/-- `W0` at the TensorCore's references: what call 0's proof data is taken at. -/
abbrev V0 : (c : Dev nD) → (b : Ref sig .tc) → Buf (Elt F) ((c : Thread nD τ).loc b) := fun c b => W0 m ρ c b
/-- After call 0: `main_v0` at what its write-backs leave. -/
def W1 (c : Dev nD) : Valuation τ sig (Elt F) :=
  Function.update (W0 m ρ c) (Proc.devRef .tc main_v0) ((dat0 (V0 m ρ) c).arrAt 2 cfg0.N)
/-- After the first reshape. -/
abbrev W2 : Dev nD → Valuation τ sig (Elt F) := fun c => StableHlo.after hostOps1 (W1 m ρ c)
/-- `W2` at the TensorCore's references: what call 1's proof data is taken at. -/
abbrev V2 : (c : Dev nD) → (b : Ref sig .tc) → Buf (Elt F) ((c : Thread nD τ).loc b) := fun c b => W2 m ρ c b
/-- After call 1: `main_v2` at what its write-backs leave. -/
def W3 (c : Dev nD) : Valuation τ sig (Elt F) :=
  Function.update (W2 m ρ c) (Proc.devRef .tc main_v2) ((dat1 (V2 m ρ) c).arrAt 2 cfg1.N)
/-- After the second reshape. -/
abbrev W4 : Dev nD → Valuation τ sig (Elt F) := fun c => StableHlo.after hostOps2 (W3 m ρ c)
/-- `W4` at the TensorCore's references: what call 2's proof data is taken at. -/
abbrev V4 : (c : Dev nD) → (b : Ref sig .tc) → Buf (Elt F) ((c : Thread nD τ).loc b) := fun c b => W4 m ρ c b
/-- After call 2: `main_v4` at what its write-backs leave. -/
def W5 (c : Dev nD) : Valuation τ sig (Elt F) :=
  Function.update (W4 m ρ c) (Proc.devRef .tc main_v4) ((dat2 (V4 m ρ) c).arrAt 2 cfg2.N)
/-- After the eleven scalar operations: @main's end. -/
abbrev W6 : Dev nD → Valuation τ sig (Elt F) := fun c => StableHlo.after hostOps3 (W5 m ρ c)

/-! ## Reading the valuations: a call's output, and everything it leaves alone -/

theorem W1_out (c : Dev nD) : W1 m ρ c (Proc.devRef .tc main_v0) = (dat0 (V0 m ρ) c).arrAt 2 cfg0.N := by
  unfold W1; exact Function.update_self ..
theorem W1_off (c : Dev nD) (b : Ref sig .tc) (h : b ≠ main_v0) : W1 m ρ c (Proc.devRef .tc b) = W0 m ρ c (Proc.devRef .tc b) := by
  unfold W1; exact Function.update_of_ne (StableHlo.devRef_ne_of_ne h) ..
theorem W2_off (c : Dev nD) (b : Ref sig .tc) (h : b ∉ hostOps1_W) : W2 m ρ c (Proc.devRef .tc b) = W1 m ρ c (Proc.devRef .tc b) :=
  StableHlo.after_of_writes_sub hostOps1 _ hostOps1_writes h
theorem W3_out (c : Dev nD) : W3 m ρ c (Proc.devRef .tc main_v2) = (dat1 (V2 m ρ) c).arrAt 2 cfg1.N := by
  unfold W3; exact Function.update_self ..
theorem W3_off (c : Dev nD) (b : Ref sig .tc) (h : b ≠ main_v2) : W3 m ρ c (Proc.devRef .tc b) = W2 m ρ c (Proc.devRef .tc b) := by
  unfold W3; exact Function.update_of_ne (StableHlo.devRef_ne_of_ne h) ..
theorem W4_off (c : Dev nD) (b : Ref sig .tc) (h : b ∉ hostOps2_W) : W4 m ρ c (Proc.devRef .tc b) = W3 m ρ c (Proc.devRef .tc b) :=
  StableHlo.after_of_writes_sub hostOps2 _ hostOps2_writes h
theorem W5_out (c : Dev nD) : W5 m ρ c (Proc.devRef .tc main_v4) = (dat2 (V4 m ρ) c).arrAt 2 cfg2.N := by
  unfold W5; exact Function.update_self ..
theorem W5_off (c : Dev nD) (b : Ref sig .tc) (h : b ≠ main_v4) : W5 m ρ c (Proc.devRef .tc b) = W4 m ρ c (Proc.devRef .tc b) := by
  unfold W5; exact Function.update_of_ne (StableHlo.devRef_ne_of_ne h) ..
theorem W6_off (c : Dev nD) (b : Ref sig .tc) (h : b ∉ hostOps3_W) : W6 m ρ c (Proc.devRef .tc b) = W5 m ρ c (Proc.devRef .tc b) :=
  StableHlo.after_of_writes_sub hostOps3 _ hostOps3_writes h

/-! ## No item writes an argument of @main: each holds its launch contents throughout -/

/-- A buffer no item writes holds, after every item, what the memory held. -/
theorem untouched (c : Dev nD) (b : Ref sig .tc) (h0 : b ≠ main_v0) (h1 : b ∉ hostOps1_W) (h2 : b ≠ main_v2) (h3 : b ∉ hostOps2_W)
    (h4 : b ≠ main_v4) (h5 : b ∉ hostOps3_W) :
    W2 m ρ c (Proc.devRef .tc b) = m ((c : Thread nD τ).loc b) ∧ W4 m ρ c (Proc.devRef .tc b) = m ((c : Thread nD τ).loc b)
      ∧ W6 m ρ c (Proc.devRef .tc b) = m ((c : Thread nD τ).loc b) := by
  have e2 : W2 m ρ c (Proc.devRef .tc b) = m ((c : Thread nD τ).loc b) := (W2_off m ρ c b h1).trans (W1_off m ρ c b h0)
  have e4 : W4 m ρ c (Proc.devRef .tc b) = m ((c : Thread nD τ).loc b) := ((W4_off m ρ c b h3).trans (W3_off m ρ c b h2)).trans e2
  exact ⟨e2, e4, ((W6_off m ρ c b h5).trans (W5_off m ρ c b h4)).trans e4⟩

theorem W0_main_arg0 (c : Dev nD) : W0 m ρ c (Proc.devRef .tc main_arg0) = m ((c : Thread nD τ).loc main_arg0) := rfl
theorem W0_main_arg2 (c : Dev nD) : W0 m ρ c (Proc.devRef .tc main_arg2) = m ((c : Thread nD τ).loc main_arg2) := rfl
theorem W2_main_arg0 (c : Dev nD) : W2 m ρ c (Proc.devRef .tc main_arg0) = m ((c : Thread nD τ).loc main_arg0) :=
  (untouched m ρ c main_arg0 (by decide) (by decide) (by decide) (by decide) (by decide) (by decide)).1
theorem W2_main_arg2 (c : Dev nD) : W2 m ρ c (Proc.devRef .tc main_arg2) = m ((c : Thread nD τ).loc main_arg2) :=
  (untouched m ρ c main_arg2 (by decide) (by decide) (by decide) (by decide) (by decide) (by decide)).1
theorem W4_main_arg0 (c : Dev nD) : W4 m ρ c (Proc.devRef .tc main_arg0) = m ((c : Thread nD τ).loc main_arg0) :=
  (untouched m ρ c main_arg0 (by decide) (by decide) (by decide) (by decide) (by decide) (by decide)).2.1
theorem W4_main_arg2 (c : Dev nD) : W4 m ρ c (Proc.devRef .tc main_arg2) = m ((c : Thread nD τ).loc main_arg2) :=
  (untouched m ρ c main_arg2 (by decide) (by decide) (by decide) (by decide) (by decide) (by decide)).2.1
theorem W6_main_arg0 (c : Dev nD) : W6 m ρ c (Proc.devRef .tc main_arg0) = m ((c : Thread nD τ).loc main_arg0) :=
  (untouched m ρ c main_arg0 (by decide) (by decide) (by decide) (by decide) (by decide) (by decide)).2.2
theorem W6_main_arg1 (c : Dev nD) : W6 m ρ c (Proc.devRef .tc main_arg1) = m ((c : Thread nD τ).loc main_arg1) :=
  (untouched m ρ c main_arg1 (by decide) (by decide) (by decide) (by decide) (by decide) (by decide)).2.2
theorem W6_main_arg2 (c : Dev nD) : W6 m ρ c (Proc.devRef .tc main_arg2) = m ((c : Thread nD τ).loc main_arg2) :=
  (untouched m ρ c main_arg2 (by decide) (by decide) (by decide) (by decide) (by decide) (by decide)).2.2
theorem W6_main_arg3 (c : Dev nD) : W6 m ρ c (Proc.devRef .tc main_arg3) = m ((c : Thread nD τ).loc main_arg3) :=
  (untouched m ρ c main_arg3 (by decide) (by decide) (by decide) (by decide) (by decide) (by decide)).2.2

/-- The exit views: each call's exit contents at the TensorCore's references. -/
abbrev V1 : (c : Dev nD) → (b : Ref sig .tc) → Buf (Elt F) ((c : Thread nD τ).loc b) := fun c b => W1 m ρ c b
abbrev V3 : (c : Dev nD) → (b : Ref sig .tc) → Buf (Elt F) ((c : Thread nD τ).loc b) := fun c b => W3 m ρ c b
abbrev V5 : (c : Dev nD) → (b : Ref sig .tc) → Buf (Elt F) ((c : Thread nD τ).loc b) := fun c b => W5 m ρ c b

/-- Call 2's arrays are three distinct buffers: at its exit each holds what the pipeline leaves in it — the two inputs
    their entry contents, the output its write-backs — -/
theorem exit2_arr (c : Dev nD) : ∀ w : Fin 3, (dat2 (V4 m ρ) c).arrAt w cfg2.N = V5 m ρ c (Pipeline.arrRef spec2 w)
  | ⟨0, _⟩ => ((dat2 (V4 m ρ) c).arrAt_in 0 rfl _).trans ((A_eq2 (V4 m ρ) c 0).trans (W5_off m ρ c main_arg0 (by decide)).symm)
  | ⟨1, _⟩ => ((dat2 (V4 m ρ) c).arrAt_in 1 rfl _).trans ((A_eq2 (V4 m ρ) c 1).trans (W5_off m ρ c main_arg2 (by decide)).symm)
  | ⟨2, _⟩ => (W5_out m ρ c).symm
/-- and every other buffer what it held at entry. -/
theorem exit2_off (c : Dev nD) : ∀ b, b ∉ Finset.univ.image (Pipeline.arrRef spec2) → V5 m ρ c b = V4 m ρ c b :=
  fun b hb => W5_off m ρ c b fun e => hb (e ▸ Finset.mem_image.mpr ⟨2, Finset.mem_univ _, rfl⟩)

/-! # The proof data of the three calls, each at the contents its call is entered from -/

/-- A literal match on the pipeline's index, so that the index at a numeral reduces to the call's own proof data. -/
def dats : (p : Fin 3) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V2 m ρ) c
  | ⟨2, _⟩ => fun c => dat2 (V4 m ρ) c

/-- No core waits on another: no pair of cells is levelled. -/
abbrev noPairs : GSem nD τ sig → Finset Unit := fun _ => ∅
abbrev noLevel : GSem nD τ sig → Unit → ℕ := fun _ _ => 0

/-! # The thread state between two items

Every unscoped buffer of the core whole, at the full share, at the contents `W c`; beside them the core's generator
register at some state (a call's invariant takes it in and hands it back) and its ledger, owing nothing. -/

abbrev side (c : Dev nD) : sProp 𝕄 :=
  iprop((∃ r, prngReg c r) ∗ ∃ W, owes (c : Thread nD τ) (0 : CellTallies nD τ sig Unit) W)
abbrev between (W : Dev nD → Valuation τ sig (Elt F)) (c : Dev nD) : sProp 𝕄 :=
  iprop(StableHlo.held (c : Thread nD τ) (Pipeline.ucRefs τ sig) (W c) ∗ side c)

/-- A stretch of host operations as an item: from `between W` it runs to `between` of `StableHlo.after` the stretch. -/
abbrev hostItem (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ Variants.none noPairs noLevel :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W side

/-- An unscoped TensorCore reference is among the buffers the thread state holds. -/
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩

/-! # The three calls as items -/

set_option backward.isDefEq.respectTransparency.types false in
/-- CALL 0, both input windows on `main_arg0`. Entry: the array's full share is halved between the two windows, the
    output array goes in whole, every other unscoped buffer bypasses the call. Exit: no write-back touches an input
    array, so both halves hold the entry contents and join; the output array comes back at its write-backs' fold. -/
def call0 : Pipeline.RegionSeg (pcfgs (F := F)) adm (dats m ρ) () defs₀ Variants.none noPairs noLevel 0 where
  win := winFacts₀0
  block_pos := block_pos0
  stage_whole := stage_whole0
  K := PEmpty
  osem k := k.elim
  ho := Pipeline.OwnSemFacts.none _
  hbody c := (body_obligation0 (V0 m ρ) c).loose
  hwaits := Pipeline.hwaits_of_owed_zero _ _ _ _ noPairs noLevel 0 fun c t => owed_eq0 (V0 m ρ) c t
  pre := between (W0 m ρ)
  post := between (W1 m ρ)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := enter0 (V0 m ρ c) (dats m ρ 0 c) (A_eq0 (V0 m ρ) c) (q_eq0_0 (V0 m ρ) c) (q_eq0_1 (V0 m ρ) c)
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · iapply (owesAt_of_nothing (dat0 (V0 m ρ) c) 0 (owed_eq0 _ c 0) (recorded_eq0 _ c 0)); iexact Howes
    isplitl [Hprng]; · iexact Hprng
    iexact Hrest
  hin c := by
    refine BIBase.Entails.trans ?_ (hin0 (V0 m ρ) c)
    unfold Pipeline.ΦA
    iintro ⟨Hp, -, Hr⟩
    isplitl [Hr]; · iexact Hr
    iexact Hp
  hout c := by
    rw [Pipeline.ownSems0_none]
    refine (hout0 (V0 m ρ) c).trans ?_
    unfold Pipeline.ΦA
    iintro ⟨Hr, Hp⟩
    isplitl [Hp]; · iexact Hp
    isplitr; · iempintro
    iexact Hr
  hexit c := by
    have hjoin := leave0 (V0 m ρ c) (V1 m ρ c) (dats m ρ 0 c) (A_eq0 (V0 m ρ) c) (q_eq0_0 (V0 m ρ) c) (q_eq0_1 (V0 m ρ) c) (W1_out m ρ c)
      (fun b h => W1_off m ρ c b h)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (nothing_of_owesAt (dat0 (V0 m ρ) c) (Fin.last _) (owed_eq0 _ c _)); iexact Howes
set_option backward.isDefEq.respectTransparency.types false in
/-- CALL 1, both input windows on `main_arg2`: as call 0. -/
def call1 : Pipeline.RegionSeg (pcfgs (F := F)) adm (dats m ρ) () defs₀ Variants.none noPairs noLevel 1 where
  win := winFacts₀1
  block_pos := block_pos1
  stage_whole := stage_whole1
  K := PEmpty
  osem k := k.elim
  ho := Pipeline.OwnSemFacts.none _
  hbody c := (body_obligation1 (V2 m ρ) c).loose
  hwaits := Pipeline.hwaits_of_owed_zero _ _ _ _ noPairs noLevel 1 fun c t => owed_eq1 (V2 m ρ) c t
  pre := between (W2 m ρ)
  post := between (W3 m ρ)
  X c := iprop(∃ r, prngReg c r)
  Y c := iprop(∃ r, prngReg c r)
  Z c := Pipeline.unscopedRest (Ix := Unit) (Name := ℕ) (U := UR sig nD τ) (Lvl := ℕ) spec1 c (V2 m ρ c)
  hentry c := by
    rw [Pipeline.ownSems0_none]
    have hsplit := enter1 (V2 m ρ c) (dats m ρ 1 c) (A_eq1 (V2 m ρ) c) (q_eq1_0 (V2 m ρ) c) (q_eq1_1 (V2 m ρ) c)
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · iapply (owesAt_of_nothing (dat1 (V2 m ρ) c) 0 (owed_eq1 _ c 0) (recorded_eq1 _ c 0)); iexact Howes
    isplitl [Hprng]; · iexact Hprng
    iexact Hrest
  hin c := by
    refine BIBase.Entails.trans ?_ (hin1 (V2 m ρ) c)
    unfold Pipeline.ΦA
    iintro ⟨Hp, -, Hr⟩
    isplitl [Hr]; · iexact Hr
    iexact Hp
  hout c := by
    rw [Pipeline.ownSems0_none]
    refine (hout1 (V2 m ρ) c).trans ?_
    unfold Pipeline.ΦA
    iintro ⟨Hr, Hp⟩
    isplitl [Hp]; · iexact Hp
    isplitr; · iempintro
    iexact Hr
  hexit c := by
    have hjoin := leave1 (V2 m ρ c) (V3 m ρ c) (dats m ρ 1 c) (A_eq1 (V2 m ρ) c) (q_eq1_0 (V2 m ρ) c) (q_eq1_1 (V2 m ρ) c) (W3_out m ρ c)
      (fun b h => W3_off m ρ c b h)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (nothing_of_owesAt (dat1 (V2 m ρ) c) (Fin.last _) (owed_eq1 _ c _)); iexact Howes

set_option backward.isDefEq.respectTransparency.types false in
/-- CALL 2, one window on `main_arg0`, one on `main_arg2`: three distinct arrays, each whole at the full share, split out
    of the unscoped buffers at entry and put back at the exit contents. -/
def call2 : Pipeline.RegionSeg (pcfgs (F := F)) adm (dats m ρ) () defs₀ Variants.none noPairs noLevel 2 where
  win := launch2.win.to₀
  block_pos := launch2.block_pos
  stage_whole := launch2.stage_whole
  K := PEmpty
  osem k := k.elim
  ho := Pipeline.OwnSemFacts.none _
  hbody c := (body_obligation2 (V4 m ρ) c).loose
  hwaits := Pipeline.hwaits_of_owed_zero _ _ _ _ noPairs noLevel 2 fun c t => owed_eq2 (V4 m ρ) c t
  pre := between (W4 m ρ)
  post := between (W5 m ρ)
  X c := iprop(∃ r, prngReg c r)
  Y c := iprop(∃ r, prngReg c r)
  Z c := Pipeline.unscopedRest (Ix := Unit) (Name := ℕ) (U := UR sig nD τ) (Lvl := ℕ) spec2 c (V4 m ρ c)
  hentry c := by
    rw [Pipeline.ownSems0_none]
    have hsplit := Pipeline.arrays_of_unscopedBufs (p := 2) (pcfgs (F := F)) adm (dats m ρ) launch2.win launch2.arr_whole c
      ((dats m ρ 2 c).share_full fun w => q_eq2 (V4 m ρ) c w) (V4 m ρ c) fun w => A_eq2 (V4 m ρ) c w
    rw [Pipeline.unscopedBufs_held] at hsplit
    iintro ⟨⟨Hbufs, Hprng, Howes⟩, -, -⟩
    ihave H := hsplit $$ Hbufs
    icases H with ⟨Harr, Hrest⟩
    imodintro
    isplitl [Harr]; · iexact Harr
    isplitr; · unfold Pipeline.prefHeld; rw [show (Finset.univ : Finset (Fin 0)) = ∅ from rfl, BI.bigSep_empty]; iempintro
    isplitl [Howes]
    · iapply (owesAt_of_nothing (dat2 (V4 m ρ) c) 0 (owed_eq2 _ c 0) (recorded_eq2 _ c 0)); iexact Howes
    isplitl [Hprng]; · iexact Hprng
    iexact Hrest
  hin c := by
    refine BIBase.Entails.trans ?_ (hin2 (V4 m ρ) c)
    unfold Pipeline.ΦA
    iintro ⟨Hp, -, Hr⟩
    isplitl [Hr]; · iexact Hr
    iexact Hp
  hout c := by
    rw [Pipeline.ownSems0_none]
    refine (hout2 (V4 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 2) (pcfgs (F := F)) adm (Ix := Unit) (Name := ℕ) (U := UR sig nD τ) (Lvl := ℕ)
      launch2.win launch2.arr_whole c (dats m ρ) ((dats m ρ 2 c).share_full fun w => q_eq2 (V4 m ρ) c w)
      (V4 m ρ c) (V5 m ρ c) ((dats m ρ 2 c).arrAt · cfg2.N) (exit2_arr m ρ c) (exit2_off m ρ c)
    rw [Pipeline.unscopedBufs_held] at hjoin
    iintro ⟨Harr, Howes, Hprng, Hrest⟩
    imodintro
    isplitl [Harr Hrest]
    · iapply hjoin; isplitl [Harr] <;> iassumption
    isplitl [Hprng]; · iexact Hprng
    iapply (nothing_of_owesAt (dat2 (V4 m ρ) c) (Fin.last _) (owed_eq2 _ c _)); iexact Howes

/-! # @main as its six items, and the run -/

abbrev items : List (Pipeline.Seg (pcfgs (F := F)) adm (dats m ρ) () defs₀ Variants.none noPairs noLevel) :=
  [ .region (call0 m ρ),
    .host (hostItem hostOps1 hostOps1_sub hostOps1_fresh (W1 m ρ)),
    .region (call1 m ρ),
    .host (hostItem hostOps2 hostOps2_sub hostOps2_fresh (W3 m ρ)),
    .region (call2 m ρ),
    .host (hostItem hostOps3 hostOps3_sub hostOps3_fresh (W5 m ρ)) ]

/-- @main is the run of its items, in order. -/
theorem main_items (c : Dev nD) : main (F := F) c = Pipeline.Seg.run (items m ρ) :=
  main_segs adm (dats m ρ) () Variants.none noPairs noLevel _ _ _ (call0 m ρ) (call1 m ρ) (call2 m ρ) rfl rfl rfl c

set_option backward.isDefEq.respectTransparency.types false in
/-- THE RUN. From any memory `m` with every counter at zero and any generator registers, every weakly fair execution of
    @main on the TensorCores terminates, and at the end every unscoped buffer of every core holds `W6`: the launch
    deals each core its unscoped buffers at the memory's contents, its register and an empty ledger (`between W0`); the
    items chain, each entered from what the one before left; the last thread state is read against the final state. -/
theorem run_all : θ_run defs (onTc (τ := τ) (main (F := F))) ⟨m, fun _ => 0, ρ⟩
    (fun r => ∀ c : Dev nD, ∀ b ∈ Pipeline.ucRefs τ sig, r.2.mem ((c : Thread nD τ).1, b) = W6 m ρ c b) :=
  Pipeline.θ_run_regions_kit (pcfgs (F := F)) adm (dats m ρ) () cellOf_inj emb₁ defs₀ Variants.none noPairs noLevel m ρ main (items m ρ)
    (fun c Q => by rw [main_items m ρ c])
    (by simp only [items, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := between (W0 m ρ))
    (Tₙ := fun c => iprop(StableHlo.held (c : Thread nD τ) (Pipeline.ucRefs τ sig) (W6 m ρ c) ∗ ∃ r, prngReg c r))
    (hch := ⟨fun _ => .rfl, fun _ => .rfl, fun _ => .rfl, fun _ => .rfl, fun _ => .rfl, fun _ => .rfl, fun c => by
      show between (W6 m ρ) c ⊢ _
      iintro ⟨Hh, Hp, Ho⟩
      isplitr [Ho]
      · isplitl [Hh]; · iexact Hh
        iexact Hp
      iexact Ho⟩)
    (hinit := by
      refine Pipeline.initEach noPairs noLevel fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem ((c : Thread nD τ).1, b) = W6 m ρ c b)
    (hfin := fun c s' => by
      iintro ⟨⟨Hh, -⟩, HSI⟩
      unfold StableHlo.held
      imodintro
      iapply (pointsTo_read_all (Pipeline.ucRefs τ sig) (fun b => ((c : Thread nD τ).1, b)) (W6 m ρ c) s')
      isplitl [Hh] <;> iassumption)
    (hQ := fun s h => h)

/-- THE FRAME: at the end every argument array of @main holds its launch contents. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun r h c =>
    ⟨(h c _ (mem_uc main_arg0 (by decide))).trans (W6_main_arg0 m ρ c), (h c _ (mem_uc main_arg1 (by decide))).trans (W6_main_arg1 m ρ c),
      (h c _ (mem_uc main_arg2 (by decide))).trans (W6_main_arg2 m ρ c), (h c _ (mem_uc main_arg3 (by decide))).trans (W6_main_arg3 m ρ c)⟩)
    (run_all m ρ)

end Cert.KernelIdeal.Hand
end
-- ==== Proof.Spec.lean ====
/-
  The quantity both programs compute, stated once over the extended reals and over no program.

  For feature matrices `x`, `y` of 8192 rows and 256 columns, the radial-basis sum is
    rbfSum x y = ∑ i, ∑ j, exp (max (|x_i|² + |y_j|² − 2 · ⟨x_i, y_j⟩) 0 · (−1/2)),
  with |x_i|² = ∑ k, x_ik², ⟨x_i, y_j⟩ = ∑ k, x_ik · y_jk; the result is
    mmd a b c = a / n² + b / n² − (2 · c) / n²        (n² = 8192² = 2^26)
  at a = rbfSum s s, b = rbfSum t t, c = rbfSum s t.  The literals 2, −1/2 and 2^26 are kept as
  the words the programs print; only the zero word is read as the number 0.

  A 512-row block of a matrix, the same sum over one pair of blocks (`blockSum`), and the sum
  accumulated block pair by block pair in row-major order of the 16 × 16 pairs (`partialSum`)
  are stated here too: the tiled computation adds one `blockSum` per pair.
-/
import Idealize.ShloMosaic.PureOps.Ideal
import Idealize.ShloMosaic.PureOps.Ideal.Laws
import Idealize.ShloMosaic.Lib.ValueIdx

noncomputable section

open scoped BigOperators

namespace Cert.Spec

open Idealize.ShloMosaic Idealize.ShloMosaic.ValueIdx

/-- A feature matrix: 8192 rows of 256 extended reals. -/
abbrev Mat : Type := (⟨2, ![8192, 256]⟩ : Shape).Idx → EReal
/-- A block of 512 of its rows. -/
abbrev Blk : Type := (⟨2, ![512, 256]⟩ : Shape).Idx → EReal

/-- The literal 2.0, as printed. -/
def two : EReal := Ideal.ofBits .f32 0x40000000#32
/-- The literal −0.5, as printed. -/
def negHalf : EReal := Ideal.ofBits .f32 0xBF000000#32
/-- The literal 2^26 = 8192², as printed. -/
def nn : EReal := Ideal.ofBits .f32 0x4C800000#32

/-- One pair's term from the two squared norms and the inner product. -/
def termOf (a b d : EReal) : EReal := Ideal.exp (max (a + b - two * d) 0 * negHalf)

/-- Row `i`'s squared norm. -/
def sqn (x : Mat) (i : Fin 8192) : EReal := ∑ k : Fin 256, x (ix2 i k) * x (ix2 i k)
/-- Rows `i` of `x` and `j` of `y`: their inner product. -/
def dot (x y : Mat) (i j : Fin 8192) : EReal := ∑ k : Fin 256, x (ix2 i k) * y (ix2 j k)
/-- The pair `(i, j)`'s term. -/
def term (x y : Mat) (i j : Fin 8192) : EReal := termOf (sqn x i) (sqn y j) (dot x y i j)
/-- The radial-basis sum over all pairs of rows. -/
def rbfSum (x y : Mat) : EReal := ∑ i : Fin 8192, ∑ j : Fin 8192, term x y i j

/-- The three sums combined. -/
def mmd (a b c : EReal) : EReal := (Ideal.div a nn + Ideal.div b nn) - Ideal.div (two * c) nn

/-- Block `b` of a matrix: rows `512 b … 512 b + 511`. -/
def blk (x : Mat) (b : Fin 16) : Blk := fun j => x (ix2 ⟨512 * b.val + (j 0).val, by have := (j 0).isLt; have := b.isLt; simp only [Matrix.cons_val_zero] at *; omega⟩ (j 1))

/-- The same quantities inside one block. -/
def sqnB (x : Blk) (p : Fin 512) : EReal := ∑ k : Fin 256, x (ix2 p k) * x (ix2 p k)
def dotB (x y : Blk) (p q : Fin 512) : EReal := ∑ k : Fin 256, x (ix2 p k) * y (ix2 q k)
def termB (x y : Blk) (p q : Fin 512) : EReal := termOf (sqnB x p) (sqnB y q) (dotB x y p q)
/-- One pair of blocks' sum. -/
def blockSum (x y : Blk) : EReal := ∑ p : Fin 512, ∑ q : Fin 512, termB x y p q

/-- The sum after the first `n` block pairs, pair `t` being blocks `t / 16` of `x` and `t % 16` of `y`. -/
def partialSum (x y : Mat) : Nat → EReal
  | 0 => 0
  | n + 1 => partialSum x y n + blockSum (blk x ⟨n / 16 % 16, Nat.mod_lt _ (by decide)⟩) (blk y ⟨n % 16, Nat.mod_lt _ (by decide)⟩)

end Cert.Spec

end
-- ==== Proof.RefValue.lean ====
/-
  The reference program computes the specification's quantity.

  The program has three blocks of the same shape and a scalar tail. A block takes two feature matrices
  `x`, `y` (the first block `s, s`, the second `t, t`, the third `s, t`) and computes, for every pair of rows
  `(i, j)`,
      exp ((−max (|x_i|² + |y_j|² − 2 · ⟨x_i, y_j⟩) 0) / 2),
  the squared norms as row sums of the squared entries broadcast along the other axis, the inner products as
  a product with the transposed second matrix, and then adds these up over all pairs, starting from the
  zero word. The specification writes the same term as  exp (max (…) 0 · (−1/2)): the only arithmetic needed
  is that negating and then dividing by the literal 2 is multiplying by the literal −1/2, on every extended
  real. Every other literal stays the word it is printed as, on both sides.

  The tail divides the three sums by the literal 2^26, doubles the cross sum, adds and subtracts: the
  specification's `mmd`, operation by operation.
-/
import proofs.«164100_j38646115730032_1_alg».proof.Proof.Gen.ReferenceIdeal.Read
import proofs.«164100_j38646115730032_1_alg».proof.Proof.Spec

noncomputable section

open scoped BigOperators

namespace Cert.RefValue

open Cert.ReferenceIdeal Cert.ReferenceIdeal.Read Idealize.ShloMosaic Idealize.ShloMosaic.ValueIdx Cert.Spec

/-! ## The two literals of the exponent -/

/-- The word `0x40000000` (sign 0, exponent field 128, mantissa 0) denotes the real 2. -/
theorem two_eq : Ideal.ofBits .f32 0x40000000#32 = ((2 : ℝ) : EReal) := by
  simp [Ideal.ofBits, Ideal.ieee, -EReal.coe_mul]; norm_num

/-- The word `0xBF000000` (sign 1, exponent field 126, mantissa 0) denotes the real −1/2. -/
theorem negHalf_eq : Ideal.ofBits .f32 0xBF000000#32 = ((-(1 / 2) : ℝ) : EReal) := by
  simp [Ideal.ofBits, Ideal.ieee, -EReal.coe_mul]; norm_num

/-- Negating and dividing by the literal 2 is multiplying by the literal −1/2, at the infinities too:
    division by the nonzero real 2 is the product with 1/2, and the sign moves across the product. -/
theorem div_neg_two (d : EReal) : Ideal.div (-d) two = d * negHalf := by
  unfold two negHalf
  rw [two_eq, negHalf_eq, Ideal.div_coe (by norm_num), EReal.neg_mul, EReal.coe_neg, mul_neg]

/-! ## The three blocks

Each block is read at the pair `(p, q)` by chaining the generated reading lemmas from the exponential down to
the arguments. The composed index maps of the broadcasts, the transpose and the product are the plain
coordinates: row `p` (or `q`), column `k`. -/

/-- The first block of the program (operations 0 to 19, on the first matrix alone) at the pair of rows `(p, q)`: the term of rows `p` and `q` of that matrix. -/
theorem term_ss (x0 : (⟨S8192x256, .f32⟩ : BufTy).Contents (Elt Ideal)) (p q : Fin 8192) :
    val_main_v19 (F := Ideal) x0 (ix2 p q) = term x0 x0 p q := by
  have e1 : ∀ k : Fin 256, idx_main_v1 (idx_main_v4 (idx_main_v6 (ix2 p q))) k = ix2 p k := fun k =>
    funext fun a => Fin.ext (by match a with | ⟨0, _⟩ => rfl | ⟨1, _⟩ => rfl)
  have e2 : ∀ k : Fin 256, idx_main_v3 (idx_main_v5 (idx_main_v7 (ix2 p q))) k = ix2 q k := fun k =>
    funext fun a => Fin.ext (by match a with | ⟨0, _⟩ => rfl | ⟨1, _⟩ => rfl)
  have e3 : ∀ k : Fin 256, lidx_main_v10 (ix2 p q) k = ix2 p k := fun k =>
    funext fun a => Fin.ext (by match a with | ⟨0, _⟩ => rfl | ⟨1, _⟩ => rfl)
  have e4 : ∀ k : Fin 256, idx_main_v9 (ridx_main_v10 (ix2 p q) k) = ix2 q k := fun k =>
    funext fun a => Fin.ext (by match a with | ⟨0, _⟩ => rfl | ⟨1, _⟩ => rfl)
  simp only [val_main_v19_apply, val_main_v18_apply, val_main_v17_apply, val_main_v16_apply, val_main_v15_apply, val_main_v14_apply,
    val_main_v13_apply, val_main_v12_apply, val_main_v11_apply, val_main_v10_apply, val_main_v9_apply, val_main_v8_apply,
    val_main_v7_apply, val_main_v6_apply, val_main_v5_apply, val_main_v4_apply, val_main_v3_apply, val_main_v2_apply,
    val_main_v1_apply, val_main_v0_apply, val_main_cst_apply, val_main_cst_0_apply, val_main_cst_1_apply, val_main_cst_2_apply,
    val_main_cst_3_apply]
  simp only [e1, e2, e3, e4, Ideal.ofBits_def, Ideal.addf_def, Ideal.subf_def, Ideal.mulf_def, Ideal.maximumf_def,
    Ideal.hostNegf_def, Ideal.negf_def, Ideal.hostDivf_def, Ideal.hostUnary_exp_def, Ideal.ofBits_zero_f32, zero_add]
  rw [term, termOf, ← div_neg_two]
  rfl

/-- Operation 20 sums them over all pairs: the first matrix's radial-basis sum with itself. -/
theorem sum_ss (x0 : (⟨S8192x256, .f32⟩ : BufTy).Contents (Elt Ideal)) :
    val_main_v20 (F := Ideal) x0 = fun _ => rbfSum x0 x0 := by
  funext i
  rw [val_main_v20_apply, val_main_cst_4_apply, Ideal.ofBits_def, Ideal.ofBits_zero_f32, zero_add, sum_idx2]
  simp only [term_ss]
  rfl

/-- The second block (operations 21 to 40, on the second matrix alone) at the pair `(p, q)`: the term of rows `p` and `q` of the second matrix. -/
theorem term_tt (x2 : (⟨S8192x256, .f32⟩ : BufTy).Contents (Elt Ideal)) (p q : Fin 8192) :
    val_main_v40 (F := Ideal) x2 (ix2 p q) = term x2 x2 p q := by
  have e1 : ∀ k : Fin 256, idx_main_v22 (idx_main_v25 (idx_main_v27 (ix2 p q))) k = ix2 p k := fun k =>
    funext fun a => Fin.ext (by match a with | ⟨0, _⟩ => rfl | ⟨1, _⟩ => rfl)
  have e2 : ∀ k : Fin 256, idx_main_v24 (idx_main_v26 (idx_main_v28 (ix2 p q))) k = ix2 q k := fun k =>
    funext fun a => Fin.ext (by match a with | ⟨0, _⟩ => rfl | ⟨1, _⟩ => rfl)
  have e3 : ∀ k : Fin 256, lidx_main_v31 (ix2 p q) k = ix2 p k := fun k =>
    funext fun a => Fin.ext (by match a with | ⟨0, _⟩ => rfl | ⟨1, _⟩ => rfl)
  have e4 : ∀ k : Fin 256, idx_main_v30 (ridx_main_v31 (ix2 p q) k) = ix2 q k := fun k =>
    funext fun a => Fin.ext (by match a with | ⟨0, _⟩ => rfl | ⟨1, _⟩ => rfl)
  simp only [val_main_v40_apply, val_main_v39_apply, val_main_v38_apply, val_main_v37_apply, val_main_v36_apply, val_main_v35_apply,
    val_main_v34_apply, val_main_v33_apply, val_main_v32_apply, val_main_v31_apply, val_main_v30_apply, val_main_v29_apply,
    val_main_v28_apply, val_main_v27_apply, val_main_v26_apply, val_main_v25_apply, val_main_v24_apply, val_main_v23_apply,
    val_main_v22_apply, val_main_v21_apply, val_main_cst_5_apply, val_main_cst_6_apply, val_main_cst_7_apply, val_main_cst_8_apply,
    val_main_cst_9_apply]
  simp only [e1, e2, e3, e4, Ideal.ofBits_def, Ideal.addf_def, Ideal.subf_def, Ideal.mulf_def, Ideal.maximumf_def,
    Ideal.hostNegf_def, Ideal.negf_def, Ideal.hostDivf_def, Ideal.hostUnary_exp_def, Ideal.ofBits_zero_f32, zero_add]
  rw [term, termOf, ← div_neg_two]
  rfl

/-- Operation 41 sums them over all pairs: the second matrix's radial-basis sum with itself. -/
theorem sum_tt (x2 : (⟨S8192x256, .f32⟩ : BufTy).Contents (Elt Ideal)) :
    val_main_v41 (F := Ideal) x2 = fun _ => rbfSum x2 x2 := by
  funext i
  rw [val_main_v41_apply, val_main_cst_10_apply, Ideal.ofBits_def, Ideal.ofBits_zero_f32, zero_add, sum_idx2]
  simp only [term_tt]
  rfl

/-- The third block (operations 42 to 61, on both matrices) at the pair `(p, q)`: the term of row `p` of the first matrix and row `q` of the second. -/
theorem term_st (x0 x2 : (⟨S8192x256, .f32⟩ : BufTy).Contents (Elt Ideal)) (p q : Fin 8192) :
    val_main_v61 (F := Ideal) x0 x2 (ix2 p q) = term x0 x2 p q := by
  have e1 : ∀ k : Fin 256, idx_main_v43 (idx_main_v46 (idx_main_v48 (ix2 p q))) k = ix2 p k := fun k =>
    funext fun a => Fin.ext (by match a with | ⟨0, _⟩ => rfl | ⟨1, _⟩ => rfl)
  have e2 : ∀ k : Fin 256, idx_main_v45 (idx_main_v47 (idx_main_v49 (ix2 p q))) k = ix2 q k := fun k =>
    funext fun a => Fin.ext (by match a with | ⟨0, _⟩ => rfl | ⟨1, _⟩ => rfl)
  have e3 : ∀ k : Fin 256, lidx_main_v52 (ix2 p q) k = ix2 p k := fun k =>
    funext fun a => Fin.ext (by match a with | ⟨0, _⟩ => rfl | ⟨1, _⟩ => rfl)
  have e4 : ∀ k : Fin 256, idx_main_v51 (ridx_main_v52 (ix2 p q) k) = ix2 q k := fun k =>
    funext fun a => Fin.ext (by match a with | ⟨0, _⟩ => rfl | ⟨1, _⟩ => rfl)
  simp only [val_main_v61_apply, val_main_v60_apply, val_main_v59_apply, val_main_v58_apply, val_main_v57_apply, val_main_v56_apply,
    val_main_v55_apply, val_main_v54_apply, val_main_v53_apply, val_main_v52_apply, val_main_v51_apply, val_main_v50_apply,
    val_main_v49_apply, val_main_v48_apply, val_main_v47_apply, val_main_v46_apply, val_main_v45_apply, val_main_v44_apply,
    val_main_v43_apply, val_main_v42_apply, val_main_cst_11_apply, val_main_cst_12_apply, val_main_cst_13_apply, val_main_cst_14_apply,
    val_main_cst_15_apply]
  simp only [e1, e2, e3, e4, Ideal.ofBits_def, Ideal.addf_def, Ideal.subf_def, Ideal.mulf_def, Ideal.maximumf_def,
    Ideal.hostNegf_def, Ideal.negf_def, Ideal.hostDivf_def, Ideal.hostUnary_exp_def, Ideal.ofBits_zero_f32, zero_add]
  rw [term, termOf, ← div_neg_two]
  rfl

/-- Operation 62 sums them over all pairs: the cross radial-basis sum. -/
theorem sum_st (x0 x2 : (⟨S8192x256, .f32⟩ : BufTy).Contents (Elt Ideal)) :
    val_main_v62 (F := Ideal) x0 x2 = fun _ => rbfSum x0 x2 := by
  funext i
  rw [val_main_v62_apply, val_main_cst_16_apply, Ideal.ofBits_def, Ideal.ofBits_zero_f32, zero_add, sum_idx2]
  simp only [term_st]
  rfl

/-! ## The scalar tail -/

/-- The whole program: the three sums, each divided by the literal 2^26, the cross sum doubled, added and
    subtracted as the specification's `mmd` does. -/
theorem ref_value (x0 x2 : (⟨S8192x256, .f32⟩ : BufTy).Contents (Elt Ideal)) :
    val_main_v68 (F := Ideal) x0 x2 = fun _ => mmd (rbfSum x0 x0) (rbfSum x2 x2) (rbfSum x0 x2) := by
  funext i
  rw [val_main_v68_apply, val_main_v65_apply, val_main_v67_apply, val_main_v63_apply, val_main_v64_apply,
    val_main_v66_apply, val_main_cst_17_apply, val_main_cst_18_apply, val_main_cst_19_apply, val_main_cst_20_apply,
    sum_ss, sum_tt, sum_st]
  simp only [Ideal.ofBits_def, Ideal.addf_def, Ideal.subf_def, Ideal.mulf_def, Ideal.hostDivf_def]
  rfl

end Cert.RefValue

end
-- ==== Proof.RefSide.lean ====
/-
  The reference program's run, read as the specification's value.

  The generated run of the reference ends with the result buffer at the composed term of its 91 host
  operations; that term is the specification's  mmd (rbfSum s s) (rbfSum t t) (rbfSum s t)  of the two
  feature matrices (the reference negates and halves where the specification multiplies by −1/2: one law on
  the extended reals). Dropping the result gives the reference's frame.
-/
import proofs.«164100_j38646115730032_1_alg».proof.Defs
import proofs.«164100_j38646115730032_1_alg».proof.Proof.Gen.ReferenceIdeal
import proofs.«164100_j38646115730032_1_alg».proof.Proof.Gen.ReferenceIdeal.Run
import proofs.«164100_j38646115730032_1_alg».proof.Proof.Gen.ReferenceIdeal.Read
import proofs.«164100_j38646115730032_1_alg».proof.Proof.Gen.Pre_finite_inputs
import proofs.«164100_j38646115730032_1_alg».proof.Proof.RefValue
import proofs.«164100_j38646115730032_1_alg».proof.Proof.Spec

noncomputable section

namespace Cert.Proof.RefSide

open Idealize.ShloMosaic Idealize.ShloMosaic.TcCoe Idealize.SL.Sem

/-- The value both programs end with, from the two feature matrices. -/
def result (s t : Cert.Spec.Mat) : EReal :=
  Cert.Spec.mmd (Cert.Spec.rbfSum s s) (Cert.Spec.rbfSum t t) (Cert.Spec.rbfSum s t)

/-- Every weakly fair execution of the reference terminates with its arguments unchanged. -/
theorem frame_ri : Cert.frame_ReferenceIdeal := fun m ρ _ =>
  (θ_run Cert.ReferenceIdeal.defs _ _).mono (fun _ h c => (h c).2) (Cert.ReferenceIdeal.Value.run (F := Ideal) m ρ)

/-- And with its result at the specification's value of the two feature matrices it was launched with. -/
theorem run_value (m : (ℓ : Loc Cert.ReferenceIdeal.nD Cert.ReferenceIdeal.τ Cert.ReferenceIdeal.sig) → Buf (Elt Ideal) ℓ) (ρ : Dev Cert.ReferenceIdeal.nD → PrngReg) :
    θ_run (Cert.ReferenceIdeal.defs (F := Ideal)) (onTc (τ := Cert.ReferenceIdeal.τ) (Cert.ReferenceIdeal.main (F := Ideal))) ⟨m, fun _ => 0, ρ⟩ (fun r => ∀ c : Dev Cert.ReferenceIdeal.nD,
      r.2.mem ((c.tc : Thread Cert.ReferenceIdeal.nD Cert.ReferenceIdeal.τ).loc Cert.ReferenceIdeal.main_v68)
          = (fun _ => result (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg2)))
      ∧ r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)) :=
  (θ_run Cert.ReferenceIdeal.defs _ _).mono
    (fun _ h c => ⟨by rw [(h c).1, Cert.ReferenceIdeal.Read.val_main_v68_eq, Cert.RefValue.ref_value]; rfl, (h c).2⟩)
    (Cert.ReferenceIdeal.Value.run (F := Ideal) m ρ)

end Cert.Proof.RefSide

end
-- ==== Proof.KI.Result.lean ====
import proofs.«164100_j38646115730032_1_alg».proof.Proof.KI.Main

/- @main's result array: the last eleven scalar operations applied to the three calls' 1 × 1 outputs, each read as a
   scalar — a / K + b / K − (2 · d) / K with K the literal the program divides by. -/

noncomputable section

namespace Cert.KernelIdeal.Hand

open Idealize.ShloMosaic Idealize.ShloMosaic.TcCoe
open Cert.KernelIdeal Cert.KernelIdeal.Gen

variable {F : FTy → Type} [FloatOps F]

/-- A one-by-one array read as a scalar: the reshape's row-major recast. -/
def scalarOf (x : (⟨S1x1, .f32⟩ : BufTy).Contents (Elt F)) : (⟨S_, .f32⟩ : BufTy).Contents (Elt F) :=
  shapeCast S_ x shapeCasts_S1x1_S_

/-- What @main's last eleven operations compute from the three calls' outputs `a`, `b`, `d` (each read as a scalar):
    `a / K + b / K - (2 * d) / K`, `K` the constant the program divides by. -/
def combine (a b d : (⟨S1x1, .f32⟩ : BufTy).Contents (Elt F)) : (⟨S_, .f32⟩ : BufTy).Contents (Elt F) :=
  (subf : (⟨S_, .f32⟩ : BufTy).Contents (Elt F) → (⟨S_, .f32⟩ : BufTy).Contents (Elt F) → (⟨S_, .f32⟩ : BufTy).Contents (Elt F))
    ((addf : (⟨S_, .f32⟩ : BufTy).Contents (Elt F) → (⟨S_, .f32⟩ : BufTy).Contents (Elt F) → (⟨S_, .f32⟩ : BufTy).Contents (Elt F))
      ((Host.divf : (⟨S_, .f32⟩ : BufTy).Contents (Elt F) → (⟨S_, .f32⟩ : BufTy).Contents (Elt F) → (⟨S_, .f32⟩ : BufTy).Contents (Elt F))
        (scalarOf a) (constant (F := F) S_ .f32 0x4C800000#32))
      ((Host.divf : (⟨S_, .f32⟩ : BufTy).Contents (Elt F) → (⟨S_, .f32⟩ : BufTy).Contents (Elt F) → (⟨S_, .f32⟩ : BufTy).Contents (Elt F))
        (scalarOf b) (constant (F := F) S_ .f32 0x4C800000#32)))
    ((Host.divf : (⟨S_, .f32⟩ : BufTy).Contents (Elt F) → (⟨S_, .f32⟩ : BufTy).Contents (Elt F) → (⟨S_, .f32⟩ : BufTy).Contents (Elt F))
      ((mulf : (⟨S_, .f32⟩ : BufTy).Contents (Elt F) → (⟨S_, .f32⟩ : BufTy).Contents (Elt F) → (⟨S_, .f32⟩ : BufTy).Contents (Elt F))
        (constant (F := F) S_ .f32 0x40000000#32) (scalarOf d))
      (constant (F := F) S_ .f32 0x4C800000#32))

variable (m : (ℓ : Loc nD τ sig) → Buf (Elt F) ℓ) (ρ : Dev nD → PrngReg)

/-- The first reshape's result, untouched until the end: call 0's output as a scalar. -/
theorem W5_main_v1 (c : Dev nD) : W5 m ρ c (Proc.devRef .tc main_v1) = scalarOf ((dat0 (V0 m ρ) c).arrAt 2 cfg0.N) := by
  rw [W5_off m ρ c main_v1 (by decide), W4_off m ρ c main_v1 (by decide), W3_off m ρ c main_v1 (by decide)]
  show StableHlo.after hostOps1 (W1 m ρ c) (Proc.devRef .tc main_v1) = _
  after_results
  rw [W1_out]
  rfl

/-- The second reshape's result: call 1's output as a scalar. -/
theorem W5_main_v3 (c : Dev nD) : W5 m ρ c (Proc.devRef .tc main_v3) = scalarOf ((dat1 (V2 m ρ) c).arrAt 2 cfg1.N) := by
  rw [W5_off m ρ c main_v3 (by decide)]
  show StableHlo.after hostOps2 (W3 m ρ c) (Proc.devRef .tc main_v3) = _
  after_results
  rw [W3_out]
  rfl

/-- @main's result: the eleven operations' term at the three calls' output arrays. -/
theorem W6_result (c : Dev nD) : W6 m ρ c (Proc.devRef .tc main_v11)
    = combine ((dat0 (V0 m ρ) c).arrAt 2 cfg0.N) ((dat1 (V2 m ρ) c).arrAt 2 cfg1.N) ((dat2 (V4 m ρ) c).arrAt 2 cfg2.N) := by
  have e1 := W5_main_v1 m ρ c
  have e3 := W5_main_v3 m ρ c
  have e4 := W5_out m ρ c
  show StableHlo.after hostOps3 (W5 m ρ c) (Proc.devRef .tc main_v11) = _
  generalize W5 m ρ c = X at e1 e3 e4
  after_results
  rw [e1, e3, e4]
  rfl

end Cert.KernelIdeal.Hand
end
-- ==== Proof.KI.Val.lean ====
/-
  What the kernel body leaves at each grid point, as values.

  Each of the three regions runs the same body. Run once per case (the first point; a later point), the body
  leaves a list of stores in the 1×1 output buffer and a list in the 1×1 accumulator. Read back, those lists are: in the accumulator the
  payload of the point's two blocks over the accumulator's earlier contents (the zero vector at the first point,
  where it was stored just before; what the point before left at a later point); in the output's buffer the same
  value, the accumulator loaded back after that store. Every load and store is of a whole buffer, so a load
  after a store reads the store's payload and a load of an untouched buffer reads its contents. The payload is
  kept as the one function the program's skeleton names; it is never opened here.

  So the accumulator after point n is a plain recursion: the payload over the zero vector at n = 0, the payload
  over the value at n − 1 afterwards; and the output's buffer always equals the accumulator.
-/
import proofs.«164100_j38646115730032_1_alg».proof.Proof.KI.R0
import proofs.«164100_j38646115730032_1_alg».proof.Proof.KI.R1
import proofs.«164100_j38646115730032_1_alg».proof.Proof.KI.R2
import Idealize.ShloMosaic.Lib.Pipeline.FrameBody
import Idealize.ShloMosaic.Lib.Pipeline.Frame
import Idealize.ShloMosaic.Lib.Pipeline.Value
import Idealize.ShloMosaic.Lib.Ring
import Idealize.ShloMosaic.Lib.Tactic

set_option maxRecDepth 65536

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## Whole-buffer loads and stores -/

/-- The offsets of a whole-buffer access are all zero. -/
theorem hz11 : (![0, 0] : Fin 2 → Nat) = fun _ => 0 := funext fun a => by fin_cases a <;> rfl

/-- A whole-buffer load after a whole-buffer store reads that store's payload, whatever was stored before it:
    the last store covers every index, so the contents are its payload, and the load reads them all. -/
theorem readCov_cons_unit_zero {Val : EltTy → Type} {S : Shape} {e : EltTy} [∀ e, Nonempty (Val e)]
    {sig : RefSig} {κ : Kind} {sp : Space} (v : View sig κ sp S e) {off : Fin S.rank → Nat} (h : off = fun _ => 0)
    (inb : ∀ a, off a + S.size a ≤ S.size a) (w : S.Idx → Val e) (L : List (View.Piece Val S e)) :
    v.readCov ((⟨Rect.unit off S.size inb, w⟩ : View.Piece Val S e) :: L) (Rect.unit off S.size inb).toLoadRect = w := by
  subst h
  rw [View.readCov_eq_canon_ld _ _ _ (fun y => ⟨_, List.mem_cons_self, View.mem_set_unit_zero rfl inb y⟩),
    View.canon_cons_unit_zero rfl, View.ld_unit_zero rfl]

/-! ## The two cases of each region, read back -/

/-- Case B of region 0: the one store into the accumulator is the payload of the two blocks and the incoming
    accumulator, each read whole; the output's buffer receives the accumulator read back after that store. -/
theorem leftB0_eq (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond0 i)
    (x0 x1 : Vec F S512x256 .f32) (xs : Vec F S1x1 .f32) :
    leftB0 c i arg2 harg2 arg3 harg3 arg4 harg4 arg5 harg5 hc x0 x1 xs = (k0_pay2 x0 x1 xs, k0_pay2 x0 x1 xs) := by
  unfold leftB0
  rw [View.read_writes_eq_canon _ _ _ (coverB0_O c i arg2 harg2 arg3 harg3 arg4 harg4 arg5 harg5 hc x0 x1 xs),
    View.read_writes_eq_canon _ _ _ (coverB0_S c i arg2 harg2 arg3 harg3 arg4 harg4 arg5 harg5 hc x0 x1 xs)]
  unfold runB0
  dsimp only
  sl_unfold_words
  rw [View.canon_unit_zero (S := S1x1) hz11, View.readCov_unit_zero (S := S1x1) _ hz11, View.canon_unit_zero (S := S1x1) hz11]
  simp only [View.readAt_eq_ld, harg2.read_unread, harg3.read_unread, harg5.read_unread,
    View.ld_unit_zero (S := S512x256) hz11, View.ld_unit_zero (S := S1x1) hz11]

/-- Case A of region 0: the accumulator is first stored the zero vector; the payload then reads the two blocks whole
    and the accumulator back (the zero vector just stored) and is stored over it; the output's buffer receives the
    accumulator read back after both stores, which is the later one's payload. -/
theorem leftA0_eq (c : Dev nD) (i : grid0.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond0 i)
    (x0 x1 : Vec F S512x256 .f32) :
    leftA0 c i arg2 harg2 arg3 harg3 arg4 harg4 arg5 harg5 hc x0 x1 = (k0_pay2 x0 x1 k0_pay1, k0_pay2 x0 x1 k0_pay1) := by
  unfold leftA0
  rw [View.read_writes_eq_canon _ _ _ (coverA0_O c i arg2 harg2 arg3 harg3 arg4 harg4 arg5 harg5 hc x0 x1),
    View.read_writes_eq_canon _ _ _ (coverA0_S c i arg2 harg2 arg3 harg3 arg4 harg4 arg5 harg5 hc x0 x1)]
  unfold runA0
  dsimp only
  sl_unfold_words
  rw [View.canon_unit_zero (S := S1x1) hz11, readCov_cons_unit_zero (S := S1x1) _ hz11,
    View.canon_cons_unit_zero (S := S1x1) hz11, View.readCov_unit_zero (S := S1x1) _ hz11]
  simp only [View.readAt_eq_ld, harg2.read_unread, harg3.read_unread,
    View.ld_unit_zero (S := S512x256) hz11]

/-- Case B of region 1: the one store into the accumulator is the payload of the two blocks and the incoming
    accumulator, each read whole; the output's buffer receives the accumulator read back after that store. -/
theorem leftB1_eq (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond1 i)
    (x0 x1 : Vec F S512x256 .f32) (xs : Vec F S1x1 .f32) :
    leftB1 c i arg2 harg2 arg3 harg3 arg4 harg4 arg5 harg5 hc x0 x1 xs = (k1_pay2 x0 x1 xs, k1_pay2 x0 x1 xs) := by
  unfold leftB1
  rw [View.read_writes_eq_canon _ _ _ (coverB1_O c i arg2 harg2 arg3 harg3 arg4 harg4 arg5 harg5 hc x0 x1 xs),
    View.read_writes_eq_canon _ _ _ (coverB1_S c i arg2 harg2 arg3 harg3 arg4 harg4 arg5 harg5 hc x0 x1 xs)]
  unfold runB1
  dsimp only
  sl_unfold_words
  rw [View.canon_unit_zero (S := S1x1) hz11, View.readCov_unit_zero (S := S1x1) _ hz11, View.canon_unit_zero (S := S1x1) hz11]
  simp only [View.readAt_eq_ld, harg2.read_unread, harg3.read_unread, harg5.read_unread,
    View.ld_unit_zero (S := S512x256) hz11, View.ld_unit_zero (S := S1x1) hz11]

/-- Case A of region 1: the accumulator is first stored the zero vector; the payload then reads the two blocks whole
    and the accumulator back (the zero vector just stored) and is stored over it; the output's buffer receives the
    accumulator read back after both stores, which is the later one's payload. -/
theorem leftA1_eq (c : Dev nD) (i : grid1.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond1 i)
    (x0 x1 : Vec F S512x256 .f32) :
    leftA1 c i arg2 harg2 arg3 harg3 arg4 harg4 arg5 harg5 hc x0 x1 = (k1_pay2 x0 x1 k1_pay1, k1_pay2 x0 x1 k1_pay1) := by
  unfold leftA1
  rw [View.read_writes_eq_canon _ _ _ (coverA1_O c i arg2 harg2 arg3 harg3 arg4 harg4 arg5 harg5 hc x0 x1),
    View.read_writes_eq_canon _ _ _ (coverA1_S c i arg2 harg2 arg3 harg3 arg4 harg4 arg5 harg5 hc x0 x1)]
  unfold runA1
  dsimp only
  sl_unfold_words
  rw [View.canon_unit_zero (S := S1x1) hz11, readCov_cons_unit_zero (S := S1x1) _ hz11,
    View.canon_cons_unit_zero (S := S1x1) hz11, View.readCov_unit_zero (S := S1x1) _ hz11]
  simp only [View.readAt_eq_ld, harg2.read_unread, harg3.read_unread,
    View.ld_unit_zero (S := S512x256) hz11]

/-- Case B of region 2: the one store into the accumulator is the payload of the two blocks and the incoming
    accumulator, each read whole; the output's buffer receives the accumulator read back after that store. -/
theorem leftB2_eq (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : ¬cond2 i)
    (x0 x1 : Vec F S512x256 .f32) (xs : Vec F S1x1 .f32) :
    leftB2 c i arg2 harg2 arg3 harg3 arg4 harg4 arg5 harg5 hc x0 x1 xs = (k2_pay2 x0 x1 xs, k2_pay2 x0 x1 xs) := by
  unfold leftB2
  rw [View.read_writes_eq_canon _ _ _ (coverB2_O c i arg2 harg2 arg3 harg3 arg4 harg4 arg5 harg5 hc x0 x1 xs),
    View.read_writes_eq_canon _ _ _ (coverB2_S c i arg2 harg2 arg3 harg3 arg4 harg4 arg5 harg5 hc x0 x1 xs)]
  unfold runB2
  dsimp only
  sl_unfold_words
  rw [View.canon_unit_zero (S := S1x1) hz11, View.readCov_unit_zero (S := S1x1) _ hz11, View.canon_unit_zero (S := S1x1) hz11]
  simp only [View.readAt_eq_ld, harg2.read_unread, harg3.read_unread, harg5.read_unread,
    View.ld_unit_zero (S := S512x256) hz11, View.ld_unit_zero (S := S1x1) hz11]

/-- Case A of region 2: the accumulator is first stored the zero vector; the payload then reads the two blocks whole
    and the accumulator back (the zero vector just stored) and is stored over it; the output's buffer receives the
    accumulator read back after both stores, which is the later one's payload. -/
theorem leftA2_eq (c : Dev nD) (i : grid2.Coords) (arg2 : Memref sig .tc .vmem S512x256 .f32) (harg2 : arg2.IsWhole) (arg3 : Memref sig .tc .vmem S512x256 .f32) (harg3 : arg3.IsWhole) (arg4 : Memref sig .tc .vmem S1x1 .f32) (harg4 : arg4.IsWhole) (arg5 : Memref sig .tc .vmem S1x1 .f32) (harg5 : arg5.IsWhole) (hc : cond2 i)
    (x0 x1 : Vec F S512x256 .f32) :
    leftA2 c i arg2 harg2 arg3 harg3 arg4 harg4 arg5 harg5 hc x0 x1 = (k2_pay2 x0 x1 k2_pay1, k2_pay2 x0 x1 k2_pay1) := by
  unfold leftA2
  rw [View.read_writes_eq_canon _ _ _ (coverA2_O c i arg2 harg2 arg3 harg3 arg4 harg4 arg5 harg5 hc x0 x1),
    View.read_writes_eq_canon _ _ _ (coverA2_S c i arg2 harg2 arg3 harg3 arg4 harg4 arg5 harg5 hc x0 x1)]
  unfold runA2
  dsimp only
  sl_unfold_words
  rw [View.canon_unit_zero (S := S1x1) hz11, readCov_cons_unit_zero (S := S1x1) _ hz11,
    View.canon_cons_unit_zero (S := S1x1) hz11, View.readCov_unit_zero (S := S1x1) _ hz11]
  simp only [View.readAt_eq_ld, harg2.read_unread, harg3.read_unread,
    View.ld_unit_zero (S := S512x256) hz11]

/-! ## The accumulation over the grid points -/

variable (V : (c : Dev nD) → (b : Ref sig .tc) → Buf (Elt F) ((c : Thread nD τ).loc b))

/-- After the first point of region 0 both the output's buffer and the accumulator hold the payload of the point's
    two blocks over the zero vector. -/
theorem held0_zero_pair (c : Dev nD) (hn : 0 < cfg0.N) :
    held0 V c 0 hn = (k0_pay2 (iblk0 V c 0 ⟨0, hn⟩) (iblk0 V c 1 ⟨0, hn⟩) k0_pay1,
      k0_pay2 (iblk0 V c 0 ⟨0, hn⟩) (iblk0 V c 1 ⟨0, hn⟩) k0_pay1) :=
  leftA0_eq c (grid0.coords ⟨0, hn⟩) (ms0_0 ⟨0, hn⟩) (hs0_0 ⟨0, hn⟩) (ms0_1 ⟨0, hn⟩) (hs0_1 ⟨0, hn⟩) (ms0_2 ⟨0, hn⟩) (hs0_2 ⟨0, hn⟩) scM0 (Memref.isWhole_whole _)
    ((hcond0 ⟨0, hn⟩).mpr rfl) (iblk0 V c 0 ⟨0, hn⟩) (iblk0 V c 1 ⟨0, hn⟩)

/-- After a later point both hold the payload of that point's two blocks over the accumulator the point before left. -/
theorem held0_succ_pair (c : Dev nD) (n : ℕ) (hn : n + 1 < cfg0.N) :
    held0 V c (n + 1) hn = (k0_pay2 (iblk0 V c 0 ⟨n + 1, hn⟩) (iblk0 V c 1 ⟨n + 1, hn⟩) (held0 V c n (Nat.lt_of_succ_lt hn)).2,
      k0_pay2 (iblk0 V c 0 ⟨n + 1, hn⟩) (iblk0 V c 1 ⟨n + 1, hn⟩) (held0 V c n (Nat.lt_of_succ_lt hn)).2) :=
  leftB0_eq c (grid0.coords ⟨n + 1, hn⟩) (ms0_0 ⟨n + 1, hn⟩) (hs0_0 ⟨n + 1, hn⟩) (ms0_1 ⟨n + 1, hn⟩) (hs0_1 ⟨n + 1, hn⟩) (ms0_2 ⟨n + 1, hn⟩) (hs0_2 ⟨n + 1, hn⟩) scM0 (Memref.isWhole_whole _)
    (fun h => Nat.succ_ne_zero n ((hcond0 ⟨n + 1, hn⟩).mp h)) (iblk0 V c 0 ⟨n + 1, hn⟩) (iblk0 V c 1 ⟨n + 1, hn⟩)
    (held0 V c n (Nat.lt_of_succ_lt hn)).2

/-- So at every point the output's buffer holds what the accumulator holds. -/
theorem held0_out_eq_acc (c : Dev nD) (n : ℕ) (hn : n < cfg0.N) : (held0 V c n hn).1 = (held0 V c n hn).2 := by
  cases n with
  | zero => rw [held0_zero_pair V c hn]
  | succ n => rw [held0_succ_pair V c n hn]

/-- The accumulation of region 0: from the zero vector, -/
theorem held0_zero (c : Dev nD) (hn : 0 < cfg0.N) :
    (held0 V c 0 hn).2 = k0_pay2 (iblk0 V c 0 ⟨0, hn⟩) (iblk0 V c 1 ⟨0, hn⟩) k0_pay1 :=
  congrArg Prod.snd (held0_zero_pair V c hn)

/-- one payload per point over what the point before left. -/
theorem held0_succ (c : Dev nD) (n : ℕ) (hn : n + 1 < cfg0.N) :
    (held0 V c (n + 1) hn).2 = k0_pay2 (iblk0 V c 0 ⟨n + 1, hn⟩) (iblk0 V c 1 ⟨n + 1, hn⟩) (held0 V c n (Nat.lt_of_succ_lt hn)).2 :=
  congrArg Prod.snd (held0_succ_pair V c n hn)

/-- After the first point of region 1 both the output's buffer and the accumulator hold the payload of the point's
    two blocks over the zero vector. -/
theorem held1_zero_pair (c : Dev nD) (hn : 0 < cfg1.N) :
    held1 V c 0 hn = (k1_pay2 (iblk1 V c 0 ⟨0, hn⟩) (iblk1 V c 1 ⟨0, hn⟩) k1_pay1,
      k1_pay2 (iblk1 V c 0 ⟨0, hn⟩) (iblk1 V c 1 ⟨0, hn⟩) k1_pay1) :=
  leftA1_eq c (grid1.coords ⟨0, hn⟩) (ms1_0 ⟨0, hn⟩) (hs1_0 ⟨0, hn⟩) (ms1_1 ⟨0, hn⟩) (hs1_1 ⟨0, hn⟩) (ms1_2 ⟨0, hn⟩) (hs1_2 ⟨0, hn⟩) scM1 (Memref.isWhole_whole _)
    ((hcond1 ⟨0, hn⟩).mpr rfl) (iblk1 V c 0 ⟨0, hn⟩) (iblk1 V c 1 ⟨0, hn⟩)

/-- After a later point both hold the payload of that point's two blocks over the accumulator the point before left. -/
theorem held1_succ_pair (c : Dev nD) (n : ℕ) (hn : n + 1 < cfg1.N) :
    held1 V c (n + 1) hn = (k1_pay2 (iblk1 V c 0 ⟨n + 1, hn⟩) (iblk1 V c 1 ⟨n + 1, hn⟩) (held1 V c n (Nat.lt_of_succ_lt hn)).2,
      k1_pay2 (iblk1 V c 0 ⟨n + 1, hn⟩) (iblk1 V c 1 ⟨n + 1, hn⟩) (held1 V c n (Nat.lt_of_succ_lt hn)).2) :=
  leftB1_eq c (grid1.coords ⟨n + 1, hn⟩) (ms1_0 ⟨n + 1, hn⟩) (hs1_0 ⟨n + 1, hn⟩) (ms1_1 ⟨n + 1, hn⟩) (hs1_1 ⟨n + 1, hn⟩) (ms1_2 ⟨n + 1, hn⟩) (hs1_2 ⟨n + 1, hn⟩) scM1 (Memref.isWhole_whole _)
    (fun h => Nat.succ_ne_zero n ((hcond1 ⟨n + 1, hn⟩).mp h)) (iblk1 V c 0 ⟨n + 1, hn⟩) (iblk1 V c 1 ⟨n + 1, hn⟩)
    (held1 V c n (Nat.lt_of_succ_lt hn)).2

/-- So at every point the output's buffer holds what the accumulator holds. -/
theorem held1_out_eq_acc (c : Dev nD) (n : ℕ) (hn : n < cfg1.N) : (held1 V c n hn).1 = (held1 V c n hn).2 := by
  cases n with
  | zero => rw [held1_zero_pair V c hn]
  | succ n => rw [held1_succ_pair V c n hn]

/-- The accumulation of region 1: from the zero vector, -/
theorem held1_zero (c : Dev nD) (hn : 0 < cfg1.N) :
    (held1 V c 0 hn).2 = k1_pay2 (iblk1 V c 0 ⟨0, hn⟩) (iblk1 V c 1 ⟨0, hn⟩) k1_pay1 :=
  congrArg Prod.snd (held1_zero_pair V c hn)

/-- one payload per point over what the point before left. -/
theorem held1_succ (c : Dev nD) (n : ℕ) (hn : n + 1 < cfg1.N) :
    (held1 V c (n + 1) hn).2 = k1_pay2 (iblk1 V c 0 ⟨n + 1, hn⟩) (iblk1 V c 1 ⟨n + 1, hn⟩) (held1 V c n (Nat.lt_of_succ_lt hn)).2 :=
  congrArg Prod.snd (held1_succ_pair V c n hn)

/-- After the first point of region 2 both the output's buffer and the accumulator hold the payload of the point's
    two blocks over the zero vector. -/
theorem held2_zero_pair (c : Dev nD) (hn : 0 < cfg2.N) :
    held2 V c 0 hn = (k2_pay2 (iblk2 V c 0 ⟨0, hn⟩) (iblk2 V c 1 ⟨0, hn⟩) k2_pay1,
      k2_pay2 (iblk2 V c 0 ⟨0, hn⟩) (iblk2 V c 1 ⟨0, hn⟩) k2_pay1) :=
  leftA2_eq c (grid2.coords ⟨0, hn⟩) (ms2_0 ⟨0, hn⟩) (hs2_0 ⟨0, hn⟩) (ms2_1 ⟨0, hn⟩) (hs2_1 ⟨0, hn⟩) (ms2_2 ⟨0, hn⟩) (hs2_2 ⟨0, hn⟩) scM2 (Memref.isWhole_whole _)
    ((hcond2 ⟨0, hn⟩).mpr rfl) (iblk2 V c 0 ⟨0, hn⟩) (iblk2 V c 1 ⟨0, hn⟩)

/-- After a later point both hold the payload of that point's two blocks over the accumulator the point before left. -/
theorem held2_succ_pair (c : Dev nD) (n : ℕ) (hn : n + 1 < cfg2.N) :
    held2 V c (n + 1) hn = (k2_pay2 (iblk2 V c 0 ⟨n + 1, hn⟩) (iblk2 V c 1 ⟨n + 1, hn⟩) (held2 V c n (Nat.lt_of_succ_lt hn)).2,
      k2_pay2 (iblk2 V c 0 ⟨n + 1, hn⟩) (iblk2 V c 1 ⟨n + 1, hn⟩) (held2 V c n (Nat.lt_of_succ_lt hn)).2) :=
  leftB2_eq c (grid2.coords ⟨n + 1, hn⟩) (ms2_0 ⟨n + 1, hn⟩) (hs2_0 ⟨n + 1, hn⟩) (ms2_1 ⟨n + 1, hn⟩) (hs2_1 ⟨n + 1, hn⟩) (ms2_2 ⟨n + 1, hn⟩) (hs2_2 ⟨n + 1, hn⟩) scM2 (Memref.isWhole_whole _)
    (fun h => Nat.succ_ne_zero n ((hcond2 ⟨n + 1, hn⟩).mp h)) (iblk2 V c 0 ⟨n + 1, hn⟩) (iblk2 V c 1 ⟨n + 1, hn⟩)
    (held2 V c n (Nat.lt_of_succ_lt hn)).2

/-- So at every point the output's buffer holds what the accumulator holds. -/
theorem held2_out_eq_acc (c : Dev nD) (n : ℕ) (hn : n < cfg2.N) : (held2 V c n hn).1 = (held2 V c n hn).2 := by
  cases n with
  | zero => rw [held2_zero_pair V c hn]
  | succ n => rw [held2_succ_pair V c n hn]

/-- The accumulation of region 2: from the zero vector, -/
theorem held2_zero (c : Dev nD) (hn : 0 < cfg2.N) :
    (held2 V c 0 hn).2 = k2_pay2 (iblk2 V c 0 ⟨0, hn⟩) (iblk2 V c 1 ⟨0, hn⟩) k2_pay1 :=
  congrArg Prod.snd (held2_zero_pair V c hn)

/-- one payload per point over what the point before left. -/
theorem held2_succ (c : Dev nD) (n : ℕ) (hn : n + 1 < cfg2.N) :
    (held2 V c (n + 1) hn).2 = k2_pay2 (iblk2 V c 0 ⟨n + 1, hn⟩) (iblk2 V c 1 ⟨n + 1, hn⟩) (held2 V c n (Nat.lt_of_succ_lt hn)).2 :=
  congrArg Prod.snd (held2_succ_pair V c n hn)

end Cert.KernelIdeal.Hand

end
-- ==== Proof.LibLayout.lean ====
/-
  Layout operations and sums along one axis of small shapes, read at an index given by coordinates, at the
  ideal instance (every float an extended real).

  A vector of length `a` kept as an `a × 1` column, and such a column broadcast along the rows of an `a × b`
  matrix, each name one entry of their operand; the sum of a matrix along its columns at row `p` is the sum
  over the column coordinate of row `p`'s entries, and the sum along its rows at column `q` the sum over the
  row coordinate of column `q`'s entries.
-/
import Idealize.ShloMosaic.PureOps.Ideal.Laws
import Idealize.ShloMosaic.Lib.ValueIdx
import Idealize.ShloMosaic.Lib.Pipeline.Value

noncomputable section

open scoped BigOperators

namespace Cert.LibLayout

open Idealize.ShloMosaic Idealize.ShloMosaic.ValueIdx

/-! ## A column of row values -/

section Layout
variable {α : Type}

/-- A vector of length `a` cast to an `a × 1` column reads, at `(i, u)`, the vector at `i`. -/
theorem shapeCast_a_a1_apply {a : ℕ} (x : (⟨1, ![a]⟩ : Shape).Idx → α)
    (h : (⟨1, ![a]⟩ : Shape).ShapeCasts ⟨2, ![a, 1]⟩) (i : Fin a) (u : Fin 1) :
    shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `a × 1` column broadcast to an `a × b` matrix reads, at `(p, c)`, the column's entry in row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ## Sums along one axis of a matrix -/

/-- The sum along the columns of a matrix, at row `p`: the sum of row `p`'s entries. -/
theorem sumCols_apply {n0 n1 : ℕ} (src : FVec Ideal ⟨2, ![n0, n1]⟩ .f32)
    (h : (⟨2, ![n0, n1]⟩ : Shape).Reduces [1] ⟨1, ![n0]⟩) (hφ : FKind.Formats .f32)
    (hacc : (0x00000000#32 : BitVec 32) = FKind.add.neutral .f32 hφ) (p : Fin n0) :
    multiReduction (F := Ideal) .add [1] ⟨1, ![n0]⟩ src 0x00000000#32 h hφ hacc (ix1 p)
      = ∑ k : Fin n1, src (ix2 p k) :=
  (Ideal.multiReduction_add_single src _ h hφ hacc (ix1 p)).trans
    (Finset.sum_congr rfl fun k _ => congrArg src (funext fun c => Fin.ext (by
      match c with
      | ⟨0, _⟩ => rfl
      | ⟨1, _⟩ => rfl)))

/-- The sum along the rows of a matrix, at column `q`: the sum of column `q`'s entries. -/
theorem sumRows_apply {n0 n1 : ℕ} (src : FVec Ideal ⟨2, ![n0, n1]⟩ .f32)
    (h : (⟨2, ![n0, n1]⟩ : Shape).Reduces [0] ⟨1, ![n1]⟩) (hφ : FKind.Formats .f32)
    (hacc : (0x00000000#32 : BitVec 32) = FKind.add.neutral .f32 hφ) (q : Fin n1) :
    multiReduction (F := Ideal) .add [0] ⟨1, ![n1]⟩ src 0x00000000#32 h hφ hacc (ix1 q)
      = ∑ k : Fin n0, src (ix2 k q) :=
  (Ideal.multiReduction_add_single src _ h hφ hacc (ix1 q)).trans
    (Finset.sum_congr rfl fun k _ => congrArg src (funext fun c => Fin.ext (by
      match c with
      | ⟨0, _⟩ => rfl
      | ⟨1, _⟩ => rfl)))

end Cert.LibLayout

end
-- ==== Proof.Payload.lean ====
/-
  The kernel body's arithmetic at an index, over the extended reals.

  For two blocks `x`, `y` of 512 rows and 256 columns the body forms the column of squared row
  norms of each (`x2`, `y2`: the sum along a row of the squares), the 512 × 512 matrix of inner
  products of the rows of `x` with the rows of `y` (a matrix product of `x` with the transpose of
  `y`, into a zero matrix, the operands read through a narrowing that is the identity on extended
  reals), then at every `(p, q)`
      exp (max (x2 p + y2 q − 2 · ⟨x_p, y_q⟩) 0 · (−1/2)),
  sums that matrix along its rows and the resulting column along itself, and adds the total to the
  1 × 1 accumulator.  Read at an index, each layout operation (a vector kept as a column, a column
  transposed to a row, a column or a row broadcast to a matrix) names one entry of its operand, a
  sum along an axis is the sum over that axis's coordinate, and the matrix product at `(p, q)` is
  the sum over the contracted coordinate; so the value is the accumulator plus the sum over all
  `(p, q)` of the pair's term — the block pair's sum of the specification.
-/
import proofs.«164100_j38646115730032_1_alg».proof.Proof.Gen.KernelIdeal.Skeleton
import proofs.«164100_j38646115730032_1_alg».proof.Proof.Spec
import proofs.«164100_j38646115730032_1_alg».proof.Proof.LibLayout
import Idealize.ShloMosaic.PureOps.Ideal.Laws
import Idealize.ShloMosaic.Lib.ValueIdx
import Idealize.ShloMosaic.Lib.ValueLayout
import Idealize.ShloMosaic.Lib.Pipeline.Value

noncomputable section

open scoped BigOperators

namespace Cert.Payload

open Idealize.ShloMosaic Idealize.ShloMosaic.ValueIdx Cert.KernelIdeal Cert.KernelIdeal.Gen Cert.Spec Cert.LibLayout

/-! ## The matrix product at coordinates -/

/-- The kernel's matrix product's dimension numbers: rows of the left operand against rows of the
    transposed right operand, one contracted axis of extent 256. -/
abbrev dims : DotDims S512x256 S256x512 S512x512 := dot_S512x256_S256x512_S512x512_1_0_0_1_n_n

theorem lhs_row (i : S512x512.Idx) (q : dims.contr.Idx) : (dims.lhsIdx i q 0).val = (i 0).val := by
  unfold DotDims.lhsIdx
  rw [dif_neg (show ¬(0 : Fin S512x256.rank) ∈ dims.lhsBatch by decide),
    dif_pos (show (0 : Fin S512x256.rank) ∈ dims.lhsNonContracting by decide)]
  rfl
theorem lhs_col (i : S512x512.Idx) (q : dims.contr.Idx) :
    (dims.lhsIdx i q 1).val = (q ⟨0, by decide⟩).val :=
  dims.lhsIdx_val_of_single rfl i q
theorem rhs_row (i : S512x512.Idx) (q : dims.contr.Idx) :
    (dims.rhsIdx i q 0).val = (q ⟨0, by decide⟩).val :=
  dims.rhsIdx_val_of_single rfl i q
theorem rhs_col (i : S512x512.Idx) (q : dims.contr.Idx) : (dims.rhsIdx i q 1).val = (i 1).val := by
  unfold DotDims.rhsIdx
  rw [dif_neg (show ¬(1 : Fin S256x512.rank) ∈ dims.rhsBatch by decide),
    dif_pos (show (1 : Fin S256x512.rank) ∈ dims.rhsNonContracting by decide)]
  rfl

/-- The matrix product into a zero accumulator, at `(p, q)`: the sum over `k` of the left operand at
    `(p, k)` times the right operand at `(k, q)`. -/
theorem matmul_zero_apply (lhs : FVec Ideal S512x256 .bf16) (rhs : FVec Ideal S256x512 .bf16) (p q : Fin 512) :
    matmul dims none lhs rhs (constant (F := Ideal) S512x512 .f32 0x00000000#32) (ix2 p q)
      = ∑ k : Fin 256, lhs (ix2 p k) * rhs (ix2 k q) := by
  simp only [matmul]
  rw [Ideal.matmul_constant_zero_apply, ← Equiv.sum_comp (contrEquiv1 dims 256 rfl rfl).symm]
  refine Finset.sum_congr rfl fun k _ => ?_
  have hk := contrEquiv1_symm_val dims 256 rfl rfl k
  have el : dims.lhsIdx (ix2 p q) ((contrEquiv1 dims 256 rfl rfl).symm k) = ix2 p k :=
    funext fun a => Fin.ext (by
      match a with
      | ⟨0, _⟩ => exact lhs_row _ _
      | ⟨1, _⟩ => exact (lhs_col _ _).trans hk)
  have er : dims.rhsIdx (ix2 p q) ((contrEquiv1 dims 256 rfl rfl).symm k) = ix2 k q :=
    funext fun a => Fin.ext (by
      match a with
      | ⟨0, _⟩ => exact (rhs_row _ _).trans hk
      | ⟨1, _⟩ => exact rhs_col _ _)
  rw [el, er]

/-! ## The kernel's body, piece by piece -/

/-- The column of squared row norms: the lane sum of the squares, kept as a column. -/
theorem sqCol_apply (v : FVec Ideal S512x256 .f32) (h : S512x256.Reduces [1] S512) (hφ : FKind.Formats .f32)
    (hacc : (0x00000000#32 : BitVec 32) = FKind.add.neutral .f32 hφ) (hc : S512.ShapeCasts S512x1)
    (p : Fin 512) (u : Fin 1) :
    shapeCast S512x1 (multiReduction (F := Ideal) .add [1] S512 (mulf v v) 0x00000000#32 h hφ hacc) hc (ix2 p u)
      = sqnB v p := by
  refine (shapeCast_a_a1_apply _ hc p u).trans ?_
  refine (sumCols_apply _ h hφ hacc p).trans ?_
  rfl

/-- The product of the first block with the transposed second block, both read through the
    narrowing (the identity on extended reals): the inner products of the rows. -/
theorem xy_apply (v5 v6 : FVec Ideal S512x256 .f32) (hb : FTy.bits .bf16 < FTy.bits .f32)
    (ht : S512x256.Transposes [1, 0] S256x512) (p q : Fin 512) :
    matmul dims none (truncf .bf16 v5 hb) (transpose S256x512 [1, 0] (truncf .bf16 v6 hb) ht)
        (constant (F := Ideal) S512x512 .f32 0x00000000#32) (ix2 p q)
      = dotB v5 v6 p q := by
  refine (matmul_zero_apply _ _ p q).trans ?_
  refine Finset.sum_congr rfl fun k _ => ?_
  rw [transpose_ix2_apply (truncf .bf16 v6 hb) ht k q]
  rfl

/-- One entry of the 512 × 512 matrix of terms, from the two columns of squared norms `sx`, `sy`
    and the matrix of inner products `d`. -/
theorem kern_apply (sx sy : FVec Ideal S512x1 .f32) (d : FVec Ideal S512x512 .f32)
    (ht : S512x1.Transposes [1, 0] S1x512) (hb1 : S512x1.Broadcasts S512x512)
    (hb2 : S1x512.Broadcasts S512x512) (p q : Fin 512) :
    exp (mulf (maximumf
          (subf (addf (broadcastTo S512x512 sx hb1) (broadcastTo S512x512 (transpose S1x512 [1, 0] sy ht) hb2))
            (mulf (broadcast S512x512 (Scalar.ofBits (F := Ideal) .f32 0x40000000#32)) d))
          (broadcast S512x512 (Scalar.ofBits (F := Ideal) .f32 0x00000000#32)))
        (broadcast S512x512 (Scalar.ofBits (F := Ideal) .f32 0xBF000000#32))) (ix2 p q)
      = termOf (sx (ix2 p (0 : Fin 1))) (sy (ix2 q (0 : Fin 1))) (d (ix2 p q)) := by
  show Ideal.exp (max ((broadcastTo S512x512 sx hb1 (ix2 p q)
      + broadcastTo S512x512 (transpose S1x512 [1, 0] sy ht) hb2 (ix2 p q))
      - Ideal.ofBits .f32 0x40000000#32 * d (ix2 p q)) (Ideal.ofBits .f32 0x00000000#32)
      * Ideal.ofBits .f32 0xBF000000#32) = _
  rw [broadcastTo_a1_ab_apply sx hb1 p q, broadcastTo_1b_ab_apply _ hb2 p q,
    transpose_ix2_apply sy ht (0 : Fin 1) q, Ideal.ofBits_zero_f32]
  rfl

/-! ## The payloads at an index -/

/-- The body's value: the accumulator plus the sum of the pair of blocks' terms. -/
theorem pay2_apply (v5 v6 : Vec Ideal Cert.KernelIdeal.S512x256 .f32) (v33 : Vec Ideal Cert.KernelIdeal.S1x1 .f32)
    (j : Cert.KernelIdeal.S1x1.Idx) :
    Cert.KernelIdeal.Gen.k0_pay2 (F := Ideal) v5 v6 v33 j = v33 j + Cert.Spec.blockSum v5 v6 := by
  obtain ⟨u, u', rfl⟩ : ∃ (u u' : Fin 1), j = ix2 u u' := ⟨j 0, j 1, eq_ix2 j⟩
  unfold k0_pay2
  refine (congrFun (shapeCast_self _ _) _).trans ?_
  refine (addf_apply _ _ _).trans ?_
  refine congrArg (v33 (ix2 u u') + ·) ?_
  refine (shapeCast_a_1a_apply _ _ u u').trans ?_
  refine (sumRows_apply _ _ _ _ u').trans ?_
  refine Finset.sum_congr rfl fun p _ => ?_
  refine (shapeCast_a_a1_apply _ _ p u').trans ?_
  refine (sumCols_apply _ _ _ _ p).trans ?_
  refine Finset.sum_congr rfl fun q _ => ?_
  refine (kern_apply _ _ _ _ _ _ p q).trans ?_
  show termOf _ _ _ = termOf (sqnB v5 p) (sqnB v6 q) (dotB v5 v6 p q)
  exact congr (congr (congrArg termOf (sqCol_apply v5 _ _ _ _ p (0 : Fin 1))) (sqCol_apply v6 _ _ _ _ q (0 : Fin 1)))
    (xy_apply v5 v6 _ _ p q)

/-- The value stored at the first grid point: zero. -/
theorem pay1_apply (j : Cert.KernelIdeal.S1x1.Idx) : Cert.KernelIdeal.Gen.k0_pay1 (F := Ideal) j = 0 := by
  unfold k0_pay1
  refine (congrFun (shapeCast_self _ _) _).trans ?_
  exact Ideal.ofBits_zero_f32

/-! The other two launches' bodies are the same terms. -/

theorem pay2_apply1 (v5 v6 : Vec Ideal Cert.KernelIdeal.S512x256 .f32) (v33 : Vec Ideal Cert.KernelIdeal.S1x1 .f32)
    (j : Cert.KernelIdeal.S1x1.Idx) :
    Cert.KernelIdeal.Gen.k1_pay2 (F := Ideal) v5 v6 v33 j = v33 j + Cert.Spec.blockSum v5 v6 :=
  pay2_apply v5 v6 v33 j
theorem pay2_apply2 (v5 v6 : Vec Ideal Cert.KernelIdeal.S512x256 .f32) (v33 : Vec Ideal Cert.KernelIdeal.S1x1 .f32)
    (j : Cert.KernelIdeal.S1x1.Idx) :
    Cert.KernelIdeal.Gen.k2_pay2 (F := Ideal) v5 v6 v33 j = v33 j + Cert.Spec.blockSum v5 v6 :=
  pay2_apply v5 v6 v33 j
theorem pay1_apply1 (j : Cert.KernelIdeal.S1x1.Idx) : Cert.KernelIdeal.Gen.k1_pay1 (F := Ideal) j = 0 :=
  pay1_apply j
theorem pay1_apply2 (j : Cert.KernelIdeal.S1x1.Idx) : Cert.KernelIdeal.Gen.k2_pay1 (F := Ideal) j = 0 :=
  pay1_apply j

end Cert.Payload

end
-- ==== Proof.Blocks.lean ====
/-
  The sum over all pairs of rows, regrouped by blocks of 512 rows.

  A row index below 8192 is `512 a + p` for exactly one block `a < 16` and one row `p < 512` inside
  the block, so a sum over all rows is the sum over blocks of the sums inside a block; for a sum
  over pairs of rows the two inner sums are exchanged to bring the two block indices outside.  The
  block pair with number `t < 256` in row-major order is `(t / 16, t % 16)`, so adding one block
  pair's sum at a time for 256 steps adds every pair of blocks once.  Addition of extended reals is
  commutative and associative, which is all that these regroupings need.
-/
import proofs.«164100_j38646115730032_1_alg».proof.Proof.Spec

noncomputable section

open scoped BigOperators

namespace Cert.Blocks

open Idealize.ShloMosaic Idealize.ShloMosaic.ValueIdx Cert.Spec

/-- Row `p` of block `a`, as a row of the whole matrix: row `512 a + p`. -/
def row (a : Fin 16) (p : Fin 512) : Fin 8192 :=
  ⟨512 * a.val + p.val, by have := a.isLt; have := p.isLt; omega⟩

/-- Rows are pairs (block, row inside the block). -/
def rowEquiv : Fin 16 × Fin 512 ≃ Fin 8192 where
  toFun x := row x.1 x.2
  invFun i := (⟨i.val / 512, by have := i.isLt; omega⟩, ⟨i.val % 512, Nat.mod_lt _ (by decide)⟩)
  left_inv := by
    rintro ⟨⟨a, ha⟩, ⟨p, hp⟩⟩
    refine Prod.ext (Fin.ext ?_) (Fin.ext ?_)
    · show (512 * a + p) / 512 = a
      omega
    · show (512 * a + p) % 512 = p
      omega
  right_inv := by
    rintro ⟨i, hi⟩
    refine Fin.ext ?_
    show 512 * (i / 512) + i % 512 = i
    omega

/-- A sum over all rows is the sum over blocks of the sums over a block's rows. -/
theorem sum_rows (g : Fin 8192 → EReal) :
    ∑ i, g i = ∑ a : Fin 16, ∑ p : Fin 512, g (row a p) := by
  rw [← Equiv.sum_comp rowEquiv g, Fintype.sum_prod_type]
  rfl

/-- A sum over all pairs of rows is the sum over pairs of blocks of the sums over a pair of blocks. -/
theorem sum_rows2 (f : Fin 8192 → Fin 8192 → EReal) :
    ∑ i, ∑ j, f i j
      = ∑ a : Fin 16, ∑ b : Fin 16, ∑ p : Fin 512, ∑ q : Fin 512, f (row a p) (row b q) := by
  rw [sum_rows]
  refine Finset.sum_congr rfl fun a _ => ?_
  calc ∑ p : Fin 512, ∑ j, f (row a p) j
      = ∑ p : Fin 512, ∑ b : Fin 16, ∑ q : Fin 512, f (row a p) (row b q) :=
        Finset.sum_congr rfl fun p _ => sum_rows _
    _ = ∑ b : Fin 16, ∑ p : Fin 512, ∑ q : Fin 512, f (row a p) (row b q) := Finset.sum_comm

/-- Block pair number `16 a + b` is the pair `(a, b)`. -/
def pairEquiv : Fin 16 × Fin 16 ≃ Fin 256 where
  toFun x := ⟨16 * x.1.val + x.2.val, by have := x.1.isLt; have := x.2.isLt; omega⟩
  invFun t := (⟨t.val / 16, by have := t.isLt; omega⟩, ⟨t.val % 16, Nat.mod_lt _ (by decide)⟩)
  left_inv := by
    rintro ⟨⟨a, ha⟩, ⟨b, hb⟩⟩
    refine Prod.ext (Fin.ext ?_) (Fin.ext ?_)
    · show (16 * a + b) / 16 = a
      omega
    · show (16 * a + b) % 16 = b
      omega
  right_inv := by
    rintro ⟨t, ht⟩
    refine Fin.ext ?_
    show 16 * (t / 16) + t % 16 = t
    omega

/-- The first 256 numbers, read as `(t / 16, t % 16)`, run through every pair of blocks once. -/
theorem sum_pairs (h : Fin 16 → Fin 16 → EReal) :
    ∑ t ∈ Finset.range 256,
        h ⟨t / 16 % 16, Nat.mod_lt _ (by decide)⟩ ⟨t % 16, Nat.mod_lt _ (by decide)⟩
      = ∑ a : Fin 16, ∑ b : Fin 16, h a b := by
  rw [Finset.sum_range
    (fun t => h ⟨t / 16 % 16, Nat.mod_lt _ (by decide)⟩ ⟨t % 16, Nat.mod_lt _ (by decide)⟩)]
  refine ((Equiv.sum_comp pairEquiv _).symm.trans ?_).trans
    (Fintype.sum_prod_type (fun x : Fin 16 × Fin 16 => h x.1 x.2))
  refine Finset.sum_congr rfl fun x _ => ?_
  obtain ⟨⟨a, ha⟩, ⟨b, hb⟩⟩ := x
  have e1 : (16 * a + b) / 16 % 16 = a := by omega
  have e2 : (16 * a + b) % 16 = b := by omega
  show h ⟨(16 * a + b) / 16 % 16, _⟩ ⟨(16 * a + b) % 16, _⟩ = h ⟨a, ha⟩ ⟨b, hb⟩
  congr 1 <;> exact Fin.ext (by assumption)

/-- A block's entry is the matrix's entry in the block's row. -/
theorem blk_apply (x : Mat) (a : Fin 16) (p : Fin 512) (k : Fin 256) :
    blk x a (ix2 p k) = x (ix2 (row a p) k) := rfl

/-- A block's squared norms are the matrix's. -/
theorem sqnB_blk (x : Mat) (a : Fin 16) (p : Fin 512) : sqnB (blk x a) p = sqn x (row a p) := rfl

/-- Two blocks' inner products are the two matrices'. -/
theorem dotB_blk (x y : Mat) (a b : Fin 16) (p q : Fin 512) :
    dotB (blk x a) (blk y b) p q = dot x y (row a p) (row b q) := rfl

/-- Two blocks' terms are the two matrices'. -/
theorem termB_blk (x y : Mat) (a b : Fin 16) (p q : Fin 512) :
    termB (blk x a) (blk y b) p q = term x y (row a p) (row b q) := rfl

/-- One pair of blocks' sum, in the matrices' rows. -/
theorem blockSum_blk (x y : Mat) (a b : Fin 16) :
    blockSum (blk x a) (blk y b) = ∑ p : Fin 512, ∑ q : Fin 512, term x y (row a p) (row b q) := rfl

/-- The sum after `n` block pairs is the sum of the first `n` block pairs' sums. -/
theorem partialSum_eq_sum (x y : Mat) (n : Nat) :
    partialSum x y n = ∑ t ∈ Finset.range n,
      blockSum (blk x ⟨t / 16 % 16, Nat.mod_lt _ (by decide)⟩) (blk y ⟨t % 16, Nat.mod_lt _ (by decide)⟩) := by
  induction n with
  | zero => rfl
  | succ n ih => rw [Finset.sum_range_succ, ← ih]; rfl

/-- After all 256 block pairs the accumulated sum is the sum over all pairs of rows. -/
theorem partialSum_all (x y : Cert.Spec.Mat) : Cert.Spec.partialSum x y 256 = Cert.Spec.rbfSum x y := by
  refine (partialSum_eq_sum x y 256).trans ?_
  refine (sum_pairs (fun a b => blockSum (blk x a) (blk y b))).trans ?_
  unfold rbfSum
  rw [sum_rows2]
  rfl

end Cert.Blocks

end
-- ==== Proof.KI.Final.lean ====
/-
  What each of the three regions leaves in its 1 × 1 result array, over the extended reals: the sum over all
  pairs of rows of its two matrices.

  A region runs the body at the 256 points of a 16 × 16 grid in row-major order. At point `t` the first
  window holds block `t / 16` of the region's first matrix and the second window block `t % 16` of its second
  (a block's row `p` is the matrix's row `512 · block + p`: block index times block size plus the coordinate
  inside the block). The body adds the pair of blocks' sum to the accumulator, from zero at the first point,
  so after point `n` the accumulator holds the sum of the first `n + 1` block pairs' sums (induction on `n`);
  the output's buffer holds what the accumulator holds. The output is written back once, after the last
  point, when all 256 pairs have been added: that is the sum over all pairs of rows, and the block written
  is the whole 1 × 1 array.
-/
import proofs.«164100_j38646115730032_1_alg».proof.Proof.KI.R0
import proofs.«164100_j38646115730032_1_alg».proof.Proof.KI.R1
import proofs.«164100_j38646115730032_1_alg».proof.Proof.KI.R2
import proofs.«164100_j38646115730032_1_alg».proof.Proof.KI.Val
import proofs.«164100_j38646115730032_1_alg».proof.Proof.Payload
import proofs.«164100_j38646115730032_1_alg».proof.Proof.Blocks
import proofs.«164100_j38646115730032_1_alg».proof.Proof.Spec
import Idealize.ShloMosaic.Lib.Pipeline.Value

noncomputable section

open scoped BigOperators

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

/-! ## Region 0: both blocks from the first matrix -/

section Region0
variable (V : (c : Dev nD) → (b : Ref sig .tc) → Buf (Elt Ideal) ((c : Thread nD τ).loc b))

/-- Grid point `t` of the 16 × 16 grid is `(t / 16, t % 16)`; the first window's block index is the first
    coordinate, the second window's the second, each in column block 0: decided over the 256 points. -/
theorem index0 : ∀ t : Fin cfg0.N, win0_0.index t 0 = t.val / 16 ∧ win0_0.index t 1 = 0
      ∧ win0_1.index t 0 = t.val % 16 ∧ win0_1.index t 1 = 0 :=
  (by decide +kernel : ∀ t : Fin grid0.N, win0_0.index t 0 = t.val / 16 ∧ win0_0.index t 1 = 0
      ∧ win0_1.index t 0 = t.val % 16 ∧ win0_1.index t 1 = 0)

/-- The first window's block at point `t` is block `t / 16` of the first matrix. -/
theorem iblk0_0 (c : Dev nD) (t : Fin cfg0.N) :
    iblk0 (F := Ideal) V c 0 t = Cert.Spec.blk (V c main_arg0) ⟨t.val / 16 % 16, Nat.mod_lt _ (by decide)⟩ := by
  have hi := index0 t
  have hN : cfg0.N = 256 := N_0
  have ht := t.isLt
  funext j
  unfold iblk0 Cert.Spec.blk
  rw [View.read_apply]
  show V c main_arg0 _ = V c main_arg0 _
  congr 1
  funext a
  apply Fin.ext
  match a with
  | ⟨0, _⟩ =>
    show win0_0.index t 0 * 512 + 1 * (j 0).val = 512 * (t.val / 16 % 16) + (j 0).val
    rw [hi.1]; omega
  | ⟨1, _⟩ =>
    show win0_0.index t 1 * 256 + 1 * (j 1).val = (j 1).val
    rw [hi.2.1]; omega

/-- The second window's block at point `t` is block `t % 16` of the second matrix. -/
theorem iblk0_1 (c : Dev nD) (t : Fin cfg0.N) :
    iblk0 (F := Ideal) V c 1 t = Cert.Spec.blk (V c main_arg0) ⟨t.val % 16, Nat.mod_lt _ (by decide)⟩ := by
  have hi := index0 t
  funext j
  unfold iblk0 Cert.Spec.blk
  rw [View.read_apply]
  show V c main_arg0 _ = V c main_arg0 _
  congr 1
  funext a
  apply Fin.ext
  match a with
  | ⟨0, _⟩ =>
    show win0_1.index t 0 * 512 + 1 * (j 0).val = 512 * (t.val % 16) + (j 0).val
    rw [hi.2.2.1]; omega
  | ⟨1, _⟩ =>
    show win0_1.index t 1 * 256 + 1 * (j 1).val = (j 1).val
    rw [hi.2.2.2]; omega

/-- The accumulator after point `n` holds the sum of the first `n + 1` block pairs' sums: the first point
    adds its pair's sum to zero, every later point to what the point before left. -/
theorem held0_partial (c : Dev nD) : ∀ (n : ℕ) (hn : n < cfg0.N),
    (held0 (F := Ideal) V c n hn).2 = fun _ => Cert.Spec.partialSum (V c main_arg0) (V c main_arg0) (n + 1)
  | 0, hn => by
    rw [held0_zero V c hn]
    funext j
    rw [Cert.Payload.pay2_apply, Cert.Payload.pay1_apply, iblk0_0, iblk0_1]
    rfl
  | n + 1, hn => by
    rw [held0_succ V c n hn, held0_partial c n (Nat.lt_of_succ_lt hn)]
    funext j
    rw [Cert.Payload.pay2_apply, iblk0_0, iblk0_1]
    rfl

/-- The last grid point. -/
abbrev last0 : Fin cfg0.N := ⟨255, by decide⟩

/-- The sum over all pairs of rows, as the contents of the 1 × 1 result array. -/
abbrev result0 (c : Dev nD) : Buf (Elt Ideal) ((c : Thread nD τ).loc main_v0) :=
  fun _ => Cert.Spec.rbfSum (V c main_arg0) (V c main_arg0)

/-- The one write-back, after the last point, writes the sum over all pairs of rows: the accumulator then
    holds all 256 block pairs' sums, the output's buffer holds what the accumulator holds, and the block is
    the whole 1 × 1 array. -/
theorem flushed0_eq (c : Dev nD) (t : Fin cfg0.N) (hf : (cfg0.win 2).flush t = true) :
    (dat0 (F := Ideal) V c).flushed 2 t = ((cfg0.win 2).blk t).view.read (Elt Ideal) (result0 V c) := by
  have hN : cfg0.N = 256 := N_0
  have h255 : t.val = 255 := by have := (flush0_2 t).mp hf; have := t.isLt; omega
  obtain rfl : t = last0 := Fin.ext h255
  show (cfg0.win 2).cut (grid0.coords last0) ((dat0 V c).after 2 last0) = _
  rw [after0_2, held0_out_eq_acc, held0_partial]
  show (cfg0.win 2).cut (grid0.coords last0)
    (fun _ => Cert.Spec.partialSum (V c main_arg0) (V c main_arg0) 256) = _
  rw [Cert.Blocks.partialSum_all]
  have hz' : (fun a => win0_2.index last0 a * main_v0.ty.shape.size a) = fun _ => 0 :=
    funext fun a => by fin_cases a <;> decide
  exact (Memref.read_access_unit_zero (Elt Ideal) main_v0 hz' (fun a => by rw [congrFun hz' a]; simp)
    (result0 V c)).symm

/-- So the result array ends holding the sum over all pairs of rows: the last point's block covers it. -/
theorem final0 (c : Dev nD) :
    (dat0 (F := Ideal) V c).arrAt 2 cfg0.N = fun _ => Cert.Spec.rbfSum (V c main_arg0) (V c main_arg0) :=
  (dat0 V c).arrAt_eq_of_cover 2 (result0 V c) (flushed0_eq V c) fun i =>
    ⟨last0, (flush0_2 last0).mpr rfl, by
      show i ∈ ((View.whole main_v0).slice (win0_2.rect last0)).set
      rw [View.set_slice_whole, Rect.mem_set_unit]
      intro a
      have h0 : (i 0 : Nat) < 1 := (i 0).isLt
      have h1 : (i 1 : Nat) < 1 := (i 1).isLt
      match a with
      | ⟨0, _⟩ =>
        show win0_2.index last0 0 * win0_2.size 0 ≤ (i 0 : Nat)
          ∧ (i 0 : Nat) < win0_2.index last0 0 * win0_2.size 0 + win0_2.xsize (grid0.coords last0) 0
        rw [show win0_2.index last0 0 * win0_2.size 0 = 0 from by decide +kernel,
          show win0_2.xsize (grid0.coords last0) 0 = 1 from by decide +kernel]
        omega
      | ⟨1, _⟩ =>
        show win0_2.index last0 1 * win0_2.size 1 ≤ (i 1 : Nat)
          ∧ (i 1 : Nat) < win0_2.index last0 1 * win0_2.size 1 + win0_2.xsize (grid0.coords last0) 1
        rw [show win0_2.index last0 1 * win0_2.size 1 = 0 from by decide +kernel,
          show win0_2.xsize (grid0.coords last0) 1 = 1 from by decide +kernel]
        omega⟩

end Region0

/-! ## Region 1: both blocks from the second matrix -/

section Region1
variable (V : (c : Dev nD) → (b : Ref sig .tc) → Buf (Elt Ideal) ((c : Thread nD τ).loc b))

/-- Grid point `t` of the 16 × 16 grid is `(t / 16, t % 16)`; the first window's block index is the first
    coordinate, the second window's the second, each in column block 0: decided over the 256 points. -/
theorem index1 : ∀ t : Fin cfg1.N, win1_0.index t 0 = t.val / 16 ∧ win1_0.index t 1 = 0
      ∧ win1_1.index t 0 = t.val % 16 ∧ win1_1.index t 1 = 0 :=
  (by decide +kernel : ∀ t : Fin grid1.N, win1_0.index t 0 = t.val / 16 ∧ win1_0.index t 1 = 0
      ∧ win1_1.index t 0 = t.val % 16 ∧ win1_1.index t 1 = 0)

/-- The first window's block at point `t` is block `t / 16` of the first matrix. -/
theorem iblk1_0 (c : Dev nD) (t : Fin cfg1.N) :
    iblk1 (F := Ideal) V c 0 t = Cert.Spec.blk (V c main_arg2) ⟨t.val / 16 % 16, Nat.mod_lt _ (by decide)⟩ := by
  have hi := index1 t
  have hN : cfg1.N = 256 := N_1
  have ht := t.isLt
  funext j
  unfold iblk1 Cert.Spec.blk
  rw [View.read_apply]
  show V c main_arg2 _ = V c main_arg2 _
  congr 1
  funext a
  apply Fin.ext
  match a with
  | ⟨0, _⟩ =>
    show win1_0.index t 0 * 512 + 1 * (j 0).val = 512 * (t.val / 16 % 16) + (j 0).val
    rw [hi.1]; omega
  | ⟨1, _⟩ =>
    show win1_0.index t 1 * 256 + 1 * (j 1).val = (j 1).val
    rw [hi.2.1]; omega

/-- The second window's block at point `t` is block `t % 16` of the second matrix. -/
theorem iblk1_1 (c : Dev nD) (t : Fin cfg1.N) :
    iblk1 (F := Ideal) V c 1 t = Cert.Spec.blk (V c main_arg2) ⟨t.val % 16, Nat.mod_lt _ (by decide)⟩ := by
  have hi := index1 t
  funext j
  unfold iblk1 Cert.Spec.blk
  rw [View.read_apply]
  show V c main_arg2 _ = V c main_arg2 _
  congr 1
  funext a
  apply Fin.ext
  match a with
  | ⟨0, _⟩ =>
    show win1_1.index t 0 * 512 + 1 * (j 0).val = 512 * (t.val % 16) + (j 0).val
    rw [hi.2.2.1]; omega
  | ⟨1, _⟩ =>
    show win1_1.index t 1 * 256 + 1 * (j 1).val = (j 1).val
    rw [hi.2.2.2]; omega

/-- The accumulator after point `n` holds the sum of the first `n + 1` block pairs' sums: the first point
    adds its pair's sum to zero, every later point to what the point before left. -/
theorem held1_partial (c : Dev nD) : ∀ (n : ℕ) (hn : n < cfg1.N),
    (held1 (F := Ideal) V c n hn).2 = fun _ => Cert.Spec.partialSum (V c main_arg2) (V c main_arg2) (n + 1)
  | 0, hn => by
    rw [held1_zero V c hn]
    funext j
    rw [Cert.Payload.pay2_apply1, Cert.Payload.pay1_apply1, iblk1_0, iblk1_1]
    rfl
  | n + 1, hn => by
    rw [held1_succ V c n hn, held1_partial c n (Nat.lt_of_succ_lt hn)]
    funext j
    rw [Cert.Payload.pay2_apply1, iblk1_0, iblk1_1]
    rfl

/-- The last grid point. -/
abbrev last1 : Fin cfg1.N := ⟨255, by decide⟩

/-- The sum over all pairs of rows, as the contents of the 1 × 1 result array. -/
abbrev result1 (c : Dev nD) : Buf (Elt Ideal) ((c : Thread nD τ).loc main_v2) :=
  fun _ => Cert.Spec.rbfSum (V c main_arg2) (V c main_arg2)

/-- The one write-back, after the last point, writes the sum over all pairs of rows: the accumulator then
    holds all 256 block pairs' sums, the output's buffer holds what the accumulator holds, and the block is
    the whole 1 × 1 array. -/
theorem flushed1_eq (c : Dev nD) (t : Fin cfg1.N) (hf : (cfg1.win 2).flush t = true) :
    (dat1 (F := Ideal) V c).flushed 2 t = ((cfg1.win 2).blk t).view.read (Elt Ideal) (result1 V c) := by
  have hN : cfg1.N = 256 := N_1
  have h255 : t.val = 255 := by have := (flush1_2 t).mp hf; have := t.isLt; omega
  obtain rfl : t = last1 := Fin.ext h255
  show (cfg1.win 2).cut (grid1.coords last1) ((dat1 V c).after 2 last1) = _
  rw [after1_2, held1_out_eq_acc, held1_partial]
  show (cfg1.win 2).cut (grid1.coords last1)
    (fun _ => Cert.Spec.partialSum (V c main_arg2) (V c main_arg2) 256) = _
  rw [Cert.Blocks.partialSum_all]
  have hz' : (fun a => win1_2.index last1 a * main_v2.ty.shape.size a) = fun _ => 0 :=
    funext fun a => by fin_cases a <;> decide
  exact (Memref.read_access_unit_zero (Elt Ideal) main_v2 hz' (fun a => by rw [congrFun hz' a]; simp)
    (result1 V c)).symm

/-- So the result array ends holding the sum over all pairs of rows: the last point's block covers it. -/
theorem final1 (c : Dev nD) :
    (dat1 (F := Ideal) V c).arrAt 2 cfg1.N = fun _ => Cert.Spec.rbfSum (V c main_arg2) (V c main_arg2) :=
  (dat1 V c).arrAt_eq_of_cover 2 (result1 V c) (flushed1_eq V c) fun i =>
    ⟨last1, (flush1_2 last1).mpr rfl, by
      show i ∈ ((View.whole main_v2).slice (win1_2.rect last1)).set
      rw [View.set_slice_whole, Rect.mem_set_unit]
      intro a
      have h0 : (i 0 : Nat) < 1 := (i 0).isLt
      have h1 : (i 1 : Nat) < 1 := (i 1).isLt
      match a with
      | ⟨0, _⟩ =>
        show win1_2.index last1 0 * win1_2.size 0 ≤ (i 0 : Nat)
          ∧ (i 0 : Nat) < win1_2.index last1 0 * win1_2.size 0 + win1_2.xsize (grid1.coords last1) 0
        rw [show win1_2.index last1 0 * win1_2.size 0 = 0 from by decide +kernel,
          show win1_2.xsize (grid1.coords last1) 0 = 1 from by decide +kernel]
        omega
      | ⟨1, _⟩ =>
        show win1_2.index last1 1 * win1_2.size 1 ≤ (i 1 : Nat)
          ∧ (i 1 : Nat) < win1_2.index last1 1 * win1_2.size 1 + win1_2.xsize (grid1.coords last1) 1
        rw [show win1_2.index last1 1 * win1_2.size 1 = 0 from by decide +kernel,
          show win1_2.xsize (grid1.coords last1) 1 = 1 from by decide +kernel]
        omega⟩

end Region1

/-! ## Region 2: the first block from the first matrix, the second from the second -/

section Region2
variable (V : (c : Dev nD) → (b : Ref sig .tc) → Buf (Elt Ideal) ((c : Thread nD τ).loc b))

/-- Grid point `t` of the 16 × 16 grid is `(t / 16, t % 16)`; the first window's block index is the first
    coordinate, the second window's the second, each in column block 0: decided over the 256 points. -/
theorem index2 : ∀ t : Fin cfg2.N, win2_0.index t 0 = t.val / 16 ∧ win2_0.index t 1 = 0
      ∧ win2_1.index t 0 = t.val % 16 ∧ win2_1.index t 1 = 0 :=
  (by decide +kernel : ∀ t : Fin grid2.N, win2_0.index t 0 = t.val / 16 ∧ win2_0.index t 1 = 0
      ∧ win2_1.index t 0 = t.val % 16 ∧ win2_1.index t 1 = 0)

/-- The first window's block at point `t` is block `t / 16` of the first matrix. -/
theorem iblk2_0 (c : Dev nD) (t : Fin cfg2.N) :
    iblk2 (F := Ideal) V c 0 t = Cert.Spec.blk (V c main_arg0) ⟨t.val / 16 % 16, Nat.mod_lt _ (by decide)⟩ := by
  have hi := index2 t
  have hN : cfg2.N = 256 := N_2
  have ht := t.isLt
  funext j
  unfold iblk2 Cert.Spec.blk
  rw [View.read_apply]
  show V c main_arg0 _ = V c main_arg0 _
  congr 1
  funext a
  apply Fin.ext
  match a with
  | ⟨0, _⟩ =>
    show win2_0.index t 0 * 512 + 1 * (j 0).val = 512 * (t.val / 16 % 16) + (j 0).val
    rw [hi.1]; omega
  | ⟨1, _⟩ =>
    show win2_0.index t 1 * 256 + 1 * (j 1).val = (j 1).val
    rw [hi.2.1]; omega

/-- The second window's block at point `t` is block `t % 16` of the second matrix. -/
theorem iblk2_1 (c : Dev nD) (t : Fin cfg2.N) :
    iblk2 (F := Ideal) V c 1 t = Cert.Spec.blk (V c main_arg2) ⟨t.val % 16, Nat.mod_lt _ (by decide)⟩ := by
  have hi := index2 t
  funext j
  unfold iblk2 Cert.Spec.blk
  rw [View.read_apply]
  show V c main_arg2 _ = V c main_arg2 _
  congr 1
  funext a
  apply Fin.ext
  match a with
  | ⟨0, _⟩ =>
    show win2_1.index t 0 * 512 + 1 * (j 0).val = 512 * (t.val % 16) + (j 0).val
    rw [hi.2.2.1]; omega
  | ⟨1, _⟩ =>
    show win2_1.index t 1 * 256 + 1 * (j 1).val = (j 1).val
    rw [hi.2.2.2]; omega

/-- The accumulator after point `n` holds the sum of the first `n + 1` block pairs' sums: the first point
    adds its pair's sum to zero, every later point to what the point before left. -/
theorem held2_partial (c : Dev nD) : ∀ (n : ℕ) (hn : n < cfg2.N),
    (held2 (F := Ideal) V c n hn).2 = fun _ => Cert.Spec.partialSum (V c main_arg0) (V c main_arg2) (n + 1)
  | 0, hn => by
    rw [held2_zero V c hn]
    funext j
    rw [Cert.Payload.pay2_apply2, Cert.Payload.pay1_apply2, iblk2_0, iblk2_1]
    rfl
  | n + 1, hn => by
    rw [held2_succ V c n hn, held2_partial c n (Nat.lt_of_succ_lt hn)]
    funext j
    rw [Cert.Payload.pay2_apply2, iblk2_0, iblk2_1]
    rfl

/-- The last grid point. -/
abbrev last2 : Fin cfg2.N := ⟨255, by decide⟩

/-- The sum over all pairs of rows, as the contents of the 1 × 1 result array. -/
abbrev result2 (c : Dev nD) : Buf (Elt Ideal) ((c : Thread nD τ).loc main_v4) :=
  fun _ => Cert.Spec.rbfSum (V c main_arg0) (V c main_arg2)

/-- The one write-back, after the last point, writes the sum over all pairs of rows: the accumulator then
    holds all 256 block pairs' sums, the output's buffer holds what the accumulator holds, and the block is
    the whole 1 × 1 array. -/
theorem flushed2_eq (c : Dev nD) (t : Fin cfg2.N) (hf : (cfg2.win 2).flush t = true) :
    (dat2 (F := Ideal) V c).flushed 2 t = ((cfg2.win 2).blk t).view.read (Elt Ideal) (result2 V c) := by
  have hN : cfg2.N = 256 := N_2
  have h255 : t.val = 255 := by have := (flush2_2 t).mp hf; have := t.isLt; omega
  obtain rfl : t = last2 := Fin.ext h255
  show (cfg2.win 2).cut (grid2.coords last2) ((dat2 V c).after 2 last2) = _
  rw [after2_2, held2_out_eq_acc, held2_partial]
  show (cfg2.win 2).cut (grid2.coords last2)
    (fun _ => Cert.Spec.partialSum (V c main_arg0) (V c main_arg2) 256) = _
  rw [Cert.Blocks.partialSum_all]
  have hz' : (fun a => win2_2.index last2 a * main_v4.ty.shape.size a) = fun _ => 0 :=
    funext fun a => by fin_cases a <;> decide
  exact (Memref.read_access_unit_zero (Elt Ideal) main_v4 hz' (fun a => by rw [congrFun hz' a]; simp)
    (result2 V c)).symm

/-- So the result array ends holding the sum over all pairs of rows: the last point's block covers it. -/
theorem final2 (c : Dev nD) :
    (dat2 (F := Ideal) V c).arrAt 2 cfg2.N = fun _ => Cert.Spec.rbfSum (V c main_arg0) (V c main_arg2) :=
  (dat2 V c).arrAt_eq_of_cover 2 (result2 V c) (flushed2_eq V c) fun i =>
    ⟨last2, (flush2_2 last2).mpr rfl, by
      show i ∈ ((View.whole main_v4).slice (win2_2.rect last2)).set
      rw [View.set_slice_whole, Rect.mem_set_unit]
      intro a
      have h0 : (i 0 : Nat) < 1 := (i 0).isLt
      have h1 : (i 1 : Nat) < 1 := (i 1).isLt
      match a with
      | ⟨0, _⟩ =>
        show win2_2.index last2 0 * win2_2.size 0 ≤ (i 0 : Nat)
          ∧ (i 0 : Nat) < win2_2.index last2 0 * win2_2.size 0 + win2_2.xsize (grid2.coords last2) 0
        rw [show win2_2.index last2 0 * win2_2.size 0 = 0 from by decide +kernel,
          show win2_2.xsize (grid2.coords last2) 0 = 1 from by decide +kernel]
        omega
      | ⟨1, _⟩ =>
        show win2_2.index last2 1 * win2_2.size 1 ≤ (i 1 : Nat)
          ∧ (i 1 : Nat) < win2_2.index last2 1 * win2_2.size 1 + win2_2.xsize (grid2.coords last2) 1
        rw [show win2_2.index last2 1 * win2_2.size 1 = 0 from by decide +kernel,
          show win2_2.xsize (grid2.coords last2) 1 = 1 from by decide +kernel]
        omega⟩

end Region2

end Cert.KernelIdeal.Hand

end
-- ==== Proof.KernelSide.lean ====
/-
  The idealized kernel program's run, read as the specification's value.

  The assembled run of @main ends with every unscoped buffer of a core at the last valuation. The result buffer
  there is the eleven host operations after the last call applied to the three calls' 1×1 output arrays; each of
  those arrays holds the radial-basis sum of its call's two feature matrices (the accumulator after the last of
  the 256 block pairs), and the feature matrices are the launch contents of the arguments throughout. So the
  result is  mmd (rbfSum s s) (rbfSum t t) (rbfSum s t), the value the reference ends with.
-/
import proofs.«164100_j38646115730032_1_alg».proof.Defs
import proofs.«164100_j38646115730032_1_alg».proof.Proof.KI.Main
import proofs.«164100_j38646115730032_1_alg».proof.Proof.KI.Result
import proofs.«164100_j38646115730032_1_alg».proof.Proof.KI.Final
import proofs.«164100_j38646115730032_1_alg».proof.Proof.RefSide

noncomputable section

namespace Cert.Proof.KernelSide

open Idealize.ShloMosaic Idealize.ShloMosaic.TcCoe Idealize.SL.Sem
open Cert.KernelIdeal Cert.KernelIdeal.Gen Cert.KernelIdeal.Hand

/-- The eleven closing host operations on three constant 1×1 arrays: the specification's combination. -/
theorem combine_const (a b d : EReal) :
    combine (F := Ideal) (fun _ => a) (fun _ => b) (fun _ => d) = fun _ => Cert.Spec.mmd a b d := by
  funext i
  rfl

/-- Every weakly fair execution of the idealized kernel program terminates with its arguments unchanged and its
    result at the specification's value of the two feature matrices it was launched with. -/
theorem run_value (m : (ℓ : Loc Cert.KernelIdeal.nD Cert.KernelIdeal.τ Cert.KernelIdeal.sig) → Buf (Elt Ideal) ℓ) (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩ (fun r => ∀ c : Dev Cert.KernelIdeal.nD,
      r.2.mem ((c.tc : Thread Cert.KernelIdeal.nD Cert.KernelIdeal.τ).loc Cert.KernelIdeal.main_v11) = (fun _ => Cert.Proof.RefSide.result (m ((c.tc : Thread Cert.KernelIdeal.nD Cert.KernelIdeal.τ).loc Cert.KernelIdeal.main_arg0)) (m ((c.tc : Thread Cert.KernelIdeal.nD Cert.KernelIdeal.τ).loc Cert.KernelIdeal.main_arg2)))
      ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)) := by
  refine (θ_run (Cert.KernelIdeal.defs (F := Ideal)) _ _).mono (fun r h c => ⟨?_, ?_, ?_, ?_, ?_⟩) (run_all (F := Ideal) m ρ)
  · refine (h c _ (mem_uc main_v11 (by decide))).trans ?_
    rw [W6_result, final0, final1, final2]
    refine (combine_const _ _ _).trans ?_
    rw [show V0 m ρ c main_arg0 = m ((c.tc : Thread Cert.KernelIdeal.nD Cert.KernelIdeal.τ).loc Cert.KernelIdeal.main_arg0) from W0_main_arg0 m ρ c,
      show V2 m ρ c main_arg2 = m ((c.tc : Thread Cert.KernelIdeal.nD Cert.KernelIdeal.τ).loc Cert.KernelIdeal.main_arg2) from W2_main_arg2 m ρ c,
      show V4 m ρ c main_arg0 = m ((c.tc : Thread Cert.KernelIdeal.nD Cert.KernelIdeal.τ).loc Cert.KernelIdeal.main_arg0) from W4_main_arg0 m ρ c,
      show V4 m ρ c main_arg2 = m ((c.tc : Thread Cert.KernelIdeal.nD Cert.KernelIdeal.τ).loc Cert.KernelIdeal.main_arg2) from W4_main_arg2 m ρ c]
    rfl
  · exact (h c _ (mem_uc main_arg0 (by decide))).trans (W6_main_arg0 m ρ c)
  · exact (h c _ (mem_uc main_arg1 (by decide))).trans (W6_main_arg1 m ρ c)
  · exact (h c _ (mem_uc main_arg2 (by decide))).trans (W6_main_arg2 m ρ c)
  · exact (h c _ (mem_uc main_arg3 (by decide))).trans (W6_main_arg3 m ρ c)

end Cert.Proof.KernelSide

end
-- ==== Proof.lean ====
/-
  The certificate's claim: the maximum-mean-discrepancy kernel against its reference.

  Both programs compute, from two feature matrices s, t of 8192 rows and 256 columns,
    mmd = R(s, s) / n² + R(t, t) / n² − 2 · R(s, t) / n²,    n² = 8192²,
  where R(x, y) = ∑ i, ∑ j, exp (max (|x_i|² + |y_j|² − 2 · ⟨x_i, y_j⟩) 0 · (−1/2)) is the radial-basis sum over all
  pairs of rows (Proof/Spec.lean). The reference computes each R whole, negating the clipped squared distance and
  dividing it by 2 where the kernel multiplies it by −1/2: equal on every extended real. The kernel computes each R in
  a call of its own that walks the 16 × 16 pairs of 512-row blocks in row-major order, adding each pair's sum to a 1 × 1
  accumulator it carries from one grid point to the next and writing the accumulator out after the last pair; the sum
  over all pairs of rows is the sum over the block pairs of the block sums (Proof/Blocks.lean), in any order, the
  extended reals being a commutative monoid under addition. The three sums are then combined by the same eleven
  scalar operations in both programs. No law used needs finiteness, so the precondition is never opened.

  The five conjuncts: the two kernel programs' frames (every weakly fair execution terminates, nothing faults, the
  arguments end unchanged) from the assembled run of @main — three calls and three stretches of host operations over
  a thread state that tracks every unscoped buffer (Proof/K/Main.lean at the word level, Proof/KI/Main.lean idealized) —;
  the reference's frame from its generated run; the idealization rewrote no operation, so its conjunct is `True`;
  and the two idealized runs end with equal results: both at the value above of the launch arguments
  (Proof/KernelSide.lean, Proof/RefSide.lean), which agree by hypothesis.
-/
import proofs.«164100_j38646115730032_1_alg».proof.Defs
import proofs.«164100_j38646115730032_1_alg».proof.Proof.Gen.Kernel
import proofs.«164100_j38646115730032_1_alg».proof.Proof.Gen.Kernel.Skeleton
import proofs.«164100_j38646115730032_1_alg».proof.Proof.Gen.Kernel.Launch
import proofs.«164100_j38646115730032_1_alg».proof.Proof.Gen.Kernel.Regions
import proofs.«164100_j38646115730032_1_alg».proof.Proof.Gen.Kernel.Points
import proofs.«164100_j38646115730032_1_alg».proof.Proof.Gen.KernelIdeal
import proofs.«164100_j38646115730032_1_alg».proof.Proof.Gen.KernelIdeal.Skeleton
import proofs.«164100_j38646115730032_1_alg».proof.Proof.Gen.KernelIdeal.Launch
import proofs.«164100_j38646115730032_1_alg».proof.Proof.Gen.KernelIdeal.Regions
import proofs.«164100_j38646115730032_1_alg».proof.Proof.Gen.KernelIdeal.Points
import proofs.«164100_j38646115730032_1_alg».proof.Proof.Gen.ReferenceIdeal
import proofs.«164100_j38646115730032_1_alg».proof.Proof.Gen.ReferenceIdeal.Run
import proofs.«164100_j38646115730032_1_alg».proof.Proof.Gen.ReferenceIdeal.Read
import proofs.«164100_j38646115730032_1_alg».proof.Proof.Gen.Pre_finite_inputs
import proofs.«164100_j38646115730032_1_alg».proof.Proof.K.Main
import proofs.«164100_j38646115730032_1_alg».proof.Proof.KI.Main
import proofs.«164100_j38646115730032_1_alg».proof.Proof.RefSide
import proofs.«164100_j38646115730032_1_alg».proof.Proof.KernelSide
import Idealize.ShloMosaic.Adequacy
import Idealize.ShloMosaic.Init

noncomputable section

namespace Cert.Proof

open Idealize.ShloMosaic Idealize.SL.Sem

/-- The word-level kernel program runs to its end with its arguments unchanged. -/
theorem frame_kernel : Cert.frame_Kernel := fun m ρ _ => Cert.Kernel.Hand.frame (F := Bits) m ρ

/-- So does its idealization. -/
theorem frame_kernelIdeal : Cert.frame_KernelIdeal := fun m ρ _ => Cert.KernelIdeal.Hand.frame (F := Ideal) m ρ

/-- The idealization rewrote nothing: there is nothing to preserve. -/
theorem preserves : Cert.preserves_Kernel_KernelIdeal := trivial

/-- From memories that agree on the arguments, the idealized kernel and the idealized reference both run, each to
    the specification's value of the two feature matrices: the same extended real. -/
theorem algebraic : Cert.algebraic_KernelIdeal_ReferenceIdeal := by
  intro m ρ m' ρ' _ hagree
  refine ⟨_, Cert.Proof.KernelSide.run_value m ρ, ?_⟩
  refine (θ_run Cert.ReferenceIdeal.defs _ _).mono (fun _ h c => ⟨(h c).1.trans ?_, (h c).2⟩)
    (Cert.Proof.RefSide.run_value m' ρ')
  rw [(hagree c).1, (hagree c).2.2.1]
  rfl

theorem claim : Cert.Claim := ⟨Cert.Kernel.Gen.facts, Cert.KernelIdeal.Gen.facts, Cert.ReferenceIdeal.Gen.facts, Cert.Pre_finite_inputs.Gen.facts,
  frame_kernel, frame_kernelIdeal, Cert.Proof.RefSide.frame_ri, preserves, algebraic⟩

end Cert.Proof

end
